-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x11008 : Shape := ⟨2, ![4096, 11008]⟩
abbrev S32x11008 : Shape := ⟨2, ![32, 11008]⟩
abbrev S11008x4096 : Shape := ⟨2, ![11008, 4096]⟩
abbrev S86x4096 : Shape := ⟨2, ![86, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S86x4096 : S_.BroadcastsInDim S86x4096 (![] : Fin 0 → Fin S86x4096.rank)
  reducesTo_S86x4096_S_d0_1 : S86x4096.ReducesTo [0, 1] S_

variable [Facts]

def fn_part1 {F : FTy → Type} [FloatOps F] (main_v13 : IVec S_ 1) (main_v16 : IVec S86x4096 1) : IVec S_ 1 :=
  let main_c_5 : IVec S_ 1 := constantI S_ 1 1#1
  let main_v17 : IVec S_ 1 := (fun x v => Host.reduce IntOp.andi x v reducesTo_S86x4096_S_d0_1 h_S_) main_v16 main_c_5
  let main_v18 : IVec S_ 1 := andi main_v13 main_v17
  main_v18

def fn {F : FTy → Type} [FloatOps F] (main_arg0 : FVec F S2x2048x4096 .f32) (main_arg1 : IVec S4096x11008 32) (main_arg2 : IVec S32x11008 32) (main_arg3 : FVec F S32x11008 .f32) (main_arg4 : IVec S4096x11008 32) (main_arg5 : IVec S32x11008 32) (main_arg6 : FVec F S32x11008 .f32) (main_arg7 : IVec S11008x4096 32) (main_arg8 : IVec S86x4096 32) (main_arg9 : FVec F S86x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg6
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  let main_v14 : FVec F S86x4096 .f32 := Host.absf main_arg9
  let main_cst_4 : FVec F S_ .f32 := constant S_ .f32 0x7F800000#32
  let main_v15 : FVec F S86x4096 .f32 := broadcastInDim S86x4096 ![] bcast_S_S86x4096 main_cst_4
  let main_v16 : IVec S86x4096 1 := cmpf .olt main_v14 main_v15
  fn_part1 (F := F) main_v13 main_v16
-- ==== Kernel.lean ====
abbrev S2x2048x4096 : Shape := ⟨3, ![2, 2048, 4096]⟩
abbrev S4096x11008 : Shape := ⟨2, ![4096, 11008]⟩
abbrev S32x11008 : Shape := ⟨2, ![32, 11008]⟩
abbrev S11008x4096 : Shape := ⟨2, ![11008, 4096]⟩
abbrev S86x4096 : Shape := ⟨2, ![86, 4096]⟩
abbrev S4096x4096 : Shape := ⟨2, ![4096, 4096]⟩
abbrev S1024x1024 : Shape := ⟨2, ![1024, 1024]⟩
abbrev S1024x256 : Shape := ⟨2, ![1024, 256]⟩
abbrev S8x256 : Shape := ⟨2, ![8, 256]⟩
abbrev S1x256 : Shape := ⟨2, ![1, 256]⟩
abbrev S128x256 : Shape := ⟨2, ![128, 256]⟩
abbrev S_ : Shape := ⟨0, ![]⟩
abbrev S4096x11264 : Shape := ⟨2, ![4096, 11264]⟩
abbrev S11264x4096 : Shape := ⟨2, ![11264, 4096]⟩
abbrev S88x4096 : Shape := ⟨2, ![88, 4096]⟩
abbrev S1024x512 : Shape := ⟨2, ![1024, 512]⟩
abbrev S8x512 : Shape := ⟨2, ![8, 512]⟩
abbrev S1x512 : Shape := ⟨2, ![1, 512]⟩
abbrev S128x512 : Shape := ⟨2, ![128, 512]⟩

abbrev nBuf : Space → Nat
  | .hbm => 27
  | .vmem => 29
  | .smem => 0
  | _ => 0

abbrev bufTy : (tb : Table) → Fin (tcTables nBuf tb) → BufTy
  | .hbm, ⟨0, _⟩ => ⟨S2x2048x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S4096x11008, .i32⟩
  | .hbm, ⟨5, _⟩ => ⟨S32x11008, .i32⟩
  | .hbm, ⟨6, _⟩ => ⟨S32x11008, .f32⟩
  | .hbm, ⟨7, _⟩ => ⟨S11008x4096, .i32⟩
  | .hbm, ⟨8, _⟩ => ⟨S86x4096, .i32⟩
  | .hbm, ⟨9, _⟩ => ⟨S86x4096, .f32⟩
  | .hbm, ⟨10, _⟩ => ⟨S4096x4096, .f32⟩
  | .hbm, ⟨11, _⟩ => ⟨S4096x4096, .bf16⟩
  | .hbm, ⟨12, _⟩ => ⟨S4096x11008, .bf16⟩
  | .hbm, ⟨13, _⟩ => ⟨S_, .i32⟩
  | .hbm, ⟨14, _⟩ => ⟨S_, .bf16⟩
  | .hbm, ⟨15, _⟩ => ⟨S4096x11264, .bf16⟩
  | .hbm, ⟨16, _⟩ => ⟨S_, .i32⟩
  | .hbm, ⟨17, _⟩ => ⟨S_, .i32⟩
  | .hbm, ⟨18, _⟩ => ⟨S11264x4096, .i32⟩
  | .hbm, ⟨19, _⟩ => ⟨S_, .i32⟩
  | .hbm, ⟨20, _⟩ => ⟨S_, .i32⟩
  | .hbm, ⟨21, _⟩ => ⟨S88x4096, .i32⟩
  | .hbm, ⟨22, _⟩ => ⟨S_, .i32⟩
  | .hbm, ⟨23, _⟩ => ⟨S_, .f32⟩
  | .hbm, ⟨24, _⟩ => ⟨S88x4096, .f32⟩
  | .hbm, ⟨25, _⟩ => ⟨S4096x4096, .f32⟩
  | .hbm, ⟨26, _⟩ => ⟨S2x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .i32⟩
  | .local _ .vmem, ⟨3, _⟩ => ⟨S1024x256, .i32⟩
  | .local _ .vmem, ⟨4, _⟩ => ⟨S8x256, .i32⟩
  | .local _ .vmem, ⟨5, _⟩ => ⟨S8x256, .i32⟩
  | .local _ .vmem, ⟨6, _⟩ => ⟨S8x256, .f32⟩
  | .local _ .vmem, ⟨7, _⟩ => ⟨S8x256, .f32⟩
  | .local _ .vmem, ⟨8, _⟩ => ⟨S1024x256, .i32⟩
  | .local _ .vmem, ⟨9, _⟩ => ⟨S1024x256, .i32⟩
  | .local _ .vmem, ⟨10, _⟩ => ⟨S8x256, .i32⟩
  | .local _ .vmem, ⟨11, _⟩ => ⟨S8x256, .i32⟩
  | .local _ .vmem, ⟨12, _⟩ => ⟨S8x256, .f32⟩
  | .local _ .vmem, ⟨13, _⟩ => ⟨S8x256, .f32⟩
  | .local _ .vmem, ⟨14, _⟩ => ⟨S1024x256, .bf16⟩
  | .local _ .vmem, ⟨15, _⟩ => ⟨S1024x256, .bf16⟩
  | .local _ .vmem, ⟨16, _⟩ => ⟨S1024x256, .f32⟩
  | .local _ .vmem, ⟨17, _⟩ => ⟨S1024x256, .f32⟩
  | .local _ .vmem, ⟨18, _⟩ => ⟨S1024x1024, .bf16⟩
  | .local _ .vmem, ⟨19, _⟩ => ⟨S1024x1024, .bf16⟩
  | .local _ .vmem, ⟨20, _⟩ => ⟨S1024x512, .i32⟩
  | .local _ .vmem, ⟨21, _⟩ => ⟨S1024x512, .i32⟩
  | .local _ .vmem, ⟨22, _⟩ => ⟨S8x512, .i32⟩
  | .local _ .vmem, ⟨23, _⟩ => ⟨S8x512, .i32⟩
  | .local _ .vmem, ⟨24, _⟩ => ⟨S8x512, .f32⟩
  | .local _ .vmem, ⟨25, _⟩ => ⟨S8x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_c_1 : Ref sig .tc := ⟨.hbm, 19, rfl⟩
abbrev main_call2_v0 : Ref sig .tc := ⟨.hbm, 20, rfl⟩
abbrev main_v5 : Ref sig .tc := ⟨.hbm, 21, rfl⟩
abbrev main_c_2 : Ref sig .tc := ⟨.hbm, 22, rfl⟩
abbrev main_call3_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨3, ![4, 43, 4], ![false, false, false]⟩

def k0_cond2 (i : grid0.Coords) : BitVec 1 :=
  let arg2 : BitVec 32 := BitVec.ofNat 32 (i 2).val
  let c3_i32 : BitVec 32 := 3#32
  let v133 : BitVec 1 := Scalar.cmpi .eq arg2 c3_i32
  let v134 : BitVec 32 := Scalar.extui v133
  let c0_i32_23 : BitVec 32 := 0#32
  let v135 : BitVec 1 := Scalar.cmpi .ne v134 c0_i32_23
  v135

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S8x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![4, 8, 11], ![false, false, false]⟩

def k1_cond2 (i : grid1.Coords) : BitVec 1 :=
  let arg2 : BitVec 32 := BitVec.ofNat 32 (i 2).val
  let c10_i32 : BitVec 32 := 10#32
  let v72 : BitVec 1 := Scalar.cmpi .eq arg2 c10_i32
  let v73 : BitVec 32 := Scalar.extui v72
  let c0_i32_12 : BitVec 32 := 0#32
  let v74 : BitVec 1 := Scalar.cmpi .ne v73 c0_i32_12
  v74

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S8x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S2x2048x4096_S4096x4096 : S2x2048x4096.ShapeCasts S4096x4096
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S8x256_S8x256_0_0 : ∀ a, (![0, 0] : Fin 2 → Nat) a + S8x256.size a ≤ S8x256.size a
  h_S8x256 : 0 < S8x256.numel
  slices_S8x256_o0_0_S1x256 : S8x256.Slices ![0, 0] S1x256
  shapeCasts_S1x256_S1x256 : S1x256.ShapeCasts S1x256
  broadcasts_S1x256_S128x256 : S1x256.Broadcasts S128x256
  slices_S8x256_o1_0_S1x256 : S8x256.Slices ![1, 0] S1x256
  slices_S8x256_o2_0_S1x256 : S8x256.Slices ![2, 0] S1x256
  slices_S8x256_o3_0_S1x256 : S8x256.Slices ![3, 0] S1x256
  slices_S8x256_o4_0_S1x256 : S8x256.Slices ![4, 0] S1x256
  slices_S8x256_o5_0_S1x256 : S8x256.Slices ![5, 0] S1x256
  slices_S8x256_o6_0_S1x256 : S8x256.Slices ![6, 0] S1x256
  slices_S8x256_o7_0_S1x256 : S8x256.Slices ![7, 0] S1x256
  concatenates_S128x256_S128x256_S128x256_S128x256_S128x256_S128x256_S128x256_S128x256_S1024x256_d0 : Shape.Concatenates [S128x256, S128x256, S128x256, S128x256, S128x256, S128x256, S128x256, S128x256] S1024x256 0
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x256_S1024x256_0_0 : (Rect.unit (s := S1024x256) ![0, 0] S1024x256.size inb_S1024x256_S1024x256_0_0).PackedRows (EltTy.packing .bf16)
  pads_S4096x11008_S4096x11264_000_02560 : S4096x11008.Pads (![0, 0] : Fin 2 → Nat) ![0, 256] ![0, 0] S4096x11264
  h_S_ : 0 < S_.numel
  pads_S11008x4096_S11264x4096_02560_000 : S11008x4096.Pads (![0, 0] : Fin 2 → Nat) ![256, 0] ![0, 0] S11264x4096
  pads_S86x4096_S88x4096_020_000 : S86x4096.Pads (![0, 0] : Fin 2 → Nat) ![2, 0] ![0, 0] S88x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S1x512 : S8x512.Slices ![0, 0] S1x512
  shapeCasts_S1x512_S1x512 : S1x512.ShapeCasts S1x512
  broadcasts_S1x512_S128x512 : S1x512.Broadcasts S128x512
  slices_S8x512_o1_0_S1x512 : S8x512.Slices ![1, 0] S1x512
  slices_S8x512_o2_0_S1x512 : S8x512.Slices ![2, 0] S1x512
  slices_S8x512_o3_0_S1x512 : S8x512.Slices ![3, 0] S1x512
  slices_S8x512_o4_0_S1x512 : S8x512.Slices ![4, 0] S1x512
  slices_S8x512_o5_0_S1x512 : S8x512.Slices ![5, 0] S1x512
  slices_S8x512_o6_0_S1x512 : S8x512.Slices ![6, 0] S1x512
  slices_S8x512_o7_0_S1x512 : S8x512.Slices ![7, 0] S1x512
  concatenates_S128x512_S128x512_S128x512_S128x512_S128x512_S128x512_S128x512_S128x512_S1024x512_d0 : Shape.Concatenates [S128x512, S128x512, S128x512, S128x512, S128x512, S128x512, S128x512, S128x512] S1024x512 0
  shapeCasts_S4096x4096_S2x2048x4096 : S4096x4096.ShapeCasts S2x2048x4096
  dot_S1024x1024_S1024x256_S1024x256_1_0_0_1_n_n_wf : DotDims.WF S1024x1024 S1024x256 S1024x256 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x11008.size a
  hwx0_1 : ∀ i : grid0.Coords, EltTy.bits .i32 = 32 ∨ (Rect.block (s := S4096x11008) S1024x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S32x11008.size a
  hwx0_2 : ∀ i : grid0.Coords, EltTy.bits .i32 = 32 ∨ (Rect.block (s := S32x11008) S8x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S32x11008.size a
  hwx0_3 : ∀ i : grid0.Coords, EltTy.bits .f32 = 32 ∨ (Rect.block (s := S32x11008) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x11008.size a
  hwx0_4 : ∀ i : grid0.Coords, EltTy.bits .i32 = 32 ∨ (Rect.block (s := S4096x11008) S1024x256.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S32x11008.size a
  hwx0_5 : ∀ i : grid0.Coords, EltTy.bits .i32 = 32 ∨ (Rect.block (s := S32x11008) S8x256.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S32x11008.size a
  hwx0_6 : ∀ i : grid0.Coords, EltTy.bits .f32 = 32 ∨ (Rect.block (s := S32x11008) S8x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S4096x11008.size a
  hwx0_7 : ∀ i : grid0.Coords, EltTy.bits .bf16 = 32 ∨ (Rect.block (s := S4096x11008) S1024x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x11264.size a
  hwx1_0 : ∀ i : grid1.Coords, EltTy.bits .bf16 = 32 ∨ (Rect.block (s := S4096x11264) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S11264x4096.size a
  hwx1_1 : ∀ i : grid1.Coords, EltTy.bits .i32 = 32 ∨ (Rect.block (s := S11264x4096) S1024x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S88x4096.size a
  hwx1_2 : ∀ i : grid1.Coords, EltTy.bits .i32 = 32 ∨ (Rect.block (s := S88x4096) S8x512.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x512.size a ≤ S88x4096.size a
  hwx1_3 : ∀ i : grid1.Coords, EltTy.bits .f32 = 32 ∨ (Rect.block (s := S88x4096) S8x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S4096x4096.size a
  hwx1_4 : ∀ i : grid1.Coords, EltTy.bits .f32 = 32 ∨ (Rect.block (s := S4096x4096) S1024x512.size (cc1_transform_4 i) (hinb1_4 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S8x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x11008 : Shape := ⟨2, ![4096, 11008]⟩
abbrev S32x11008 : Shape := ⟨2, ![32, 11008]⟩
abbrev S11008x4096 : Shape := ⟨2, ![11008, 4096]⟩
abbrev S86x4096 : Shape := ⟨2, ![86, 4096]⟩
abbrev S32x128x11008 : Shape := ⟨3, ![32, 128, 11008]⟩
abbrev S86x128x4096 : Shape := ⟨3, ![86, 128, 4096]⟩
abbrev S2x2048x11008 : Shape := ⟨3, ![2, 2048, 11008]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S4096x11008, .i32⟩
  | .hbm, ⟨5, _⟩ => ⟨S32x11008, .i32⟩
  | .hbm, ⟨6, _⟩ => ⟨S32x11008, .f32⟩
  | .hbm, ⟨7, _⟩ => ⟨S11008x4096, .i32⟩
  | .hbm, ⟨8, _⟩ => ⟨S86x4096, .i32⟩
  | .hbm, ⟨9, _⟩ => ⟨S86x4096, .f32⟩
  | .hbm, ⟨10, _⟩ => ⟨S32x11008, .f32⟩
  | .hbm, ⟨11, _⟩ => ⟨S32x128x11008, .f32⟩
  | .hbm, ⟨12, _⟩ => ⟨S4096x11008, .f32⟩
  | .hbm, ⟨13, _⟩ => ⟨S32x128x11008, .f32⟩
  | .hbm, ⟨14, _⟩ => ⟨S4096x11008, .f32⟩
  | .hbm, ⟨15, _⟩ => ⟨S4096x11008, .f32⟩
  | .hbm, ⟨16, _⟩ => ⟨S4096x11008, .f32⟩
  | .hbm, ⟨17, _⟩ => ⟨S4096x11008, .f32⟩
  | .hbm, ⟨18, _⟩ => ⟨S32x11008, .f32⟩
  | .hbm, ⟨19, _⟩ => ⟨S32x128x11008, .f32⟩
  | .hbm, ⟨20, _⟩ => ⟨S4096x11008, .f32⟩
  | .hbm, ⟨21, _⟩ => ⟨S32x128x11008, .f32⟩
  | .hbm, ⟨22, _⟩ => ⟨S4096x11008, .f32⟩
  | .hbm, ⟨23, _⟩ => ⟨S4096x11008, .f32⟩
  | .hbm, ⟨24, _⟩ => ⟨S4096x11008, .f32⟩
  | .hbm, ⟨25, _⟩ => ⟨S4096x11008, .f32⟩
  | .hbm, ⟨26, _⟩ => ⟨S86x4096, .f32⟩
  | .hbm, ⟨27, _⟩ => ⟨S86x128x4096, .f32⟩
  | .hbm, ⟨28, _⟩ => ⟨S11008x4096, .f32⟩
  | .hbm, ⟨29, _⟩ => ⟨S86x128x4096, .f32⟩
  | .hbm, ⟨30, _⟩ => ⟨S11008x4096, .f32⟩
  | .hbm, ⟨31, _⟩ => ⟨S11008x4096, .f32⟩
  | .hbm, ⟨32, _⟩ => ⟨S11008x4096, .f32⟩
  | .hbm, ⟨33, _⟩ => ⟨S11008x4096, .f32⟩
  | .hbm, ⟨34, _⟩ => ⟨S2x2048x11008, .f32⟩
  | .hbm, ⟨35, _⟩ => ⟨S2x2048x11008, .f32⟩
  | .hbm, ⟨36, _⟩ => ⟨S2x2048x11008, .f32⟩
  | .hbm, ⟨37, _⟩ => ⟨S2x2048x11008, .f32⟩
  | .hbm, ⟨38, _⟩ => ⟨S_, .f32⟩
  | .hbm, ⟨39, _⟩ => ⟨S2x2048x11008, .f32⟩
  | .hbm, ⟨40, _⟩ => ⟨S2x2048x11008, .f32⟩
  | .hbm, ⟨41, _⟩ => ⟨S_, .f32⟩
  | .hbm, ⟨42, _⟩ => ⟨S2x2048x11008, .f32⟩
  | .hbm, ⟨43, _⟩ => ⟨S2x2048x11008, .f32⟩
  | .hbm, ⟨44, _⟩ => ⟨S2x2048x11008, .f32⟩
  | .hbm, ⟨45, _⟩ => ⟨S2x2048x11008, .f32⟩
  | .hbm, ⟨46, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S86x4096_S86x128x4096_0_2 : S86x4096.BroadcastsInDim S86x128x4096 (![0, 2] : Fin 2 → Fin S86x128x4096.rank)
  shapeCasts_S86x128x4096_S11008x4096 : S86x128x4096.ShapeCasts S11008x4096
  bcast_S_S2x2048x11008 : S_.BroadcastsInDim S2x2048x11008 (![] : Fin 0 → Fin S2x2048x11008.rank)
  dot_S2x2048x4096_S4096x11008_S2x2048x11008_2_0_01_1_n_n_wf : DotDims.WF S2x2048x4096 S4096x11008 S2x2048x11008 [2] [0] [0, 1] [1] [] []
  dot_S2x2048x11008_S11008x4096_S2x2048x4096_2_0_01_1_n_n_wf : DotDims.WF S2x2048x11008 S11008x4096 S2x2048x4096 [2] [0] [0, 1] [1] [] []

variable [Facts₀]

def dot_S2x2048x4096_S4096x11008_S2x2048x11008_2_0_01_1_n_n : DotDims S2x2048x4096 S4096x11008 S2x2048x11008 where
  lhsContracting := [2]
  rhsContracting := [0]
  lhsNonContracting := [0, 1]
  rhsNonContracting := [1]
  lhsBatch := []
  rhsBatch := []
  wf := dot_S2x2048x4096_S4096x11008_S2x2048x11008_2_0_01_1_n_n_wf
def dot_S2x2048x11008_S11008x4096_S2x2048x4096_2_0_01_1_n_n : DotDims S2x2048x11008 S11008x4096 S2x2048x4096 where
  lhsContracting := [2]
  rhsContracting := [0]
  lhsNonContracting := [0, 1]
  rhsNonContracting := [1]
  lhsBatch := []
  rhsBatch := []
  wf := dot_S2x2048x11008_S11008x4096_S2x2048x4096_2_0_01_1_n_n_wf

class Facts : Prop extends Facts₀ where

variable [Facts]
-- ==== Proof.K.R0Runs.lean ====
import proofs.«104653_j17798344475235_1_alg».proof.Proof.Gen.Kernel.Launch
import proofs.«104653_j17798344475235_1_alg».proof.Proof.Gen.Kernel.Skeleton
import proofs.«104653_j17798344475235_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated projection (the first kernel call): what its runs are stated over

The body accumulates, over the four reduction steps `d` of a tile `(m, hh)`, the two products
`x ⬝ dequant(gate)` and `x ⬝ dequant(up)` in two f32 accumulators kept between steps; the first step
clears both, the last combines them as `g · σ(g) · u` into the output tile. Everything here is at the
contents `V` the region finds on entry. -/

/-! ## The windows' tiles -/

/-- The tile of window `w` at grid point `t`: its rectangle of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's staging buffer holds its tile at every point, whether or not the point fetched it: an unfetched
    point has the tile index of the point before, and the body never stores into an input. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input 1's staging buffer holds its tile at every point, whether or not the point fetched it: an unfetched
    point has the tile index of the point before, and the body never stores into an input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input 2's staging buffer holds its tile at every point, whether or not the point fetched it: an unfetched
    point has the tile index of the point before, and the body never stores into an input. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input 3's staging buffer holds its tile at every point, whether or not the point fetched it: an unfetched
    point has the tile index of the point before, and the body never stores into an input. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input 4's staging buffer holds its tile at every point, whether or not the point fetched it: an unfetched
    point has the tile index of the point before, and the body never stores into an input. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input 5's staging buffer holds its tile at every point, whether or not the point fetched it: an unfetched
    point has the tile index of the point before, and the body never stores into an input. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input 6's staging buffer holds its tile at every point, whether or not the point fetched it: an unfetched
    point has the tile index of the point before, and the body never stores into an input. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the reduction step -/

/-- "This is the first reduction step" (`d = 0`), as the body computes it from the grid coordinates. -/
abbrev cond0_0 (i : grid0.Coords) : Prop := (Scalar.cmpi .ne (Scalar.extui (Scalar.cmpi .eq (BitVec.ofNat 32 (i 2).val) 0#32)) 0#32) = 1#1
/-- The reduction step is the fastest coordinate: it is `t mod 4`, so the first step is `t ≡ 0`. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last reduction step" (`d = 3`). -/
abbrev cond0_1 (i : grid0.Coords) : Prop := k0_cond2 i = 1#1
/-- The last step is `t ≡ 3 (mod 4)`. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output tile is live -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-- At a first step the output tile is neither stored into nor written back. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
/-- Nor at a middle step. -/
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
/-- At a last step it is stored. -/
theorem liveAt0_7_C : ∀ t : Fin cfg0.N, ¬cond0_0 (grid0.coords t) → cond0_1 (grid0.coords t) → cfg0.idle 7 (grid0.coords t) = false := by decide +kernel

/-! ## The memrefs the body is called on -/

/-- A view of the output tile's shape through which its contents are stated (which staging buffer is immaterial). -/
abbrev VO0_7 : View sig .tc .vmem S1024x256 .bf16 := (Memref.whole cc0_stg7_0 : Memref sig .tc .vmem S1024x256 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x256 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
/-- The gate accumulator and the up accumulator: whole buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

/-- The core's other scoped buffers (the second kernel call's staging buffers and accumulator), each at some contents:
    this region never names them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant split as: the two accumulators, each owned at some contents; the buffers it never names;
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.Kernel.Hand

end
-- ==== Proof.K.R0RunA.lean ====
import proofs.«104653_j17798344475235_1_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated projection's body at a FIRST reduction step -/

set_option maxHeartbeats 4000000 in
/-- The body at a FIRST reduction step: both accumulators are cleared, then each takes its product; the output tile is left alone.
    On whole memrefs — the seven inputs at their tiles `x·`, the output at `xi7`, the accumulators at anything — it
    runs to a continuation that holds the inputs as they were, the output still at `xi7`, and each accumulator
    with its pieces written (`LS·`, last store first). The pieces are the witnesses. -/
noncomputable def kernelRun0_A (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) :
    Σ' (L7 : List (View.Piece (Elt F) S1024x256 .bf16)) (LS0 : List (View.Piece (Elt F) S1024x256 .f32)), { LS1 : List (View.Piece (Elt F) S1024x256 .f32) //
      ∀ (xi7 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10 arg11 harg11 arg12 harg12) K } := by
  refine ⟨[], ?_, ?_, fun xi7 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.Kernel.Hand

end
-- ==== Proof.K.R0RunB.lean ====
import proofs.«104653_j17798344475235_1_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated projection's body at a MIDDLE reduction step -/

set_option maxHeartbeats 4000000 in
/-- The body at a MIDDLE reduction step: each accumulator takes its product on top of what the step before left; the output tile is left alone.
    On whole memrefs — the seven inputs at their tiles `x·`, the output at `xi7`, the accumulators at what the step before left (`xs·`) — it
    runs to a continuation that holds the inputs as they were, the output still at `xi7`, and each accumulator
    with its pieces written (`LS·`, last store first). The pieces are the witnesses. -/
noncomputable def kernelRun0_B (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) :
    Σ' (L7 : List (View.Piece (Elt F) S1024x256 .bf16)) (LS0 : List (View.Piece (Elt F) S1024x256 .f32)), { LS1 : List (View.Piece (Elt F) S1024x256 .f32) //
      ∀ (xi7 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10 arg11 harg11 arg12 harg12) K } := by
  refine ⟨[], ?_, ?_, fun xi7 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.Kernel.Hand

end
-- ==== Proof.K.R0RunC.lean ====
import proofs.«104653_j17798344475235_1_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated projection's body at a LAST reduction step -/

set_option maxHeartbeats 4000000 in
/-- The body at a LAST reduction step: each accumulator takes its product on top of what the step before left, and the output tile is stored from the two.
    On whole memrefs — the seven inputs at their tiles `x·`, the output at anything, the accumulators at what the step before left (`xs·`) — it
    runs to a continuation that holds the inputs as they were, the output with the pieces `L7` written, and each accumulator
    with its pieces written (`LS·`, last store first). The pieces are the witnesses. -/
noncomputable def kernelRun0_C (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) :
    Σ' (L7 : List (View.Piece (Elt F) S1024x256 .bf16)) (LS0 : List (View.Piece (Elt F) S1024x256 .f32)), { LS1 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    iexists _; iexact HS1

end Cert.Kernel.Hand

end
-- ==== Proof.K.R0.lean ====
import proofs.«104653_j17798344475235_1_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated projection (the first kernel call): its half of the frame

What the output tile and the two accumulators hold after every grid point, the pipeline's proof data at the entry
contents `V`, the body obligation, and the two entailments between the launch's invariant and the proof data's. -/

/-! ## What each kind of step leaves -/

/-- A first step stores nothing into the output tile: no pieces. Read back over unspecified contents this is a
    placeholder nothing consults — the tile is neither written back at such a point nor read at the next. -/
def out0_A_7 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) : Vec F S1024x256 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 hc0 hc1 x0 x1 x2 x3 x4 x5 x6).1)

/-- A first step's stores into the gate accumulator cover it. -/
theorem scover0_A_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (y : S1024x256.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3 x4 x5 x6).2.1 S1024x256.size (by sl_kernel_rfl) y

/-- What a first step leaves in the gate accumulator. -/
def sout0_A_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) : Vec F S1024x256 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 hc1 x0 x1 x2 x3 x4 x5 x6).2.1)

/-- A first step's stores into the up accumulator cover it. -/
theorem scover0_A_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (y : S1024x256.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3 x4 x5 x6).2.2.1 S1024x256.size (by sl_kernel_rfl) y

/-- What a first step leaves in the up accumulator. -/
def sout0_A_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) : Vec F S1024x256 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 hc0 hc1 x0 x1 x2 x3 x4 x5 x6).2.2.1)

/-- A middle step stores nothing into the output tile: no pieces. Read back over unspecified contents this is a
    placeholder nothing consults — the tile is neither written back at such a point nor read at the next. -/
def out0_B_7 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).1)

/-- A middle step's stores into the gate accumulator cover it. -/
theorem scover0_B_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) (y : S1024x256.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1 S1024x256.size (by sl_kernel_rfl) y

/-- What a middle step leaves in the gate accumulator. -/
def sout0_B_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- A middle step's stores into the up accumulator cover it. -/
theorem scover0_B_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) (y : S1024x256.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1024x256.size (by sl_kernel_rfl) y

/-- What a middle step leaves in the up accumulator. -/
def sout0_B_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- At a last step the one store into the output tile covers it. -/
theorem cover0_C_7 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).1 S1024x256.size (by sl_kernel_rfl) y

/-- What a last step leaves in the output tile: `g · σ(g) · u` of the two finished accumulators, as stored. -/
def out0_C_7 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .bf16 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).1)

/-- A last step's stores into the gate accumulator cover it. -/
theorem scover0_C_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1 S1024x256.size (by sl_kernel_rfl) y

/-- What a last step leaves in the gate accumulator. -/
def sout0_C_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- A last step's stores into the up accumulator cover it. -/
theorem scover0_C_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1024x256.size (by sl_kernel_rfl) y

/-- What a last step leaves in the up accumulator. -/
def sout0_C_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-! ## The accumulation, point by point -/

/-- What the output tile's staging buffer and the two accumulators hold after the body at position `n`
    (output tile, gate accumulator, up accumulator): the step kind is read off `n mod 4`; a first step starts from
    cleared accumulators, a later one from what position `n - 1` left in them. -/
def outsAt0 (c : Dev nD) : (n : ℕ) → n < cfg0.N → Vec F S1024x256 .bf16 × Vec F S1024x256 .f32 × Vec F S1024x256 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 4 = 0 then
      if h1 : (n + 1) % 4 = 3 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2)

/-- At a first step. -/
theorem outsAt0_A (c : Dev nD) (t : Fin cfg0.N) (h0 : t.val % 4 = 0) (h1 : ¬t.val % 4 = 3) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- At a middle step: over what the point before left in the accumulators. -/
theorem outsAt0_B (c : Dev nD) (t : Fin cfg0.N) (h0 : ¬t.val % 4 = 0) (h1 : ¬t.val % 4 = 3) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left in the accumulators. -/
theorem outsAt0_C (c : Dev nD) (t : Fin cfg0.N) (h0 : ¬t.val % 4 = 0) (h1 : t.val % 4 = 3) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the launch's own invariant (every accumulator at anything); afterwards the two
    accumulators at what position `n - 1` left in them, the buffers the region never names, and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ others0 c) ∗ (∃ r, prngReg c r)) := by
  cases n with
  | zero => exact absurd rfl hz
  | succ n => rfl

/-! ## The proof data -/

/-- The pipeline's proof data on core `c` at the entry contents `V`: each input's buffer keeps its tile, the output's
    holds `outsAt0`'s first component, the invariant is `PhiS0`; nothing is owed and every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' buffers hold their tiles; `t mod 4` says which kind of step the point is, and that
    kind's run applies: the invariant hands it the accumulators (at anything at the very first point, else at what the point
    before left) and takes them back at this point's contents, the stores covering each; the output tile is handed back
    untouched except at a last step, whose store covers it. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0 sout0_A_1; (try dsimp only)
      by_cases hz : t.val = 0
      ·
        rw [PhiS0_castSucc V c t, PhiS0_zero V c _ _ hz, PhiA0_eq]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_7 sout0_C_0 sout0_C_1; (try dsimp only)
      by_cases hz : t.val = 0
      · exfalso; omega
      ·
        rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        iintro ⟨H0, H1, H2, H3, H4, H5, H6, ⟨%e7, H7⟩, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      ·
        rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body obligation at every point. -/
theorem body_obligation0 (c : Dev nD) : BodyObligation (dat0 (F := F) V c) (defs₀ (F := F)) Variants.none () Set.univ := fun t => by
  rw [bigSep_W0, bigSep_W0]
  exact sound_body0 V c t

/-! ## Into and out of the region -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- In particular after the last. -/
theorem hout0 (c : Dev nD) : (dat0 V c).Φ (Fin.last cfg0.N) ⊢ Pipeline.ΦA spec0 c :=
  Phi_out0 V c _ (by rw [Fin.val_last]; have : cfg0.N = 688 := N_0; omega)

end Cert.Kernel.Hand

end
-- ==== Proof.K.R1Runs.lean ====
import proofs.«104653_j17798344475235_1_alg».proof.Proof.Gen.Kernel.Launch
import proofs.«104653_j17798344475235_1_alg».proof.Proof.Gen.Kernel.Skeleton
import proofs.«104653_j17798344475235_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- the blocks' long axis has 1024 coordinates
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffers as the second kernel call finds them on entry: a parameter of everything below
variable (V : (c : Dev nD) → (b : Ref sig .tc) → Buf (Elt F) ((c : Thread nD τ).loc b))

/-! # The down-projection call (grid 4 × 8 × 11, 352 points): what its three control cases share

The kernel accumulates `h_blk · dequant(w_blk)` into an f32 scratch along the last grid axis `k`:
zeroed where `k = 0`, added to at every point, copied to the output block where `k = 10`. -/

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two conditionals, in closed form over the grid -/

/-- `k = 0` as the kernel tests it (the first `scf.if`: zero the accumulator). -/
abbrev cond1_0 (i : grid1.Coords) : Prop := (Scalar.cmpi .ne (Scalar.extui (Scalar.cmpi .eq (BitVec.ofNat 32 (i 2).val) 0#32)) 0#32) = 1#1
/-- `k = 10` as the kernel tests it (the second `scf.if`: emit the accumulator). -/
abbrev cond1_1 (i : grid1.Coords) : Prop := k1_cond2 i = 1#1

/-- The first holds exactly at the points whose position is ≡ 0 (mod 11). -/
theorem hcond1_0 : ∀ t : Fin cfg1.N, cond1_0 (grid1.coords t) ↔ t.val % 11 = 0 :=
  (by decide +kernel : ∀ t : Fin grid1.N, cond1_0 (grid1.coords t) ↔ t.val % 11 = 0)
/-- The second exactly at those ≡ 10 (mod 11). -/
theorem hcond1_1 : ∀ t : Fin cfg1.N, cond1_1 (grid1.coords t) ↔ t.val % 11 = 10 :=
  (by decide +kernel : ∀ t : Fin grid1.N, cond1_1 (grid1.coords t) ↔ t.val % 11 = 10)

/-! ## The inputs hold their blocks at every point -/

/-- An input window's current staging buffer holds its block whether or not the point fetched it (unfetched, the
    block index has not moved), for any proof data over the entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

/-- The output block is stored only where `k = 10`: the configuration calls the window idle at every other point. -/
theorem idle1_4 : ∀ t : Fin cfg1.N, cfg1.idle 4 (grid1.coords t) = true ↔ ¬ t.val % 11 = 10 :=
  (by decide +kernel : ∀ t : Fin grid1.N, cfg1.idle 4 (grid1.coords t) = true ↔ ¬ t.val % 11 = 10)
theorem idleAt1_4 (t : Fin cfg1.N) (h : ¬ t.val % 11 = 10) : cfg1.idle 4 (grid1.coords t) = true := (idle1_4 t).mpr h
theorem liveAt1_4 (t : Fin cfg1.N) (h : t.val % 11 = 10) : cfg1.idle 4 (grid1.coords t) = false := by
  cases hb : cfg1.idle 4 (grid1.coords t) with
  | false => rfl
  | true => exact absurd h ((idle1_4 t).mp hb)
/-- And there the pipeline does not write the block back. -/
theorem noFlush1_4 (t : Fin cfg1.N) (h : ¬ t.val % 11 = 10) : (cfg1.win 4).flush t = false := by
  cases hb : (cfg1.win 4).flush t with
  | false => rfl
  | true => exact absurd ((flush1_4 t).mp hb) h

/-! ## The memrefs the body is called with -/

/-- A staging buffer of the output window as a view: contents are stated through it (any whole view of the shape reads the same). -/
abbrev VO1_4 : View sig .tc .vmem S1024x512 .f32 := (Memref.whole cc1_stg4_0 : Memref sig .tc .vmem S1024x512 .f32).view
/-- Each window's current staging memref at point `t`, and that it is a whole buffer. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows and carried from point to point. -/
abbrev scM1_0 : Memref sig .tc .vmem S1024x512 .f32 := Memref.whole cc1_scratch0
abbrev VS1_0 : View sig .tc .vmem S1024x512 .f32 := scM1_0.view

/-- The core's scoped buffers that are neither staging buffers of this call nor its accumulator (the other call's
    buffers), each at some contents: carried through every point unopened. -/
abbrev others1 (c : Dev nD) : sProp 𝕄 :=
  Pipeline.scopedRestBut (Ix := Unit) (Name := ℕ) (U := UR sig nD τ) (Lvl := ℕ) (Val := Elt F) spec1 c [cc1_scratch0]

/-- What the launch hands the region, with the accumulator split off as a memref owned at some contents. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [scM1_0, owns_whole]; try rfl

end Cert.Kernel.Hand

end
-- ==== Proof.K.R1RunA.lean ====
import proofs.«104653_j17798344475235_1_alg».proof.Proof.K.R1Runs

-- the blocks' long axis has 1024 coordinates
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffers as the second kernel call finds them on entry: a parameter of everything below
variable (V : (c : Dev nD) → (b : Ref sig .tc) → Buf (Elt F) ((c : Thread nD τ).loc b))

/-! # The down-projection body where `k = 0`

The accumulator is zeroed before it is read, so it may enter at any contents; the output block is not touched. -/

-- (the body is a long sequence of loads and stores)
set_option maxHeartbeats 1000000 in
/-- The pieces the body's stores leave in the output's staging memref (none) and in the accumulator (last first), with
    the triple: on whole memrefs — the four inputs at `x0 … x3`, the output at `xi4`, the accumulator at anything —
    the body runs to a continuation holding the inputs and the output as they were and the accumulator with its
    pieces written. The lists follow the body's stores in order. -/
noncomputable def kernelRun1_A (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .i32) (x2 : Vec F S8x512 .i32) (x3 : Vec F S8x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__mlp2_kernel i arg3 harg3 arg4 harg4 arg5 harg5 arg6 harg6 arg7 harg7 arg8 harg8) K } := by
  refine ⟨[], ?_, fun xi4 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.R1RunB.lean ====
import proofs.«104653_j17798344475235_1_alg».proof.Proof.K.R1RunA

-- the blocks' long axis has 1024 coordinates
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffers as the second kernel call finds them on entry: a parameter of everything below
variable (V : (c : Dev nD) → (b : Ref sig .tc) → Buf (Elt F) ((c : Thread nD τ).loc b))

/-! # The down-projection body where `0 < k < 10`

The accumulator enters at what the point before left and is added to; the output block is not touched. -/

-- (the body is a long sequence of loads and stores)
set_option maxHeartbeats 1000000 in
/-- The pieces the body's stores leave in the output's staging memref (none) and in the accumulator, with the triple:
    on whole memrefs — the four inputs at `x0 … x3`, the output at `xi4`, the accumulator at `xs0` — the body runs to
    a continuation holding the inputs and the output as they were and the accumulator with its pieces written. -/
noncomputable def kernelRun1_B (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .i32) (x2 : Vec F S8x512 .i32) (x3 : Vec F S8x512 .f32) (xs0 : Vec F S1024x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__mlp2_kernel i arg3 harg3 arg4 harg4 arg5 harg5 arg6 harg6 arg7 harg7 arg8 harg8) K } := by
  refine ⟨[], ?_, fun xi4 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.R1RunC.lean ====
import proofs.«104653_j17798344475235_1_alg».proof.Proof.K.R1RunB

-- the blocks' long axis has 1024 coordinates
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffers as the second kernel call finds them on entry: a parameter of everything below
variable (V : (c : Dev nD) → (b : Ref sig .tc) → Buf (Elt F) ((c : Thread nD τ).loc b))

/-! # The down-projection body where `k = 10`

The accumulator enters at what the point before left, is added to, and is then copied into the output block
(which the body loads first, at whatever it holds, and then overwrites whole). -/

-- (the body is a long sequence of loads and stores)
set_option maxHeartbeats 1000000 in
/-- The pieces the body's stores leave in the output's staging memref and in the accumulator, with the triple: on
    whole memrefs — the four inputs at `x0 … x3`, the output at anything, the accumulator at `xs0` — the body runs to a
    continuation holding the inputs as they were and the output and the accumulator with their pieces written. -/
noncomputable def kernelRun1_C (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) :
    Σ' (L4 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__mlp2_kernel i arg3 harg3 arg4 harg4 arg5 harg5 arg6 harg6 arg7 harg7 arg8 harg8) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.K.R1.lean ====
import proofs.«104653_j17798344475235_1_alg».proof.Proof.K.R1RunC

-- the blocks' long axis has 1024 coordinates
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffers as the second kernel call finds them on entry: a parameter of everything below
variable (V : (c : Dev nD) → (b : Ref sig .tc) → Buf (Elt F) ((c : Thread nD τ).loc b))

/-! # The down-projection call: what its buffers hold point by point, the proof data, the body obligation

Per control case the run of the body (`kernelRun1_A/B/C`) found the pieces each buffer ends with; here they are read
back as contents, chained over the grid (`outsAt1`), and handed to the pipeline library as proof data over the entry
contents `V`. -/

/-! ## Per case: the pieces cover, and what they leave -/

/-- Where `k = 0`: the accumulator's pieces tile it. -/
theorem scover1_A_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .i32) (x2 : Vec F S8x512 .i32) (x3 : Vec F S8x512 .f32) (y : S1024x512.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x512.size (by sl_kernel_rfl) y

/-- What the accumulator holds after a point with `k = 0`: its pieces read back. -/
def sout1_A_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .i32) (x2 : Vec F S8x512 .i32) (x3 : Vec F S8x512 .f32) : Vec F S1024x512 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- Where `0 < k < 10`: the accumulator's pieces tile it. -/
theorem scover1_B_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .i32) (x2 : Vec F S8x512 .i32) (x3 : Vec F S8x512 .f32) (xs0 : Vec F S1024x512 .f32) (y : S1024x512.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x512.size (by sl_kernel_rfl) y

/-- What the accumulator holds after a point with `0 < k < 10`, having entered at `xs0`. -/
def sout1_B_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .i32) (x2 : Vec F S8x512 .i32) (x3 : Vec F S8x512 .f32) (xs0 : Vec F S1024x512 .f32) : Vec F S1024x512 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- Where `k = 10`: the output block's pieces tile it, -/
theorem cover1_C_4 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) (y : S1024x512.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x512.size (by sl_kernel_rfl) y

/-- and what they leave in its staging buffer. -/
def out1_C_4 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) : Vec F S1024x512 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- The accumulator's pieces tile it there too, -/
theorem scover1_C_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) (y : S1024x512.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x512.size (by sl_kernel_rfl) y

/-- and this is what it holds afterwards. -/
def sout1_C_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) : Vec F S1024x512 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## The cases at a grid point -/

/-- At a point with `k = 0` the second conditional fails, and so on: the closed forms exclude one another. -/
theorem notC_of_A (t : Fin cfg1.N) (h0 : t.val % 11 = 0) : ¬cond1_1 (grid1.coords t) :=
  fun h => by have := (hcond1_1 t).mp h; omega
theorem notA_of (t : Fin cfg1.N) (h0 : ¬t.val % 11 = 0) : ¬cond1_0 (grid1.coords t) := fun h => h0 ((hcond1_0 t).mp h)
theorem notC_of (t : Fin cfg1.N) (h1 : ¬t.val % 11 = 10) : ¬cond1_1 (grid1.coords t) := fun h => h1 ((hcond1_1 t).mp h)

/-- The output's staging buffer at a point that stores nothing into it: contents nobody reads (the window is idle
    there and not written back). -/
def idleOut1 : Vec F S1024x512 .f32 := VO1_4.read (Elt F) VO1_4.junk

/-- The accumulator after point `t` where `k = 0`, from the point's input blocks. -/
def accA1 (c : Dev nD) (t : Fin cfg1.N) (h0 : t.val % 11 = 0) : Vec F S1024x512 .f32 :=
  sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (notC_of_A t h0) (iblk1 V c 0 t) (iblk1 V c 1 t) (iblk1 V c 2 t) (iblk1 V c 3 t)
/-- The accumulator after point `t` where `0 < k < 10`, from the point's input blocks and what it held before. -/
def accB1 (c : Dev nD) (t : Fin cfg1.N) (h0 : ¬t.val % 11 = 0) (h1 : ¬t.val % 11 = 10) (prev : Vec F S1024x512 .f32) : Vec F S1024x512 .f32 :=
  sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (notA_of t h0) (notC_of t h1) (iblk1 V c 0 t) (iblk1 V c 1 t) (iblk1 V c 2 t) (iblk1 V c 3 t) prev
/-- The accumulator, and the output block, after point `t` where `k = 10`. -/
def accC1 (c : Dev nD) (t : Fin cfg1.N) (h0 : ¬t.val % 11 = 0) (h1 : t.val % 11 = 10) (prev : Vec F S1024x512 .f32) : Vec F S1024x512 .f32 :=
  sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (notA_of t h0) ((hcond1_1 t).mpr h1) (iblk1 V c 0 t) (iblk1 V c 1 t) (iblk1 V c 2 t) (iblk1 V c 3 t) prev
def outC1 (c : Dev nD) (t : Fin cfg1.N) (h0 : ¬t.val % 11 = 0) (h1 : t.val % 11 = 10) (prev : Vec F S1024x512 .f32) : Vec F S1024x512 .f32 :=
  out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (notA_of t h0) ((hcond1_1 t).mpr h1) (iblk1 V c 0 t) (iblk1 V c 1 t) (iblk1 V c 2 t) (iblk1 V c 3 t) prev

/-! ## Point by point -/

/-- What the output's staging buffer (first) and the accumulator (second) hold after the body at position `n`: the
    case the closed forms select, run on the point's blocks, the accumulator entering at what position `n - 1` left. -/
def outsAt1 (c : Dev nD) : (n : ℕ) → n < cfg1.N → Vec F S1024x512 .f32 × Vec F S1024x512 .f32
  | 0, hn => (idleOut1, accA1 V c ⟨0, hn⟩ (Nat.zero_mod _))
  | n + 1, hn =>
    if h0 : (n + 1) % 11 = 0 then (idleOut1, accA1 V c ⟨n + 1, hn⟩ h0)
    else if h1 : (n + 1) % 11 = 10 then
      (outC1 V c ⟨n + 1, hn⟩ h0 h1 (outsAt1 c n (Nat.lt_of_succ_lt hn)).2, accC1 V c ⟨n + 1, hn⟩ h0 h1 (outsAt1 c n (Nat.lt_of_succ_lt hn)).2)
    else (idleOut1, accB1 V c ⟨n + 1, hn⟩ h0 h1 (outsAt1 c n (Nat.lt_of_succ_lt hn)).2)

/-- The position before `t`'s is a position of the grid. -/
theorem pred_lt1 (t : Fin cfg1.N) : t.val - 1 < cfg1.N := Nat.lt_of_le_of_lt (Nat.sub_le _ _) t.isLt

theorem outsAt1_A (c : Dev nD) (t : Fin cfg1.N) (h0 : t.val % 11 = 0) :
    outsAt1 V c t.val t.isLt = (idleOut1, accA1 V c t h0) := by
  obtain ⟨n, hn⟩ := t
  cases n with
  | zero => rfl
  | succ n => exact (dif_pos h0).trans rfl

theorem outsAt1_B (c : Dev nD) (t : Fin cfg1.N) (h0 : ¬t.val % 11 = 0) (h1 : ¬t.val % 11 = 10) :
    outsAt1 V c t.val t.isLt = (idleOut1, accB1 V c t h0 h1 (outsAt1 V c (t.val - 1) (pred_lt1 t)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 11 = 0) (h1 : t.val % 11 = 10) :
    outsAt1 V c t.val t.isLt = (outC1 V c t h0 h1 (outsAt1 V c (t.val - 1) (pred_lt1 t)).2, accC1 V c t h0 h1 (outsAt1 V c (t.val - 1) (pred_lt1 t)).2) := by
  obtain ⟨n, hn⟩ := t
  cases n with
  | zero => exact absurd (Nat.zero_mod _) h0
  | succ n => exact (dif_neg h0).trans ((dif_pos h1).trans rfl)

/-! ## The invariant between points -/

/-- Before position `n`: at the start what the launch hands over (the accumulator at anything); afterwards the
    accumulator at what position `n - 1` left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The proof data -/

/-- The call's proof data on core `c`: the arrays at the entry contents; after the body each input's buffer at its
    block, the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the position's residue mod 11 says which case runs;
    the invariant hands over the accumulator — at anything before the first point, else at what the point before
    left — and takes it back at this point's contents (its pieces cover it); the other scoped buffers, the generator
    register and the core's dues pass through. Where `k ≠ 10` the output's buffer is handed back as found; where
    `k = 10` it comes back at its covering pieces' contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 11 = 0
  · have h1 : ¬t.val % 11 = 10 := by omega
    rw [Dat.leavesExact_idle (dat1 V c) 4 t (idleAt1_4 t h1) (noFlush1_4 t h1)]
    rw [outsAt1_A V c t h0]
    dsimp only
    unfold accA1 sout1_A_0
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notC_of_A t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notC_of_A t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 11 = 10
    · rw [show (dat1 V c).leavesExact 4 t = owns (c : Thread nD τ) (ms1_4 t) fullShare ((dat1 V c).after 4 t) from by
        unfold Dat.leavesExact; rw [liveAt1_4 t h1], after1_4]
      rw [outsAt1_C V c t h0 h1]
      dsimp only
      unfold accC1 outC1 sout1_C_0 out1_C_4
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (notA_of t h0) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t h1) (noFlush1_4 t h1)]
      rw [outsAt1_B V c t h0 h1]
      dsimp only
      unfold accB1 sout1_B_0
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (notA_of t h0) (notC_of t h1) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives it back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- In particular after the last. -/
theorem hout1 (c : Dev nD) : (dat1 V c).Φ (Fin.last cfg1.N) ⊢ Pipeline.ΦA spec1 c :=
  Phi_out1 V c _ (by rw [Fin.val_last]; have : cfg1.N = 352 := N_1; omega)

end Cert.Kernel.Hand

end
-- ==== Proof.K.Run.lean ====
/-
  The launch of the two-region program, at any instance of the float operations.

  @main is: two host lines (reshape, round to bf16); region 0; eight host stretches (the zero constants and the four pads);
  region 1; one host line (reshape). Between two consecutive items every unscoped buffer of a core is held at a named
  valuation: the launch memory, then each host stretch applied to the valuation before it, and after a region the
  valuation before it with the region's window arrays replaced by what the pipeline's write-backs leave in them.
  Beside the buffers a core carries its generator register and the fact that it owes no one anything.
  Each region is a segment given by the kernel's body obligation (proved in the region's own module) and four
  entailments that sort the window arrays out of the unscoped buffers and put them back. The run's post says that
  every unscoped buffer ends at the last valuation; the frame claims and the result's value are read off it.
-/
import proofs.«104653_j17798344475235_1_alg».proof.Proof.K.R0
import proofs.«104653_j17798344475235_1_alg».proof.Proof.K.R1
import proofs.«104653_j17798344475235_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between two items -/

/-- At launch. -/
abbrev W0 : Dev nD → Valuation τ sig (Elt F) := fun c b => m (c, b)
/-- After the reshape and the rounding of `x`: what region 0 is entered with. -/
abbrev W1 : Dev nD → Valuation τ sig (Elt F) := fun c => StableHlo.after hostOps0 (W0 m c)
/-- The same, read at a TensorCore reference. -/
abbrev E1 : (c : Dev nD) → (b : Ref sig .tc) → Buf (Elt F) ((c : Thread nD τ).loc b) := fun c b => W1 m c b
/-- After region 0: its window arrays at what the write-backs leave, everything else as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (E1 m) c).arrAt w cfg0.N = W2 m c (Pipeline.arrRef spec0 w) :=
  (W2_arr m c w).symm
theorem hrest0 (c : Dev nD) : ∀ b : Ref sig .tc, b ∉ Finset.univ.image (Pipeline.arrRef spec0) → W2 m c b = E1 m c b :=
  fun b hb => W2_of_ne m c b fun w e => hb (Finset.mem_image.mpr ⟨w, Finset.mem_univ _, e⟩)
/-- After each of the eight host stretches between the regions. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
/-- After the last pad: what region 1 is entered with. -/
abbrev W10 : Dev nD → Valuation τ sig (Elt F) := fun c => StableHlo.after hostOps1_7 (W9 m c)
abbrev E10 : (c : Dev nD) → (b : Ref sig .tc) → Buf (Elt F) ((c : Thread nD τ).loc b) := fun c b => W10 m c b
/-- After region 1. -/
def W11 (c : Dev nD) : Valuation τ sig (Elt F) :=
  Pipeline.withArrays spec1 c (W10 m c) fun w => (dat1 (E10 m) c).arrAt w cfg1.N
theorem W11_arr (c : Dev nD) (w : Fin cfg1.W) :
    W11 m c (Proc.devRef .tc (Pipeline.arrRef spec1 w)) = (dat1 (E10 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
theorem hF1 (c : Dev nD) (w : Fin cfg1.W) : (dat1 (E10 m) c).arrAt w cfg1.N = W11 m c (Pipeline.arrRef spec1 w) :=
  (W11_arr m c w).symm
theorem hrest1 (c : Dev nD) : ∀ b : Ref sig .tc, b ∉ Finset.univ.image (Pipeline.arrRef spec1) → W11 m c b = E10 m c b :=
  fun b hb => W11_of_ne m c b fun w e => hb (Finset.mem_image.mpr ⟨w, Finset.mem_univ _, e⟩)
/-- After the final reshape: the end. -/
abbrev W12 : Dev nD → Valuation τ sig (Elt F) := fun c => StableHlo.after hostOps2 (W11 m c)

/-! ## The proof data of both pipelines, and what rides beside the buffers -/

/-- Both pipelines' proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E10 m) c
abbrev 𝒱n : Variants := Variants.none
abbrev Ln : GSem nD τ sig → Finset Unit := fun _ => ∅
abbrev lvn : GSem nD τ sig → Unit → ℕ := fun _ _ => 0
/-- The generator register at some state, and the core owing nothing. -/
abbrev Rst (c : Dev nD) : sProp 𝕄 := iprop((∃ r, prngReg c r) ∗ ∃ W, owes (c : Thread nD τ) (0 : CellTallies nD τ sig Unit) W)
/-- A host stretch as a segment from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-! ## The regions as segments -/

set_option backward.isDefEq.respectTransparency.types false in
/-- Region 0 as a segment: entered with every unscoped buffer at `W1`, left with them at `W2`. Its windows'
    arrays are split out of the unscoped buffers at entry and put back at their final contents at exit; the generator
    register goes into the kernel's invariant and comes back; the kernel owes no one and has no semaphore of its own. -/
def reg0 : Pipeline.RegionSeg (pcfgs (F := F)) Gen.adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Ln lvn 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (Gen.adm (F := F) 0).1
        ∗ Pipeline.scopedRest spec0 c) ⊢ (Pipeline.ΦA spec0 c : sProp 𝕄) := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W10`, left with them at `W11`. Its windows'
    arrays are split out of the unscoped buffers at entry and put back at their final contents at exit; the generator
    register goes into the kernel's invariant and comes back; the kernel owes no one and has no semaphore of its own. -/
def reg1 : Pipeline.RegionSeg (pcfgs (F := F)) Gen.adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E10 m) c).loose
  hwaits := Pipeline.hwaits_of_owed_zero _ _ _ _ Ln lvn 1 fun _ _ => rfl
  pre c := iprop(StableHlo.held (c : Thread nD τ) (Pipeline.ucRefs τ sig) (W10 m c) ∗ Rst c)
  post c := iprop(StableHlo.held (c : Thread nD τ) (Pipeline.ucRefs τ sig) (W11 m c) ∗ Rst c)
  X c := iprop(∃ r, prngReg c r)
  Y c := iprop(∃ r, prngReg c r)
  Z c := Pipeline.unscopedRest (Ix := Unit) (Name := ℕ) (U := UR sig nD τ) (Lvl := ℕ) spec1 c (E10 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (Gen.adm (F := F) 1).1
        ∗ Pipeline.scopedRest spec1 c) ⊢ (Pipeline.ΦA spec1 c : sProp 𝕄) := by
      unfold Pipeline.ΦA
      iintro ⟨Hp, -, Hr⟩
      isplitl [Hr]; · iexact Hr
      iexact Hp
    exact h.trans (hin1 (E10 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (E10 m) c).trans h
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E10 m c) (fun b => W11 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twelve items in order. -/
abbrev psegs : List (Pipeline.Seg (pcfgs (F := F)) Gen.adm (pdats m) () defs₀ 𝒱n Ln lvn) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .host (hseg hostOps1_7 hostOps1_7_sub hostOps1_7_fresh (W9 m)),
    .region (reg1 m),
    .host (hseg hostOps2 hostOps2_sub hostOps2_fresh (W11 m)) ]

/-- @main is the run of its segments. -/
theorem main_run (c : Dev nD) : main (F := F) c = Pipeline.Seg.run (psegs m) := (main_chain c).trans (by chain_rfl)

/-- An unscoped TensorCore reference is among those a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory `m` with zero counters terminates without a fault, and in every final
    memory each core's unscoped buffers hold the last valuation `W12`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) Gen.adm (pdats m) () cellOf_inj emb₁ defs₀ 𝒱n Ln lvn m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m c) ∗ Rst c)
          ⊢ iprop(iprop(StableHlo.held (c : Thread nD τ) (Pipeline.ucRefs τ sig) (W12 m c) ∗ ∃ r, prngReg c r)
              ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.Kernel.Hand

end
-- ==== Proof.K.Ends.lean ====
/-
  What the last valuation holds: the ten argument arrays as launched, and the result as the reshape of region 1's output.

  No host line writes an argument (each writes only its own result buffer), region 1 stages none of them, and
  region 0 stages six of them (the quantised gate and up weights) through INPUT windows, whose arrays the pipeline
  never writes back. So an argument's buffer walks back unchanged from the last valuation to the launch memory.
  The result buffer is written by the last host line, a reshape of region 1's output array.
-/
import proofs.«104653_j17798344475235_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A reference no host line writes and region 1 does not stage holds, at the end, what it held after region 0. -/
theorem W12_eq_W2 (c : Dev nD) (r : Ref sig .tc)
    (h1 : r ∉ hostOps1_W) (h11 : r ∉ hostOps1_1_W) (h12 : r ∉ hostOps1_2_W) (h13 : r ∉ hostOps1_3_W)
    (h14 : r ∉ hostOps1_4_W) (h15 : r ∉ hostOps1_5_W) (h16 : r ∉ hostOps1_6_W) (h17 : r ∉ hostOps1_7_W)
    (h2 : r ∉ hostOps2_W) (hr1 : ∀ w, Pipeline.arrRef spec1 w ≠ r) :
    W12 m c (Proc.devRef .tc r) = W2 m c (Proc.devRef .tc r) :=
  (StableHlo.after_of_writes_sub hostOps2 _ hostOps2_writes h2).trans <|
  (W11_of_ne m c r hr1).trans <|
  (StableHlo.after_of_writes_sub hostOps1_7 _ hostOps1_7_writes h17).trans <|
  (StableHlo.after_of_writes_sub hostOps1_6 _ hostOps1_6_writes h16).trans <|
  (StableHlo.after_of_writes_sub hostOps1_5 _ hostOps1_5_writes h15).trans <|
  (StableHlo.after_of_writes_sub hostOps1_4 _ hostOps1_4_writes h14).trans <|
  (StableHlo.after_of_writes_sub hostOps1_3 _ hostOps1_3_writes h13).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1)

/-- The first two host lines write none of the arguments. -/
theorem W1_eq_W0 (c : Dev nD) (r : Ref sig .tc) (h0 : r ∉ hostOps0_W) :
    W1 m c (Proc.devRef .tc r) = m ((c : Thread nD τ).loc r) :=
  StableHlo.after_of_writes_sub hostOps0 _ hostOps0_writes h0

/-- An input window's array leaves region 0 as it entered. -/
theorem W2_input (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hin _).trans (A_eq0 (E1 m) c w))

theorem W12_main_arg0 (c : Dev nD) : W12 m c (Proc.devRef .tc main_arg0) = m ((c : Thread nD τ).loc main_arg0) :=
  (W12_eq_W2 m c main_arg0 (by decide) (by decide) (by decide) (by decide) (by decide) (by decide) (by decide) (by decide) (by decide) (by decide)).trans <|
  (W2_of_ne m c main_arg0 (by decide)).trans (W1_eq_W0 m c main_arg0 (by decide))
theorem W12_main_arg1 (c : Dev nD) : W12 m c (Proc.devRef .tc main_arg1) = m ((c : Thread nD τ).loc main_arg1) :=
  (W12_eq_W2 m c main_arg1 (by decide) (by decide) (by decide) (by decide) (by decide) (by decide) (by decide) (by decide) (by decide) (by decide)).trans <|
  (W2_input m c 1 rfl).trans (W1_eq_W0 m c main_arg1 (by decide))
theorem W12_main_arg2 (c : Dev nD) : W12 m c (Proc.devRef .tc main_arg2) = m ((c : Thread nD τ).loc main_arg2) :=
  (W12_eq_W2 m c main_arg2 (by decide) (by decide) (by decide) (by decide) (by decide) (by decide) (by decide) (by decide) (by decide) (by decide)).trans <|
  (W2_input m c 2 rfl).trans (W1_eq_W0 m c main_arg2 (by decide))
theorem W12_main_arg3 (c : Dev nD) : W12 m c (Proc.devRef .tc main_arg3) = m ((c : Thread nD τ).loc main_arg3) :=
  (W12_eq_W2 m c main_arg3 (by decide) (by decide) (by decide) (by decide) (by decide) (by decide) (by decide) (by decide) (by decide) (by decide)).trans <|
  (W2_input m c 3 rfl).trans (W1_eq_W0 m c main_arg3 (by decide))
theorem W12_main_arg4 (c : Dev nD) : W12 m c (Proc.devRef .tc main_arg4) = m ((c : Thread nD τ).loc main_arg4) :=
  (W12_eq_W2 m c main_arg4 (by decide) (by decide) (by decide) (by decide) (by decide) (by decide) (by decide) (by decide) (by decide) (by decide)).trans <|
  (W2_input m c 4 rfl).trans (W1_eq_W0 m c main_arg4 (by decide))
theorem W12_main_arg5 (c : Dev nD) : W12 m c (Proc.devRef .tc main_arg5) = m ((c : Thread nD τ).loc main_arg5) :=
  (W12_eq_W2 m c main_arg5 (by decide) (by decide) (by decide) (by decide) (by decide) (by decide) (by decide) (by decide) (by decide) (by decide)).trans <|
  (W2_input m c 5 rfl).trans (W1_eq_W0 m c main_arg5 (by decide))
theorem W12_main_arg6 (c : Dev nD) : W12 m c (Proc.devRef .tc main_arg6) = m ((c : Thread nD τ).loc main_arg6) :=
  (W12_eq_W2 m c main_arg6 (by decide) (by decide) (by decide) (by decide) (by decide) (by decide) (by decide) (by decide) (by decide) (by decide)).trans <|
  (W2_input m c 6 rfl).trans (W1_eq_W0 m c main_arg6 (by decide))
theorem W12_main_arg7 (c : Dev nD) : W12 m c (Proc.devRef .tc main_arg7) = m ((c : Thread nD τ).loc main_arg7) :=
  (W12_eq_W2 m c main_arg7 (by decide) (by decide) (by decide) (by decide) (by decide) (by decide) (by decide) (by decide) (by decide) (by decide)).trans <|
  (W2_of_ne m c main_arg7 (by decide)).trans (W1_eq_W0 m c main_arg7 (by decide))
theorem W12_main_arg8 (c : Dev nD) : W12 m c (Proc.devRef .tc main_arg8) = m ((c : Thread nD τ).loc main_arg8) :=
  (W12_eq_W2 m c main_arg8 (by decide) (by decide) (by decide) (by decide) (by decide) (by decide) (by decide) (by decide) (by decide) (by decide)).trans <|
  (W2_of_ne m c main_arg8 (by decide)).trans (W1_eq_W0 m c main_arg8 (by decide))
theorem W12_main_arg9 (c : Dev nD) : W12 m c (Proc.devRef .tc main_arg9) = m ((c : Thread nD τ).loc main_arg9) :=
  (W12_eq_W2 m c main_arg9 (by decide) (by decide) (by decide) (by decide) (by decide) (by decide) (by decide) (by decide) (by decide) (by decide)).trans <|
  (W2_of_ne m c main_arg9 (by decide)).trans (W1_eq_W0 m c main_arg9 (by decide))

/-- The frame claim's post from the run's: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c)⟩) (run m ρ)

end Cert.Kernel.Hand

end
-- ==== Proof.KI.R0Runs.lean ====
import proofs.«104653_j17798344475235_1_alg».proof.Proof.Gen.KernelIdeal.Launch
import proofs.«104653_j17798344475235_1_alg».proof.Proof.Gen.KernelIdeal.Skeleton
import proofs.«104653_j17798344475235_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated projection (the first kernel call): what its runs are stated over

The body accumulates, over the four reduction steps `d` of a tile `(m, hh)`, the two products
`x ⬝ dequant(gate)` and `x ⬝ dequant(up)` in two f32 accumulators kept between steps; the first step
clears both, the last combines them as `g · σ(g) · u` into the output tile. Everything here is at the
contents `V` the region finds on entry. -/

/-! ## The windows' tiles -/

/-- The tile of window `w` at grid point `t`: its rectangle of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's staging buffer holds its tile at every point, whether or not the point fetched it: an unfetched
    point has the tile index of the point before, and the body never stores into an input. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input 1's staging buffer holds its tile at every point, whether or not the point fetched it: an unfetched
    point has the tile index of the point before, and the body never stores into an input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input 2's staging buffer holds its tile at every point, whether or not the point fetched it: an unfetched
    point has the tile index of the point before, and the body never stores into an input. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input 3's staging buffer holds its tile at every point, whether or not the point fetched it: an unfetched
    point has the tile index of the point before, and the body never stores into an input. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input 4's staging buffer holds its tile at every point, whether or not the point fetched it: an unfetched
    point has the tile index of the point before, and the body never stores into an input. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input 5's staging buffer holds its tile at every point, whether or not the point fetched it: an unfetched
    point has the tile index of the point before, and the body never stores into an input. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input 6's staging buffer holds its tile at every point, whether or not the point fetched it: an unfetched
    point has the tile index of the point before, and the body never stores into an input. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the reduction step -/

/-- "This is the first reduction step" (`d = 0`), as the body computes it from the grid coordinates. -/
abbrev cond0_0 (i : grid0.Coords) : Prop := (Scalar.cmpi .ne (Scalar.extui (Scalar.cmpi .eq (BitVec.ofNat 32 (i 2).val) 0#32)) 0#32) = 1#1
/-- The reduction step is the fastest coordinate: it is `t mod 4`, so the first step is `t ≡ 0`. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last reduction step" (`d = 3`). -/
abbrev cond0_1 (i : grid0.Coords) : Prop := k0_cond2 i = 1#1
/-- The last step is `t ≡ 3 (mod 4)`. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output tile is live -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-- At a first step the output tile is neither stored into nor written back. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
/-- Nor at a middle step. -/
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
/-- At a last step it is stored. -/
theorem liveAt0_7_C : ∀ t : Fin cfg0.N, ¬cond0_0 (grid0.coords t) → cond0_1 (grid0.coords t) → cfg0.idle 7 (grid0.coords t) = false := by decide +kernel

/-! ## The memrefs the body is called on -/

/-- A view of the output tile's shape through which its contents are stated (which staging buffer is immaterial). -/
abbrev VO0_7 : View sig .tc .vmem S1024x256 .bf16 := (Memref.whole cc0_stg7_0 : Memref sig .tc .vmem S1024x256 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x256 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
/-- The gate accumulator and the up accumulator: whole buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

/-- The core's other scoped buffers (the second kernel call's staging buffers and accumulator), each at some contents:
    this region never names them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant split as: the two accumulators, each owned at some contents; the buffers it never names;
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.KernelIdeal.Hand

end
-- ==== Proof.KI.R0RunA.lean ====
import proofs.«104653_j17798344475235_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated projection's body at a FIRST reduction step -/

set_option maxHeartbeats 4000000 in
/-- The body at a FIRST reduction step: both accumulators are cleared, then each takes its product; the output tile is left alone.
    On whole memrefs — the seven inputs at their tiles `x·`, the output at `xi7`, the accumulators at anything — it
    runs to a continuation that holds the inputs as they were, the output still at `xi7`, and each accumulator
    with its pieces written (`LS·`, last store first). The pieces are the witnesses. -/
noncomputable def kernelRun0_A (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) :
    Σ' (L7 : List (View.Piece (Elt F) S1024x256 .bf16)) (LS0 : List (View.Piece (Elt F) S1024x256 .f32)), { LS1 : List (View.Piece (Elt F) S1024x256 .f32) //
      ∀ (xi7 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10 arg11 harg11 arg12 harg12) K } := by
  refine ⟨[], ?_, ?_, fun xi7 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.KernelIdeal.Hand

end
-- ==== Proof.KI.R0RunB.lean ====
import proofs.«104653_j17798344475235_1_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated projection's body at a MIDDLE reduction step -/

set_option maxHeartbeats 4000000 in
/-- The body at a MIDDLE reduction step: each accumulator takes its product on top of what the step before left; the output tile is left alone.
    On whole memrefs — the seven inputs at their tiles `x·`, the output at `xi7`, the accumulators at what the step before left (`xs·`) — it
    runs to a continuation that holds the inputs as they were, the output still at `xi7`, and each accumulator
    with its pieces written (`LS·`, last store first). The pieces are the witnesses. -/
noncomputable def kernelRun0_B (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) :
    Σ' (L7 : List (View.Piece (Elt F) S1024x256 .bf16)) (LS0 : List (View.Piece (Elt F) S1024x256 .f32)), { LS1 : List (View.Piece (Elt F) S1024x256 .f32) //
      ∀ (xi7 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10 arg11 harg11 arg12 harg12) K } := by
  refine ⟨[], ?_, ?_, fun xi7 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.KernelIdeal.Hand

end
-- ==== Proof.KI.R0RunC.lean ====
import proofs.«104653_j17798344475235_1_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated projection's body at a LAST reduction step -/

set_option maxHeartbeats 4000000 in
/-- The body at a LAST reduction step: each accumulator takes its product on top of what the step before left, and the output tile is stored from the two.
    On whole memrefs — the seven inputs at their tiles `x·`, the output at anything, the accumulators at what the step before left (`xs·`) — it
    runs to a continuation that holds the inputs as they were, the output with the pieces `L7` written, and each accumulator
    with its pieces written (`LS·`, last store first). The pieces are the witnesses. -/
noncomputable def kernelRun0_C (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) :
    Σ' (L7 : List (View.Piece (Elt F) S1024x256 .bf16)) (LS0 : List (View.Piece (Elt F) S1024x256 .f32)), { LS1 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    iexists _; iexact HS1

end Cert.KernelIdeal.Hand

end
-- ==== Proof.KI.R0.lean ====
import proofs.«104653_j17798344475235_1_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated projection (the first kernel call): its half of the frame

What the output tile and the two accumulators hold after every grid point, the pipeline's proof data at the entry
contents `V`, the body obligation, and the two entailments between the launch's invariant and the proof data's. -/

/-! ## What each kind of step leaves -/

/-- A first step stores nothing into the output tile: no pieces. Read back over unspecified contents this is a
    placeholder nothing consults — the tile is neither written back at such a point nor read at the next. -/
def out0_A_7 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) : Vec F S1024x256 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 hc0 hc1 x0 x1 x2 x3 x4 x5 x6).1)

/-- A first step's stores into the gate accumulator cover it. -/
theorem scover0_A_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (y : S1024x256.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3 x4 x5 x6).2.1 S1024x256.size (by sl_kernel_rfl) y

/-- What a first step leaves in the gate accumulator. -/
def sout0_A_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) : Vec F S1024x256 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 hc1 x0 x1 x2 x3 x4 x5 x6).2.1)

/-- A first step's stores into the up accumulator cover it. -/
theorem scover0_A_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (y : S1024x256.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3 x4 x5 x6).2.2.1 S1024x256.size (by sl_kernel_rfl) y

/-- What a first step leaves in the up accumulator. -/
def sout0_A_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) : Vec F S1024x256 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 hc0 hc1 x0 x1 x2 x3 x4 x5 x6).2.2.1)

/-- A middle step stores nothing into the output tile: no pieces. Read back over unspecified contents this is a
    placeholder nothing consults — the tile is neither written back at such a point nor read at the next. -/
def out0_B_7 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).1)

/-- A middle step's stores into the gate accumulator cover it. -/
theorem scover0_B_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) (y : S1024x256.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1 S1024x256.size (by sl_kernel_rfl) y

/-- What a middle step leaves in the gate accumulator. -/
def sout0_B_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- A middle step's stores into the up accumulator cover it. -/
theorem scover0_B_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) (y : S1024x256.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1024x256.size (by sl_kernel_rfl) y

/-- What a middle step leaves in the up accumulator. -/
def sout0_B_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- At a last step the one store into the output tile covers it. -/
theorem cover0_C_7 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).1 S1024x256.size (by sl_kernel_rfl) y

/-- What a last step leaves in the output tile: `g · σ(g) · u` of the two finished accumulators, as stored. -/
def out0_C_7 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .bf16 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).1)

/-- A last step's stores into the gate accumulator cover it. -/
theorem scover0_C_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1 S1024x256.size (by sl_kernel_rfl) y

/-- What a last step leaves in the gate accumulator. -/
def sout0_C_0 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- A last step's stores into the up accumulator cover it. -/
theorem scover0_C_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1024x256.size (by sl_kernel_rfl) y

/-- What a last step leaves in the up accumulator. -/
def sout0_C_1 (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) : Vec F S1024x256 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-! ## The accumulation, point by point -/

/-- What the output tile's staging buffer and the two accumulators hold after the body at position `n`
    (output tile, gate accumulator, up accumulator): the step kind is read off `n mod 4`; a first step starts from
    cleared accumulators, a later one from what position `n - 1` left in them. -/
def outsAt0 (c : Dev nD) : (n : ℕ) → n < cfg0.N → Vec F S1024x256 .bf16 × Vec F S1024x256 .f32 × Vec F S1024x256 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 4 = 0 then
      if h1 : (n + 1) % 4 = 3 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2)

/-- At a first step. -/
theorem outsAt0_A (c : Dev nD) (t : Fin cfg0.N) (h0 : t.val % 4 = 0) (h1 : ¬t.val % 4 = 3) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- At a middle step: over what the point before left in the accumulators. -/
theorem outsAt0_B (c : Dev nD) (t : Fin cfg0.N) (h0 : ¬t.val % 4 = 0) (h1 : ¬t.val % 4 = 3) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left in the accumulators. -/
theorem outsAt0_C (c : Dev nD) (t : Fin cfg0.N) (h0 : ¬t.val % 4 = 0) (h1 : t.val % 4 = 3) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the launch's own invariant (every accumulator at anything); afterwards the two
    accumulators at what position `n - 1` left in them, the buffers the region never names, and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ others0 c) ∗ (∃ r, prngReg c r)) := by
  cases n with
  | zero => exact absurd rfl hz
  | succ n => rfl

/-! ## The proof data -/

/-- The pipeline's proof data on core `c` at the entry contents `V`: each input's buffer keeps its tile, the output's
    holds `outsAt0`'s first component, the invariant is `PhiS0`; nothing is owed and every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' buffers hold their tiles; `t mod 4` says which kind of step the point is, and that
    kind's run applies: the invariant hands it the accumulators (at anything at the very first point, else at what the point
    before left) and takes them back at this point's contents, the stores covering each; the output tile is handed back
    untouched except at a last step, whose store covers it. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0 sout0_A_1; (try dsimp only)
      by_cases hz : t.val = 0
      ·
        rw [PhiS0_castSucc V c t, PhiS0_zero V c _ _ hz, PhiA0_eq]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_7 sout0_C_0 sout0_C_1; (try dsimp only)
      by_cases hz : t.val = 0
      · exfalso; omega
      ·
        rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        iintro ⟨H0, H1, H2, H3, H4, H5, H6, ⟨%e7, H7⟩, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      ·
        rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body obligation at every point. -/
theorem body_obligation0 (c : Dev nD) : BodyObligation (dat0 (F := F) V c) (defs₀ (F := F)) Variants.none () Set.univ := fun t => by
  rw [bigSep_W0, bigSep_W0]
  exact sound_body0 V c t

/-! ## Into and out of the region -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- In particular after the last. -/
theorem hout0 (c : Dev nD) : (dat0 V c).Φ (Fin.last cfg0.N) ⊢ Pipeline.ΦA spec0 c :=
  Phi_out0 V c _ (by rw [Fin.val_last]; have : cfg0.N = 688 := N_0; omega)

end Cert.KernelIdeal.Hand

end
-- ==== Proof.KI.R1Runs.lean ====
import proofs.«104653_j17798344475235_1_alg».proof.Proof.Gen.KernelIdeal.Launch
import proofs.«104653_j17798344475235_1_alg».proof.Proof.Gen.KernelIdeal.Skeleton
import proofs.«104653_j17798344475235_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- the blocks' long axis has 1024 coordinates
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffers as the second kernel call finds them on entry: a parameter of everything below
variable (V : (c : Dev nD) → (b : Ref sig .tc) → Buf (Elt F) ((c : Thread nD τ).loc b))

/-! # The down-projection call (grid 4 × 8 × 11, 352 points): what its three control cases share

The kernel accumulates `h_blk · dequant(w_blk)` into an f32 scratch along the last grid axis `k`:
zeroed where `k = 0`, added to at every point, copied to the output block where `k = 10`. -/

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two conditionals, in closed form over the grid -/

/-- `k = 0` as the kernel tests it (the first `scf.if`: zero the accumulator). -/
abbrev cond1_0 (i : grid1.Coords) : Prop := (Scalar.cmpi .ne (Scalar.extui (Scalar.cmpi .eq (BitVec.ofNat 32 (i 2).val) 0#32)) 0#32) = 1#1
/-- `k = 10` as the kernel tests it (the second `scf.if`: emit the accumulator). -/
abbrev cond1_1 (i : grid1.Coords) : Prop := k1_cond2 i = 1#1

/-- The first holds exactly at the points whose position is ≡ 0 (mod 11). -/
theorem hcond1_0 : ∀ t : Fin cfg1.N, cond1_0 (grid1.coords t) ↔ t.val % 11 = 0 :=
  (by decide +kernel : ∀ t : Fin grid1.N, cond1_0 (grid1.coords t) ↔ t.val % 11 = 0)
/-- The second exactly at those ≡ 10 (mod 11). -/
theorem hcond1_1 : ∀ t : Fin cfg1.N, cond1_1 (grid1.coords t) ↔ t.val % 11 = 10 :=
  (by decide +kernel : ∀ t : Fin grid1.N, cond1_1 (grid1.coords t) ↔ t.val % 11 = 10)

/-! ## The inputs hold their blocks at every point -/

/-- An input window's current staging buffer holds its block whether or not the point fetched it (unfetched, the
    block index has not moved), for any proof data over the entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

/-- The output block is stored only where `k = 10`: the configuration calls the window idle at every other point. -/
theorem idle1_4 : ∀ t : Fin cfg1.N, cfg1.idle 4 (grid1.coords t) = true ↔ ¬ t.val % 11 = 10 :=
  (by decide +kernel : ∀ t : Fin grid1.N, cfg1.idle 4 (grid1.coords t) = true ↔ ¬ t.val % 11 = 10)
theorem idleAt1_4 (t : Fin cfg1.N) (h : ¬ t.val % 11 = 10) : cfg1.idle 4 (grid1.coords t) = true := (idle1_4 t).mpr h
theorem liveAt1_4 (t : Fin cfg1.N) (h : t.val % 11 = 10) : cfg1.idle 4 (grid1.coords t) = false := by
  cases hb : cfg1.idle 4 (grid1.coords t) with
  | false => rfl
  | true => exact absurd h ((idle1_4 t).mp hb)
/-- And there the pipeline does not write the block back. -/
theorem noFlush1_4 (t : Fin cfg1.N) (h : ¬ t.val % 11 = 10) : (cfg1.win 4).flush t = false := by
  cases hb : (cfg1.win 4).flush t with
  | false => rfl
  | true => exact absurd ((flush1_4 t).mp hb) h

/-! ## The memrefs the body is called with -/

/-- A staging buffer of the output window as a view: contents are stated through it (any whole view of the shape reads the same). -/
abbrev VO1_4 : View sig .tc .vmem S1024x512 .f32 := (Memref.whole cc1_stg4_0 : Memref sig .tc .vmem S1024x512 .f32).view
/-- Each window's current staging memref at point `t`, and that it is a whole buffer. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows and carried from point to point. -/
abbrev scM1_0 : Memref sig .tc .vmem S1024x512 .f32 := Memref.whole cc1_scratch0
abbrev VS1_0 : View sig .tc .vmem S1024x512 .f32 := scM1_0.view

/-- The core's scoped buffers that are neither staging buffers of this call nor its accumulator (the other call's
    buffers), each at some contents: carried through every point unopened. -/
abbrev others1 (c : Dev nD) : sProp 𝕄 :=
  Pipeline.scopedRestBut (Ix := Unit) (Name := ℕ) (U := UR sig nD τ) (Lvl := ℕ) (Val := Elt F) spec1 c [cc1_scratch0]

/-- What the launch hands the region, with the accumulator split off as a memref owned at some contents. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [scM1_0, owns_whole]; try rfl

end Cert.KernelIdeal.Hand

end
-- ==== Proof.KI.R1RunA.lean ====
import proofs.«104653_j17798344475235_1_alg».proof.Proof.KI.R1Runs

-- the blocks' long axis has 1024 coordinates
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffers as the second kernel call finds them on entry: a parameter of everything below
variable (V : (c : Dev nD) → (b : Ref sig .tc) → Buf (Elt F) ((c : Thread nD τ).loc b))

/-! # The down-projection body where `k = 0`

The accumulator is zeroed before it is read, so it may enter at any contents; the output block is not touched. -/

-- (the body is a long sequence of loads and stores)
set_option maxHeartbeats 1000000 in
/-- The pieces the body's stores leave in the output's staging memref (none) and in the accumulator (last first), with
    the triple: on whole memrefs — the four inputs at `x0 … x3`, the output at `xi4`, the accumulator at anything —
    the body runs to a continuation holding the inputs and the output as they were and the accumulator with its
    pieces written. The lists follow the body's stores in order. -/
noncomputable def kernelRun1_A (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .i32) (x2 : Vec F S8x512 .i32) (x3 : Vec F S8x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__mlp2_kernel i arg3 harg3 arg4 harg4 arg5 harg5 arg6 harg6 arg7 harg7 arg8 harg8) K } := by
  refine ⟨[], ?_, fun xi4 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.R1RunB.lean ====
import proofs.«104653_j17798344475235_1_alg».proof.Proof.KI.R1RunA

-- the blocks' long axis has 1024 coordinates
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffers as the second kernel call finds them on entry: a parameter of everything below
variable (V : (c : Dev nD) → (b : Ref sig .tc) → Buf (Elt F) ((c : Thread nD τ).loc b))

/-! # The down-projection body where `0 < k < 10`

The accumulator enters at what the point before left and is added to; the output block is not touched. -/

-- (the body is a long sequence of loads and stores)
set_option maxHeartbeats 1000000 in
/-- The pieces the body's stores leave in the output's staging memref (none) and in the accumulator, with the triple:
    on whole memrefs — the four inputs at `x0 … x3`, the output at `xi4`, the accumulator at `xs0` — the body runs to
    a continuation holding the inputs and the output as they were and the accumulator with its pieces written. -/
noncomputable def kernelRun1_B (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .i32) (x2 : Vec F S8x512 .i32) (x3 : Vec F S8x512 .f32) (xs0 : Vec F S1024x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__mlp2_kernel i arg3 harg3 arg4 harg4 arg5 harg5 arg6 harg6 arg7 harg7 arg8 harg8) K } := by
  refine ⟨[], ?_, fun xi4 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.R1RunC.lean ====
import proofs.«104653_j17798344475235_1_alg».proof.Proof.KI.R1RunB

-- the blocks' long axis has 1024 coordinates
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffers as the second kernel call finds them on entry: a parameter of everything below
variable (V : (c : Dev nD) → (b : Ref sig .tc) → Buf (Elt F) ((c : Thread nD τ).loc b))

/-! # The down-projection body where `k = 10`

The accumulator enters at what the point before left, is added to, and is then copied into the output block
(which the body loads first, at whatever it holds, and then overwrites whole). -/

-- (the body is a long sequence of loads and stores)
set_option maxHeartbeats 1000000 in
/-- The pieces the body's stores leave in the output's staging memref and in the accumulator, with the triple: on
    whole memrefs — the four inputs at `x0 … x3`, the output at anything, the accumulator at `xs0` — the body runs to a
    continuation holding the inputs as they were and the output and the accumulator with their pieces written. -/
noncomputable def kernelRun1_C (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) :
    Σ' (L4 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__mlp2_kernel i arg3 harg3 arg4 harg4 arg5 harg5 arg6 harg6 arg7 harg7 arg8 harg8) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KI.R1.lean ====
import proofs.«104653_j17798344475235_1_alg».proof.Proof.KI.R1RunC

-- the blocks' long axis has 1024 coordinates
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffers as the second kernel call finds them on entry: a parameter of everything below
variable (V : (c : Dev nD) → (b : Ref sig .tc) → Buf (Elt F) ((c : Thread nD τ).loc b))

/-! # The down-projection call: what its buffers hold point by point, the proof data, the body obligation

Per control case the run of the body (`kernelRun1_A/B/C`) found the pieces each buffer ends with; here they are read
back as contents, chained over the grid (`outsAt1`), and handed to the pipeline library as proof data over the entry
contents `V`. -/

/-! ## Per case: the pieces cover, and what they leave -/

/-- Where `k = 0`: the accumulator's pieces tile it. -/
theorem scover1_A_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .i32) (x2 : Vec F S8x512 .i32) (x3 : Vec F S8x512 .f32) (y : S1024x512.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x512.size (by sl_kernel_rfl) y

/-- What the accumulator holds after a point with `k = 0`: its pieces read back. -/
def sout1_A_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .i32) (x2 : Vec F S8x512 .i32) (x3 : Vec F S8x512 .f32) : Vec F S1024x512 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- Where `0 < k < 10`: the accumulator's pieces tile it. -/
theorem scover1_B_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .i32) (x2 : Vec F S8x512 .i32) (x3 : Vec F S8x512 .f32) (xs0 : Vec F S1024x512 .f32) (y : S1024x512.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x512.size (by sl_kernel_rfl) y

/-- What the accumulator holds after a point with `0 < k < 10`, having entered at `xs0`. -/
def sout1_B_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .i32) (x2 : Vec F S8x512 .i32) (x3 : Vec F S8x512 .f32) (xs0 : Vec F S1024x512 .f32) : Vec F S1024x512 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- Where `k = 10`: the output block's pieces tile it, -/
theorem cover1_C_4 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) (y : S1024x512.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x512.size (by sl_kernel_rfl) y

/-- and what they leave in its staging buffer. -/
def out1_C_4 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) : Vec F S1024x512 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- The accumulator's pieces tile it there too, -/
theorem scover1_C_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) (y : S1024x512.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x512.size (by sl_kernel_rfl) y

/-- and this is what it holds afterwards. -/
def sout1_C_0 (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) : Vec F S1024x512 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## The cases at a grid point -/

/-- At a point with `k = 0` the second conditional fails, and so on: the closed forms exclude one another. -/
theorem notC_of_A (t : Fin cfg1.N) (h0 : t.val % 11 = 0) : ¬cond1_1 (grid1.coords t) :=
  fun h => by have := (hcond1_1 t).mp h; omega
theorem notA_of (t : Fin cfg1.N) (h0 : ¬t.val % 11 = 0) : ¬cond1_0 (grid1.coords t) := fun h => h0 ((hcond1_0 t).mp h)
theorem notC_of (t : Fin cfg1.N) (h1 : ¬t.val % 11 = 10) : ¬cond1_1 (grid1.coords t) := fun h => h1 ((hcond1_1 t).mp h)

/-- The output's staging buffer at a point that stores nothing into it: contents nobody reads (the window is idle
    there and not written back). -/
def idleOut1 : Vec F S1024x512 .f32 := VO1_4.read (Elt F) VO1_4.junk

/-- The accumulator after point `t` where `k = 0`, from the point's input blocks. -/
def accA1 (c : Dev nD) (t : Fin cfg1.N) (h0 : t.val % 11 = 0) : Vec F S1024x512 .f32 :=
  sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (notC_of_A t h0) (iblk1 V c 0 t) (iblk1 V c 1 t) (iblk1 V c 2 t) (iblk1 V c 3 t)
/-- The accumulator after point `t` where `0 < k < 10`, from the point's input blocks and what it held before. -/
def accB1 (c : Dev nD) (t : Fin cfg1.N) (h0 : ¬t.val % 11 = 0) (h1 : ¬t.val % 11 = 10) (prev : Vec F S1024x512 .f32) : Vec F S1024x512 .f32 :=
  sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (notA_of t h0) (notC_of t h1) (iblk1 V c 0 t) (iblk1 V c 1 t) (iblk1 V c 2 t) (iblk1 V c 3 t) prev
/-- The accumulator, and the output block, after point `t` where `k = 10`. -/
def accC1 (c : Dev nD) (t : Fin cfg1.N) (h0 : ¬t.val % 11 = 0) (h1 : t.val % 11 = 10) (prev : Vec F S1024x512 .f32) : Vec F S1024x512 .f32 :=
  sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (notA_of t h0) ((hcond1_1 t).mpr h1) (iblk1 V c 0 t) (iblk1 V c 1 t) (iblk1 V c 2 t) (iblk1 V c 3 t) prev
def outC1 (c : Dev nD) (t : Fin cfg1.N) (h0 : ¬t.val % 11 = 0) (h1 : t.val % 11 = 10) (prev : Vec F S1024x512 .f32) : Vec F S1024x512 .f32 :=
  out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (notA_of t h0) ((hcond1_1 t).mpr h1) (iblk1 V c 0 t) (iblk1 V c 1 t) (iblk1 V c 2 t) (iblk1 V c 3 t) prev

/-! ## Point by point -/

/-- What the output's staging buffer (first) and the accumulator (second) hold after the body at position `n`: the
    case the closed forms select, run on the point's blocks, the accumulator entering at what position `n - 1` left. -/
def outsAt1 (c : Dev nD) : (n : ℕ) → n < cfg1.N → Vec F S1024x512 .f32 × Vec F S1024x512 .f32
  | 0, hn => (idleOut1, accA1 V c ⟨0, hn⟩ (Nat.zero_mod _))
  | n + 1, hn =>
    if h0 : (n + 1) % 11 = 0 then (idleOut1, accA1 V c ⟨n + 1, hn⟩ h0)
    else if h1 : (n + 1) % 11 = 10 then
      (outC1 V c ⟨n + 1, hn⟩ h0 h1 (outsAt1 c n (Nat.lt_of_succ_lt hn)).2, accC1 V c ⟨n + 1, hn⟩ h0 h1 (outsAt1 c n (Nat.lt_of_succ_lt hn)).2)
    else (idleOut1, accB1 V c ⟨n + 1, hn⟩ h0 h1 (outsAt1 c n (Nat.lt_of_succ_lt hn)).2)

/-- The position before `t`'s is a position of the grid. -/
theorem pred_lt1 (t : Fin cfg1.N) : t.val - 1 < cfg1.N := Nat.lt_of_le_of_lt (Nat.sub_le _ _) t.isLt

theorem outsAt1_A (c : Dev nD) (t : Fin cfg1.N) (h0 : t.val % 11 = 0) :
    outsAt1 V c t.val t.isLt = (idleOut1, accA1 V c t h0) := by
  obtain ⟨n, hn⟩ := t
  cases n with
  | zero => rfl
  | succ n => exact (dif_pos h0).trans rfl

theorem outsAt1_B (c : Dev nD) (t : Fin cfg1.N) (h0 : ¬t.val % 11 = 0) (h1 : ¬t.val % 11 = 10) :
    outsAt1 V c t.val t.isLt = (idleOut1, accB1 V c t h0 h1 (outsAt1 V c (t.val - 1) (pred_lt1 t)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 11 = 0) (h1 : t.val % 11 = 10) :
    outsAt1 V c t.val t.isLt = (outC1 V c t h0 h1 (outsAt1 V c (t.val - 1) (pred_lt1 t)).2, accC1 V c t h0 h1 (outsAt1 V c (t.val - 1) (pred_lt1 t)).2) := by
  obtain ⟨n, hn⟩ := t
  cases n with
  | zero => exact absurd (Nat.zero_mod _) h0
  | succ n => exact (dif_neg h0).trans ((dif_pos h1).trans rfl)

/-! ## The invariant between points -/

/-- Before position `n`: at the start what the launch hands over (the accumulator at anything); afterwards the
    accumulator at what position `n - 1` left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The proof data -/

/-- The call's proof data on core `c`: the arrays at the entry contents; after the body each input's buffer at its
    block, the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the position's residue mod 11 says which case runs;
    the invariant hands over the accumulator — at anything before the first point, else at what the point before
    left — and takes it back at this point's contents (its pieces cover it); the other scoped buffers, the generator
    register and the core's dues pass through. Where `k ≠ 10` the output's buffer is handed back as found; where
    `k = 10` it comes back at its covering pieces' contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 11 = 0
  · have h1 : ¬t.val % 11 = 10 := by omega
    rw [Dat.leavesExact_idle (dat1 V c) 4 t (idleAt1_4 t h1) (noFlush1_4 t h1)]
    rw [outsAt1_A V c t h0]
    dsimp only
    unfold accA1 sout1_A_0
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notC_of_A t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notC_of_A t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 11 = 10
    · rw [show (dat1 V c).leavesExact 4 t = owns (c : Thread nD τ) (ms1_4 t) fullShare ((dat1 V c).after 4 t) from by
        unfold Dat.leavesExact; rw [liveAt1_4 t h1], after1_4]
      rw [outsAt1_C V c t h0 h1]
      dsimp only
      unfold accC1 outC1 sout1_C_0 out1_C_4
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (notA_of t h0) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t h1) (noFlush1_4 t h1)]
      rw [outsAt1_B V c t h0 h1]
      dsimp only
      unfold accB1 sout1_B_0
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (notA_of t h0) (notC_of t h1) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives it back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- In particular after the last. -/
theorem hout1 (c : Dev nD) : (dat1 V c).Φ (Fin.last cfg1.N) ⊢ Pipeline.ΦA spec1 c :=
  Phi_out1 V c _ (by rw [Fin.val_last]; have : cfg1.N = 352 := N_1; omega)

end Cert.KernelIdeal.Hand

end
-- ==== Proof.KI.Run.lean ====
/-
  The launch of the two-region program, at any instance of the float operations.

  @main is: two host lines (reshape, round to bf16); region 0; eight host stretches (the zero constants and the four pads);
  region 1; one host line (reshape). Between two consecutive items every unscoped buffer of a core is held at a named
  valuation: the launch memory, then each host stretch applied to the valuation before it, and after a region the
  valuation before it with the region's window arrays replaced by what the pipeline's write-backs leave in them.
  Beside the buffers a core carries its generator register and the fact that it owes no one anything.
  Each region is a segment given by the kernel's body obligation (proved in the region's own module) and four
  entailments that sort the window arrays out of the unscoped buffers and put them back. The run's post says that
  every unscoped buffer ends at the last valuation; the frame claims and the result's value are read off it.
-/
import proofs.«104653_j17798344475235_1_alg».proof.Proof.KI.R0
import proofs.«104653_j17798344475235_1_alg».proof.Proof.KI.R1
import proofs.«104653_j17798344475235_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between two items -/

/-- At launch. -/
abbrev W0 : Dev nD → Valuation τ sig (Elt F) := fun c b => m (c, b)
/-- After the reshape and the rounding of `x`: what region 0 is entered with. -/
abbrev W1 : Dev nD → Valuation τ sig (Elt F) := fun c => StableHlo.after hostOps0 (W0 m c)
/-- The same, read at a TensorCore reference. -/
abbrev E1 : (c : Dev nD) → (b : Ref sig .tc) → Buf (Elt F) ((c : Thread nD τ).loc b) := fun c b => W1 m c b
/-- After region 0: its window arrays at what the write-backs leave, everything else as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (E1 m) c).arrAt w cfg0.N = W2 m c (Pipeline.arrRef spec0 w) :=
  (W2_arr m c w).symm
theorem hrest0 (c : Dev nD) : ∀ b : Ref sig .tc, b ∉ Finset.univ.image (Pipeline.arrRef spec0) → W2 m c b = E1 m c b :=
  fun b hb => W2_of_ne m c b fun w e => hb (Finset.mem_image.mpr ⟨w, Finset.mem_univ _, e⟩)
/-- After each of the eight host stretches between the regions. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
/-- After the last pad: what region 1 is entered with. -/
abbrev W10 : Dev nD → Valuation τ sig (Elt F) := fun c => StableHlo.after hostOps1_7 (W9 m c)
abbrev E10 : (c : Dev nD) → (b : Ref sig .tc) → Buf (Elt F) ((c : Thread nD τ).loc b) := fun c b => W10 m c b
/-- After region 1. -/
def W11 (c : Dev nD) : Valuation τ sig (Elt F) :=
  Pipeline.withArrays spec1 c (W10 m c) fun w => (dat1 (E10 m) c).arrAt w cfg1.N
theorem W11_arr (c : Dev nD) (w : Fin cfg1.W) :
    W11 m c (Proc.devRef .tc (Pipeline.arrRef spec1 w)) = (dat1 (E10 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
theorem hF1 (c : Dev nD) (w : Fin cfg1.W) : (dat1 (E10 m) c).arrAt w cfg1.N = W11 m c (Pipeline.arrRef spec1 w) :=
  (W11_arr m c w).symm
theorem hrest1 (c : Dev nD) : ∀ b : Ref sig .tc, b ∉ Finset.univ.image (Pipeline.arrRef spec1) → W11 m c b = E10 m c b :=
  fun b hb => W11_of_ne m c b fun w e => hb (Finset.mem_image.mpr ⟨w, Finset.mem_univ _, e⟩)
/-- After the final reshape: the end. -/
abbrev W12 : Dev nD → Valuation τ sig (Elt F) := fun c => StableHlo.after hostOps2 (W11 m c)

/-! ## The proof data of both pipelines, and what rides beside the buffers -/

/-- Both pipelines' proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E10 m) c
abbrev 𝒱n : Variants := Variants.none
abbrev Ln : GSem nD τ sig → Finset Unit := fun _ => ∅
abbrev lvn : GSem nD τ sig → Unit → ℕ := fun _ _ => 0
/-- The generator register at some state, and the core owing nothing. -/
abbrev Rst (c : Dev nD) : sProp 𝕄 := iprop((∃ r, prngReg c r) ∗ ∃ W, owes (c : Thread nD τ) (0 : CellTallies nD τ sig Unit) W)
/-- A host stretch as a segment from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-! ## The regions as segments -/

set_option backward.isDefEq.respectTransparency.types false in
/-- Region 0 as a segment: entered with every unscoped buffer at `W1`, left with them at `W2`. Its windows'
    arrays are split out of the unscoped buffers at entry and put back at their final contents at exit; the generator
    register goes into the kernel's invariant and comes back; the kernel owes no one and has no semaphore of its own. -/
def reg0 : Pipeline.RegionSeg (pcfgs (F := F)) Gen.adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Ln lvn 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (Gen.adm (F := F) 0).1
        ∗ Pipeline.scopedRest spec0 c) ⊢ (Pipeline.ΦA spec0 c : sProp 𝕄) := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W10`, left with them at `W11`. Its windows'
    arrays are split out of the unscoped buffers at entry and put back at their final contents at exit; the generator
    register goes into the kernel's invariant and comes back; the kernel owes no one and has no semaphore of its own. -/
def reg1 : Pipeline.RegionSeg (pcfgs (F := F)) Gen.adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E10 m) c).loose
  hwaits := Pipeline.hwaits_of_owed_zero _ _ _ _ Ln lvn 1 fun _ _ => rfl
  pre c := iprop(StableHlo.held (c : Thread nD τ) (Pipeline.ucRefs τ sig) (W10 m c) ∗ Rst c)
  post c := iprop(StableHlo.held (c : Thread nD τ) (Pipeline.ucRefs τ sig) (W11 m c) ∗ Rst c)
  X c := iprop(∃ r, prngReg c r)
  Y c := iprop(∃ r, prngReg c r)
  Z c := Pipeline.unscopedRest (Ix := Unit) (Name := ℕ) (U := UR sig nD τ) (Lvl := ℕ) spec1 c (E10 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (Gen.adm (F := F) 1).1
        ∗ Pipeline.scopedRest spec1 c) ⊢ (Pipeline.ΦA spec1 c : sProp 𝕄) := by
      unfold Pipeline.ΦA
      iintro ⟨Hp, -, Hr⟩
      isplitl [Hr]; · iexact Hr
      iexact Hp
    exact h.trans (hin1 (E10 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (E10 m) c).trans h
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E10 m c) (fun b => W11 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twelve items in order. -/
abbrev psegs : List (Pipeline.Seg (pcfgs (F := F)) Gen.adm (pdats m) () defs₀ 𝒱n Ln lvn) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .host (hseg hostOps1_7 hostOps1_7_sub hostOps1_7_fresh (W9 m)),
    .region (reg1 m),
    .host (hseg hostOps2 hostOps2_sub hostOps2_fresh (W11 m)) ]

/-- @main is the run of its segments. -/
theorem main_run (c : Dev nD) : main (F := F) c = Pipeline.Seg.run (psegs m) := (main_chain c).trans (by chain_rfl)

/-- An unscoped TensorCore reference is among those a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory `m` with zero counters terminates without a fault, and in every final
    memory each core's unscoped buffers hold the last valuation `W12`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) Gen.adm (pdats m) () cellOf_inj emb₁ defs₀ 𝒱n Ln lvn m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m c) ∗ Rst c)
          ⊢ iprop(iprop(StableHlo.held (c : Thread nD τ) (Pipeline.ucRefs τ sig) (W12 m c) ∗ ∃ r, prngReg c r)
              ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.KernelIdeal.Hand

end
-- ==== Proof.KI.Ends.lean ====
/-
  What the last valuation holds: the ten argument arrays as launched, and the result as the reshape of region 1's output.

  No host line writes an argument (each writes only its own result buffer), region 1 stages none of them, and
  region 0 stages six of them (the quantised gate and up weights) through INPUT windows, whose arrays the pipeline
  never writes back. So an argument's buffer walks back unchanged from the last valuation to the launch memory.
  The result buffer is written by the last host line, a reshape of region 1's output array.
-/
import proofs.«104653_j17798344475235_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A reference no host line writes and region 1 does not stage holds, at the end, what it held after region 0. -/
theorem W12_eq_W2 (c : Dev nD) (r : Ref sig .tc)
    (h1 : r ∉ hostOps1_W) (h11 : r ∉ hostOps1_1_W) (h12 : r ∉ hostOps1_2_W) (h13 : r ∉ hostOps1_3_W)
    (h14 : r ∉ hostOps1_4_W) (h15 : r ∉ hostOps1_5_W) (h16 : r ∉ hostOps1_6_W) (h17 : r ∉ hostOps1_7_W)
    (h2 : r ∉ hostOps2_W) (hr1 : ∀ w, Pipeline.arrRef spec1 w ≠ r) :
    W12 m c (Proc.devRef .tc r) = W2 m c (Proc.devRef .tc r) :=
  (StableHlo.after_of_writes_sub hostOps2 _ hostOps2_writes h2).trans <|
  (W11_of_ne m c r hr1).trans <|
  (StableHlo.after_of_writes_sub hostOps1_7 _ hostOps1_7_writes h17).trans <|
  (StableHlo.after_of_writes_sub hostOps1_6 _ hostOps1_6_writes h16).trans <|
  (StableHlo.after_of_writes_sub hostOps1_5 _ hostOps1_5_writes h15).trans <|
  (StableHlo.after_of_writes_sub hostOps1_4 _ hostOps1_4_writes h14).trans <|
  (StableHlo.after_of_writes_sub hostOps1_3 _ hostOps1_3_writes h13).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1)

/-- The first two host lines write none of the arguments. -/
theorem W1_eq_W0 (c : Dev nD) (r : Ref sig .tc) (h0 : r ∉ hostOps0_W) :
    W1 m c (Proc.devRef .tc r) = m ((c : Thread nD τ).loc r) :=
  StableHlo.after_of_writes_sub hostOps0 _ hostOps0_writes h0

/-- An input window's array leaves region 0 as it entered. -/
theorem W2_input (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hin _).trans (A_eq0 (E1 m) c w))

theorem W12_main_arg0 (c : Dev nD) : W12 m c (Proc.devRef .tc main_arg0) = m ((c : Thread nD τ).loc main_arg0) :=
  (W12_eq_W2 m c main_arg0 (by decide) (by decide) (by decide) (by decide) (by decide) (by decide) (by decide) (by decide) (by decide) (by decide)).trans <|
  (W2_of_ne m c main_arg0 (by decide)).trans (W1_eq_W0 m c main_arg0 (by decide))
theorem W12_main_arg1 (c : Dev nD) : W12 m c (Proc.devRef .tc main_arg1) = m ((c : Thread nD τ).loc main_arg1) :=
  (W12_eq_W2 m c main_arg1 (by decide) (by decide) (by decide) (by decide) (by decide) (by decide) (by decide) (by decide) (by decide) (by decide)).trans <|
  (W2_input m c 1 rfl).trans (W1_eq_W0 m c main_arg1 (by decide))
theorem W12_main_arg2 (c : Dev nD) : W12 m c (Proc.devRef .tc main_arg2) = m ((c : Thread nD τ).loc main_arg2) :=
  (W12_eq_W2 m c main_arg2 (by decide) (by decide) (by decide) (by decide) (by decide) (by decide) (by decide) (by decide) (by decide) (by decide)).trans <|
  (W2_input m c 2 rfl).trans (W1_eq_W0 m c main_arg2 (by decide))
theorem W12_main_arg3 (c : Dev nD) : W12 m c (Proc.devRef .tc main_arg3) = m ((c : Thread nD τ).loc main_arg3) :=
  (W12_eq_W2 m c main_arg3 (by decide) (by decide) (by decide) (by decide) (by decide) (by decide) (by decide) (by decide) (by decide) (by decide)).trans <|
  (W2_input m c 3 rfl).trans (W1_eq_W0 m c main_arg3 (by decide))
theorem W12_main_arg4 (c : Dev nD) : W12 m c (Proc.devRef .tc main_arg4) = m ((c : Thread nD τ).loc main_arg4) :=
  (W12_eq_W2 m c main_arg4 (by decide) (by decide) (by decide) (by decide) (by decide) (by decide) (by decide) (by decide) (by decide) (by decide)).trans <|
  (W2_input m c 4 rfl).trans (W1_eq_W0 m c main_arg4 (by decide))
theorem W12_main_arg5 (c : Dev nD) : W12 m c (Proc.devRef .tc main_arg5) = m ((c : Thread nD τ).loc main_arg5) :=
  (W12_eq_W2 m c main_arg5 (by decide) (by decide) (by decide) (by decide) (by decide) (by decide) (by decide) (by decide) (by decide) (by decide)).trans <|
  (W2_input m c 5 rfl).trans (W1_eq_W0 m c main_arg5 (by decide))
theorem W12_main_arg6 (c : Dev nD) : W12 m c (Proc.devRef .tc main_arg6) = m ((c : Thread nD τ).loc main_arg6) :=
  (W12_eq_W2 m c main_arg6 (by decide) (by decide) (by decide) (by decide) (by decide) (by decide) (by decide) (by decide) (by decide) (by decide)).trans <|
  (W2_input m c 6 rfl).trans (W1_eq_W0 m c main_arg6 (by decide))
theorem W12_main_arg7 (c : Dev nD) : W12 m c (Proc.devRef .tc main_arg7) = m ((c : Thread nD τ).loc main_arg7) :=
  (W12_eq_W2 m c main_arg7 (by decide) (by decide) (by decide) (by decide) (by decide) (by decide) (by decide) (by decide) (by decide) (by decide)).trans <|
  (W2_of_ne m c main_arg7 (by decide)).trans (W1_eq_W0 m c main_arg7 (by decide))
theorem W12_main_arg8 (c : Dev nD) : W12 m c (Proc.devRef .tc main_arg8) = m ((c : Thread nD τ).loc main_arg8) :=
  (W12_eq_W2 m c main_arg8 (by decide) (by decide) (by decide) (by decide) (by decide) (by decide) (by decide) (by decide) (by decide) (by decide)).trans <|
  (W2_of_ne m c main_arg8 (by decide)).trans (W1_eq_W0 m c main_arg8 (by decide))
theorem W12_main_arg9 (c : Dev nD) : W12 m c (Proc.devRef .tc main_arg9) = m ((c : Thread nD τ).loc main_arg9) :=
  (W12_eq_W2 m c main_arg9 (by decide) (by decide) (by decide) (by decide) (by decide) (by decide) (by decide) (by decide) (by decide) (by decide)).trans <|
  (W2_of_ne m c main_arg9 (by decide)).trans (W1_eq_W0 m c main_arg9 (by decide))

/-- The frame claim's post from the run's: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c)⟩) (run m ρ)

end Cert.KernelIdeal.Hand

end
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.Spec.lean ====
/-
  The gated feed-forward block with group-quantised weights, stated once, index by index, on the
  extended reals: three weight matrices restored from their quantised words, two contractions of
  the input row with the gate and up matrices, the gate `g · 1/(1 + e^(−g))`, and the contraction
  of the gated product with the down matrix. Rows of the input are numbered flat:
  row `r = 2048 · b + s` for batch `b` and position `s`.
  Below the definitions: the two small facts about the extended reals that let either spelling of
  the gate be read as this one, and the laws that drop a zero tail of a sum and cut a sum into
  consecutive blocks, at the sizes met here.
-/
import Idealize.ShloMosaic.PureOps.Ideal
import Idealize.ShloMosaic.Lib.ValueIdx
import proofs.«104653_j17798344475235_1_alg».proof.Proof.LibBlockSum

noncomputable section

open scoped BigOperators

namespace Cert.Mlp

open Idealize.ShloMosaic

/-- A quantised weight restored: the word, minus the zero point of its group of 128 consecutive
    rows, times the scale of that group. Row `k` belongs to group `k / 128`. -/
def deq {A G B : ℕ} (hAG : A ≤ 128 * G) (q : Fin A → Fin B → EReal) (z s : Fin G → Fin B → EReal)
    (k : Fin A) (j : Fin B) : EReal :=
  (q k j - z ⟨k.val / 128, by have := k.isLt; omega⟩ j) * s ⟨k.val / 128, by have := k.isLt; omega⟩ j

/-- The gate: `g` times the logistic function of `g`, the latter written as the quotient
    `1 / (1 + e^(−g))` with the extended reals' division. -/
def gate (g : EReal) : EReal := g * Ideal.div 1 (1 + Ideal.exp (-g))

/-- The hidden activation at row `r`, column `j`: the gate of the row's contraction with the gate
    matrix, times the row's contraction with the up matrix. -/
def hidden (X : Fin 4096 → Fin 4096 → EReal) (Wg Wu : Fin 4096 → Fin 11008 → EReal)
    (r : Fin 4096) (j : Fin 11008) : EReal :=
  gate (∑ k, X r k * Wg k j) * (∑ k, X r k * Wu k j)

/-- The result at row `r`, column `d`: the hidden row contracted with the down matrix. -/
def out (X : Fin 4096 → Fin 4096 → EReal) (Wg Wu : Fin 4096 → Fin 11008 → EReal)
    (Wd : Fin 11008 → Fin 4096 → EReal) (r : Fin 4096) (d : Fin 4096) : EReal :=
  ∑ j, hidden X Wg Wu r j * Wd j d

/-! ### Arrays read as matrices -/

/-- 4096 rows fall into 32 groups of 128. -/
theorem rows_4096 : 4096 ≤ 128 * 32 := by norm_num
/-- 11008 rows fall into 86 groups of 128. -/
theorem rows_11008 : 11008 ≤ 128 * 86 := by norm_num

/-- A rank-2 array of 32-bit words as a matrix of numbers: each word read as a signed integer. -/
def Q {A B : ℕ} (x : (⟨2, ![A, B]⟩ : Shape).Idx → BitVec 32) (k : Fin A) (j : Fin B) : EReal :=
  FloatOps.sitofp (F := Ideal) .f32 (x (ValueIdx.ix2 k j))

/-- A rank-2 array of numbers as a matrix. -/
def Mat {A B : ℕ} (x : (⟨2, ![A, B]⟩ : Shape).Idx → EReal) (k : Fin A) (j : Fin B) : EReal :=
  x (ValueIdx.ix2 k j)

/-- The input array, 2 batches of 2048 positions of 4096 features, with its rows numbered flat:
    row `r` is position `r % 2048` of batch `r / 2048`. -/
def X (x0 : (⟨3, ![2, 2048, 4096]⟩ : Shape).Idx → EReal) (r k : Fin 4096) : EReal :=
  x0 (ValueIdx.ix3 (⟨r.val / 2048, by have := r.isLt; omega⟩ : Fin 2)
    (⟨r.val % 2048, by omega⟩ : Fin 2048) k)

/-- Row `2048 · b + s` of the flat numbering is position `s` of batch `b`. -/
theorem X_flat (x0 : (⟨3, ![2, 2048, 4096]⟩ : Shape).Idx → EReal) (b : Fin 2) (s : Fin 2048)
    (k : Fin 4096) :
    X x0 ⟨2048 * b.val + s.val, by have := b.isLt; have := s.isLt; omega⟩ k
      = x0 (ValueIdx.ix3 b s k) := by
  have hs := s.isLt
  unfold X
  refine congrArg x0 (funext fun a => ?_)
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

/-! ### Two facts about the extended reals -/

/-- Subtracting from zero is negation (also at the infinities). -/
theorem zero_sub_eq_neg (g : EReal) : (0 : EReal) - g = -g := zero_sub g

/-- The single-precision word `0x3F800000` denotes one. -/
theorem ofBits_one_f32 : Ideal.ofBits .f32 0x3F800000#32 = 1 := by
  simp [Ideal.ofBits, Ideal.ieee, -EReal.coe_mul]; norm_num

/-- The gate with the subtraction from zero in place of the negation. -/
theorem gate_zero_sub (g : EReal) : g * Ideal.div 1 (1 + Ideal.exp (0 - g)) = gate g := by
  rw [zero_sub_eq_neg]; rfl

/-! ### Sums: a zero tail, and consecutive blocks -/

section Sums

variable {M : Type*} [AddCommMonoid M]

/-- A sum whose terms vanish from position `n` on is the sum of its first `n` terms. -/
theorem sum_pad (n p N : ℕ) (hN : N = n + p) (f : Fin N → M)
    (hz : ∀ k : Fin N, n ≤ k.val → f k = 0) :
    ∑ k, f k = ∑ k : Fin n, f ⟨k.val, by have := k.isLt; omega⟩ := by
  subst hN
  have tail : ∑ i : Fin p, f (Fin.natAdd n i) = 0 :=
    Finset.sum_eq_zero fun i _ => hz _ (by simp)
  rw [Fin.sum_univ_add, tail, add_zero]
  rfl

/-- A sum over `N = n · m` positions as `n` consecutive blocks of `m`. -/
theorem sum_blocks (n m N : ℕ) (hN : N = n * m) (f : Fin N → M) :
    ∑ k, f k = ∑ d : Fin n, ∑ k' : Fin m,
      f ⟨d.val * m + k'.val, hN ▸ Cert.LibBlockSum.blockIdx_lt d.isLt k'.isLt⟩ := by
  subst hN
  exact Cert.LibBlockSum.sum_blocks_fin n m f

/-- 4096 positions as 4 blocks of 1024. -/
theorem sum_blocks_4096 (f : Fin 4096 → M) :
    ∑ k, f k = ∑ d : Fin 4, ∑ k' : Fin 1024, f ⟨d.val * 1024 + k'.val, by omega⟩ :=
  Cert.LibBlockSum.sum_blocks_fin 4 1024 f

/-- 11264 positions as 11 blocks of 1024. -/
theorem sum_blocks_11264 (f : Fin 11264 → M) :
    ∑ k, f k = ∑ d : Fin 11, ∑ k' : Fin 1024, f ⟨d.val * 1024 + k'.val, by omega⟩ :=
  Cert.LibBlockSum.sum_blocks_fin 11 1024 f

/-- 11264 positions whose last 256 terms vanish: the sum of the first 11008. -/
theorem sum_pad_11264 (f : Fin 11264 → M) (hz : ∀ k : Fin 11264, 11008 ≤ k.val → f k = 0) :
    ∑ k, f k = ∑ k : Fin 11008, f ⟨k.val, by omega⟩ :=
  sum_pad 11008 256 11264 rfl f hz

end Sums

end Cert.Mlp

end
-- ==== Proof.KI.Host.lean ====
/-
  The host lines around the two regions, read at an index, on the extended reals.

  Before region 0 the input `[2, 2048, 4096]` is reshaped to 4096 flat rows and rounded to half precision; on the
  extended reals the rounding is the identity, so region 0's first operand at `(r, k)` is feature `k` of flat row `r`.
  Between the regions four arrays are padded with zeros up to a multiple of the tile: the hidden activations by 256
  columns, the quantised down weights by 256 rows, their zero points and scales by 2 group rows. Each padded array,
  read at an index, is the unpadded one where the padded coordinate is in range and zero elsewhere; the padding value
  is the integer constant 0, converted where the array holds numbers. The arrays being padded are region 0's output
  and three arguments, which no line in between writes. After region 1 its output `[4096, 4096]` is reshaped back to
  `[2, 2048, 4096]`: entry `(b, s, d)` is entry `(2048 · b + s, d)`.
-/
import proofs.«104653_j17798344475235_1_alg».proof.Proof.KI.Run
import proofs.«104653_j17798344475235_1_alg».proof.Proof.Spec
import Idealize.ShloMosaic.Lib.KernelVsHost
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem

variable (m : (ℓ : Loc nD τ sig) → Buf (Elt Ideal) ℓ)

/-! ### The input as region 0 finds it -/

/-- The first two host lines leave, in region 0's first operand, the input reshaped to 4096 rows (and rounded to
    half precision, which changes nothing on the extended reals). -/
theorem W1_x_term (c : Dev nD) :
    @Eq (S4096x4096.Idx → EReal) (W1 m c (Proc.devRef .tc main_v1))
      (truncf (F := Ideal) .bf16 (shapeCast S4096x4096 (m ((c : Thread nD τ).loc main_arg0))
          shapeCasts_S2x2048x4096_S4096x4096) bitsLt_bf16_f32) := by
  show StableHlo.after hostOps0 _ (Proc.devRef .tc main_v1) = _
  after_results
  rfl

/-- Entry `(r, k)` of region 0's first operand is feature `k` of the input's flat row `r`. -/
theorem W1_x (c : Dev nD) (r k : Fin 4096) :
    (W1 m c (Proc.devRef .tc main_v1) : S4096x4096.Idx → EReal) (ix2 r k)
      = Cert.Mlp.X (m ((c : Thread nD τ).loc main_arg0)) r k := by
  have hr := r.isLt
  rw [W1_x_term m c]
  show shapeCast S4096x4096 (m ((c : Thread nD τ).loc main_arg0)) shapeCasts_S2x2048x4096_S4096x4096 (ix2 r k) = _
  unfold Cert.Mlp.X
  refine shapeCast_apply (s := S2x2048x4096) (t := S4096x4096) _ _ _ _ ?_
  rw [Shape.rowMajor_val_three, Shape.rowMajor_val_two]
  show (r.val / 2048 * 2048 + r.val % 2048) * 4096 + k.val = r.val * 4096 + k.val
  omega

/-! ### A zero padding at the high end of one axis, read at an index -/

section Pads
variable {α : Type}

/-- Rows appended below a matrix: inside the old rows the old entry, in the new rows the padding value. -/
theorem pad_rows_apply {A A' B p : ℕ} (x : (⟨2, ![A, B]⟩ : Shape).Idx → α) {u : Shape} (v : u.Idx → α)
    (h : (⟨2, ![A, B]⟩ : Shape).Pads ![0, 0] ![p, 0] ![0, 0] ⟨2, ![A', B]⟩) (hu : 0 < u.numel)
    (g : Fin A') (D : Fin B) :
    pad ⟨2, ![A', B]⟩ ![0, 0] ![p, 0] ![0, 0] x v h hu (ix2 g D)
      = if hg : g.val < A then x (ix2 ⟨g.val, hg⟩ D) else v (Shape.Idx.first hu) := by
  by_cases hg : g.val < A
  · rw [dif_pos hg]
    exact pad_apply_of_inside _ _ _ x v h hu _ (ix2 ⟨g.val, hg⟩ D) fun a => by
      match a with
      | ⟨0, _⟩ => show g.val = 0 + g.val * (0 + 1); omega
      | ⟨1, _⟩ => show D.val = 0 + D.val * (0 + 1); omega
  · rw [dif_neg hg]
    exact pad_apply_of_not_inside _ _ _ x v h hu _ (0 : Fin 2) fun hin => by
      have h3 : (g.val - 0) / (0 + 1) < A := hin.2.2
      omega

/-- Columns appended to the right of a matrix: inside the old columns the old entry, in the new ones the padding value. -/
theorem pad_cols_apply {A B B' p : ℕ} (x : (⟨2, ![A, B]⟩ : Shape).Idx → α) {u : Shape} (v : u.Idx → α)
    (h : (⟨2, ![A, B]⟩ : Shape).Pads ![0, 0] ![0, p] ![0, 0] ⟨2, ![A, B']⟩) (hu : 0 < u.numel)
    (R : Fin A) (J : Fin B') :
    pad ⟨2, ![A, B']⟩ ![0, 0] ![0, p] ![0, 0] x v h hu (ix2 R J)
      = if hJ : J.val < B then x (ix2 R ⟨J.val, hJ⟩) else v (Shape.Idx.first hu) := by
  by_cases hJ : J.val < B
  · rw [dif_pos hJ]
    exact pad_apply_of_inside _ _ _ x v h hu _ (ix2 R ⟨J.val, hJ⟩) fun a => by
      match a with
      | ⟨0, _⟩ => show R.val = 0 + R.val * (0 + 1); omega
      | ⟨1, _⟩ => show J.val = 0 + J.val * (0 + 1); omega
  · rw [dif_neg hJ]
    exact pad_apply_of_not_inside _ _ _ x v h hu _ (1 : Fin 2) fun hin => by
      have h3 : (J.val - 0) / (0 + 1) < B := hin.2.2
      omega

end Pads

/-- The integer constant 0 converted to a number is zero, at either float format. -/
theorem sitofp_zero_word (φ : FTy) (i : S_.Idx) :
    (sitofp (F := Ideal) φ (constantI S_ 32 0#32)) i = (0 : EReal) := by
  show (((0#32 : BitVec 32).toInt : ℝ) : EReal) = 0
  simp

/-! ### References no line in a stretch writes -/

/-- An argument that region 0 does not stage holds after region 0 what was launched. -/
theorem W2_arg (c : Dev nD) (r : Ref sig .tc) (hne : ∀ w, Pipeline.arrRef spec0 w ≠ r) (h0 : r ∉ hostOps0_W) :
    W2 m c (Proc.devRef .tc r) = m ((c : Thread nD τ).loc r) :=
  (W2_of_ne m c r hne).trans (StableHlo.after_of_writes_sub hostOps0 _ hostOps0_writes h0)
theorem W4_eq_W2 (c : Dev nD) (r : Ref sig .tc) (h1 : r ∉ hostOps1_W) (h11 : r ∉ hostOps1_1_W) :
    W4 m c (Proc.devRef .tc r) = W2 m c (Proc.devRef .tc r) :=
  (StableHlo.after_of_writes_sub hostOps1_1 _ hostOps1_1_writes h11).trans
    (StableHlo.after_of_writes_sub hostOps1 _ hostOps1_writes h1)
theorem W6_eq_W4 (c : Dev nD) (r : Ref sig .tc) (h12 : r ∉ hostOps1_2_W) (h13 : r ∉ hostOps1_3_W) :
    W6 m c (Proc.devRef .tc r) = W4 m c (Proc.devRef .tc r) :=
  (StableHlo.after_of_writes_sub hostOps1_3 _ hostOps1_3_writes h13).trans
    (StableHlo.after_of_writes_sub hostOps1_2 _ hostOps1_2_writes h12)
theorem W8_eq_W6 (c : Dev nD) (r : Ref sig .tc) (h14 : r ∉ hostOps1_4_W) (h15 : r ∉ hostOps1_5_W) :
    W8 m c (Proc.devRef .tc r) = W6 m c (Proc.devRef .tc r) :=
  (StableHlo.after_of_writes_sub hostOps1_5 _ hostOps1_5_writes h15).trans
    (StableHlo.after_of_writes_sub hostOps1_4 _ hostOps1_4_writes h14)
theorem W10_eq_W8 (c : Dev nD) (r : Ref sig .tc) (h16 : r ∉ hostOps1_6_W) (h17 : r ∉ hostOps1_7_W) :
    W10 m c (Proc.devRef .tc r) = W8 m c (Proc.devRef .tc r) :=
  (StableHlo.after_of_writes_sub hostOps1_7 _ hostOps1_7_writes h17).trans
    (StableHlo.after_of_writes_sub hostOps1_6 _ hostOps1_6_writes h16)

/-! ### The four padded operands of region 1 -/

/-- The hidden activations padded: the pad applied to region 0's output. -/
theorem W4_v3_term (c : Dev nD) :
    @Eq (S4096x11264.Idx → EReal) (W4 m c (Proc.devRef .tc main_v3))
      (pad S4096x11264 ![0, 0] ![0, 256] ![0, 0] (W2 m c (Proc.devRef .tc main_v2) : S4096x11008.Idx → EReal)
        (sitofp (F := Ideal) .bf16 (constantI S_ 32 0#32)) pads_S4096x11008_S4096x11264_000_02560 h_S_) := by
  show StableHlo.after hostOps1_1 (StableHlo.after hostOps1 _) (Proc.devRef .tc main_v3) = _
  after_results
  rfl

/-- Region 1's first operand at `(R, J)`: region 0's output there for `J < 11008`, zero beyond. -/
theorem W10_v3 (c : Dev nD) (R : Fin 4096) (J : Fin 11264) :
    (W10 m c (Proc.devRef .tc main_v3) : S4096x11264.Idx → EReal) (ix2 R J)
      = (if h : J.val < 11008 then (W2 m c (Proc.devRef .tc main_v2) : S4096x11008.Idx → EReal) (ix2 R ⟨J.val, h⟩)
        else 0 : EReal) := by
  rw [W10_eq_W8 m c main_v3 (by decide) (by decide), W8_eq_W6 m c main_v3 (by decide) (by decide),
    W6_eq_W4 m c main_v3 (by decide) (by decide), W4_v3_term m c]
  refine (pad_cols_apply _ _ pads_S4096x11008_S4096x11264_000_02560 h_S_ R J).trans ?_
  rw [sitofp_zero_word]

/-- The quantised down weights padded: the pad applied to the argument. -/
theorem W6_v4_term (c : Dev nD) :
    @Eq (S11264x4096.Idx → BitVec 32) (W6 m c (Proc.devRef .tc main_v4))
      (pad S11264x4096 ![0, 0] ![256, 0] ![0, 0] (W4 m c (Proc.devRef .tc main_arg7) : S11008x4096.Idx → BitVec 32)
        (id (constantI S_ 32 0#32)) pads_S11008x4096_S11264x4096_02560_000 h_S_) := by
  show StableHlo.after hostOps1_3 (StableHlo.after hostOps1_2 _) (Proc.devRef .tc main_v4) = _
  after_results
  rfl

/-- Region 1's second operand at `(J, D)`: the down weights' word for `J < 11008`, the zero word beyond. -/
theorem W10_v4 (c : Dev nD) (J : Fin 11264) (D : Fin 4096) :
    (W10 m c (Proc.devRef .tc main_v4) : S11264x4096.Idx → BitVec 32) (ix2 J D)
      = if h : J.val < 11008 then
          (m ((c : Thread nD τ).loc main_arg7) : S11008x4096.Idx → BitVec 32) (ix2 ⟨J.val, h⟩ D)
        else 0#32 := by
  rw [W10_eq_W8 m c main_v4 (by decide) (by decide), W8_eq_W6 m c main_v4 (by decide) (by decide),
    W6_v4_term m c, W4_eq_W2 m c main_arg7 (by decide) (by decide), W2_arg m c main_arg7 (by decide) (by decide)]
  exact pad_rows_apply _ _ pads_S11008x4096_S11264x4096_02560_000 h_S_ J D

/-- The down weights' zero points padded: the pad applied to the argument. -/
theorem W8_v5_term (c : Dev nD) :
    @Eq (S88x4096.Idx → BitVec 32) (W8 m c (Proc.devRef .tc main_v5))
      (pad S88x4096 ![0, 0] ![2, 0] ![0, 0] (W6 m c (Proc.devRef .tc main_arg8) : S86x4096.Idx → BitVec 32)
        (id (constantI S_ 32 0#32)) pads_S86x4096_S88x4096_020_000 h_S_) := by
  show StableHlo.after hostOps1_5 (StableHlo.after hostOps1_4 _) (Proc.devRef .tc main_v5) = _
  after_results
  rfl

/-- Region 1's third operand at `(g, D)`: the zero point's word for `g < 86`, the zero word beyond. -/
theorem W10_v5 (c : Dev nD) (g : Fin 88) (D : Fin 4096) :
    (W10 m c (Proc.devRef .tc main_v5) : S88x4096.Idx → BitVec 32) (ix2 g D)
      = if h : g.val < 86 then
          (m ((c : Thread nD τ).loc main_arg8) : S86x4096.Idx → BitVec 32) (ix2 ⟨g.val, h⟩ D)
        else 0#32 := by
  rw [W10_eq_W8 m c main_v5 (by decide) (by decide), W8_v5_term m c,
    W6_eq_W4 m c main_arg8 (by decide) (by decide), W4_eq_W2 m c main_arg8 (by decide) (by decide),
    W2_arg m c main_arg8 (by decide) (by decide)]
  exact pad_rows_apply _ _ pads_S86x4096_S88x4096_020_000 h_S_ g D

/-- The down weights' scales padded: the pad applied to the argument. -/
theorem W10_v6_term (c : Dev nD) :
    @Eq (S88x4096.Idx → EReal) (W10 m c (Proc.devRef .tc main_v6))
      (pad S88x4096 ![0, 0] ![2, 0] ![0, 0] (W8 m c (Proc.devRef .tc main_arg9) : S86x4096.Idx → EReal)
        (sitofp (F := Ideal) .f32 (constantI S_ 32 0#32)) pads_S86x4096_S88x4096_020_000 h_S_) := by
  show StableHlo.after hostOps1_7 (StableHlo.after hostOps1_6 _) (Proc.devRef .tc main_v6) = _
  after_results
  rfl

/-- Region 1's fourth operand at `(g, D)`: the scale for `g < 86`, zero beyond. -/
theorem W10_v6 (c : Dev nD) (g : Fin 88) (D : Fin 4096) :
    (W10 m c (Proc.devRef .tc main_v6) : S88x4096.Idx → EReal) (ix2 g D)
      = (if h : g.val < 86 then
          (m ((c : Thread nD τ).loc main_arg9) : S86x4096.Idx → EReal) (ix2 ⟨g.val, h⟩ D)
        else 0 : EReal) := by
  rw [W10_v6_term m c, W8_eq_W6 m c main_arg9 (by decide) (by decide),
    W6_eq_W4 m c main_arg9 (by decide) (by decide), W4_eq_W2 m c main_arg9 (by decide) (by decide),
    W2_arg m c main_arg9 (by decide) (by decide)]
  refine (pad_rows_apply _ _ pads_S86x4096_S88x4096_020_000 h_S_ g D).trans ?_
  rw [sitofp_zero_word]

/-! ### The result -/

/-- The last line reshapes region 1's output. -/
theorem W12_v8_term (c : Dev nD) :
    @Eq (S2x2048x4096.Idx → EReal) (W12 m c (Proc.devRef .tc main_v8))
      (shapeCast S2x2048x4096 (W11 m c (Proc.devRef .tc main_v7) : S4096x4096.Idx → EReal)
        shapeCasts_S4096x4096_S2x2048x4096) := by
  show StableHlo.after hostOps2 _ (Proc.devRef .tc main_v8) = _
  after_results
  rfl

/-- The result at `(b, s, d)` is region 1's output at row `2048 · b + s`, column `d`. -/
theorem W12_v8 (c : Dev nD) (b : Fin 2) (s : Fin 2048) (d : Fin 4096) :
    (W12 m c (Proc.devRef .tc main_v8) : S2x2048x4096.Idx → EReal) (ix3 b s d)
      = (W11 m c (Proc.devRef .tc main_v7) : S4096x4096.Idx → EReal)
          (ix2 (⟨2048 * b.val + s.val, by have := b.isLt; have := s.isLt; omega⟩ : Fin 4096) d) := by
  rw [W12_v8_term m c]
  refine shapeCast_apply (s := S4096x4096) (t := S2x2048x4096) _ _ _ _ ?_
  rw [Shape.rowMajor_val_three, Shape.rowMajor_val_two]
  show (2048 * b.val + s.val) * 4096 + d.val = (b.val * 2048 + s.val) * 4096 + d.val
  omega

end Cert.KernelIdeal.Hand

end
-- ==== Proof.KI.PayRows.lean ====
import Idealize.ShloMosaic.Lib.ValueIdx
import Idealize.ShloMosaic.Lib.Pipeline.Value
import Idealize.ShloMosaic.Lib.ValueLayout
import Idealize.ShloMosaic.PureOps.Ideal.Laws

/-! # A table of group rows expanded to a block's rows, and a dequantised weight at an entry

A quantised weight block [1024, n] is dequantised against tables of 8 group rows [8, n]: each group
row is cut out, repeated down 128 rows, and the eight [128, n] pieces are laid end to end, so that
row k of the expanded table is group row k / 128. This file reads that layout at one entry, and with
it one entry of a dequantised weight: (the integer weight - the expanded zero point) * the expanded
scale, whose change of format is the identity on the extended reals. -/

namespace Cert.KernelIdeal.Pay

open Idealize.ShloMosaic Idealize.ShloMosaic.ValueIdx

variable {α : Type} {n : ℕ}

/-- Group row g of an [8, n] table, cut out and repeated down 128 rows, reads at every row p
    and column j the table's entry (g, j). -/
theorem groupRow_apply (g : ℕ) (x : (⟨2, ![8, n]⟩ : Shape).Idx → α)
    (hs : (⟨2, ![8, n]⟩ : Shape).Slices ![g, 0] ⟨2, ![1, n]⟩)
    (hc : (⟨2, ![1, n]⟩ : Shape).ShapeCasts ⟨2, ![1, n]⟩)
    (hb : (⟨2, ![1, n]⟩ : Shape).Broadcasts ⟨2, ![128, n]⟩)
    (g' : Fin 8) (hg : g'.val = g) (p : Fin 128) (j : Fin n) :
    broadcastTo ⟨2, ![128, n]⟩ (shapeCast ⟨2, ![1, n]⟩ (extractStridedSlice ⟨2, ![1, n]⟩ ![g, 0] x hs) hc) hb (ix2 p j)
      = x (ix2 g' j) := by
  rw [broadcastTo_1b_ab_apply, shapeCast_self]
  exact slice2_axis0_apply g x hs (0 : Fin 1) j g' (by rw [hg]; rfl)

/-- Eight [128, n] pieces laid end to end along the rows: row k of the result is row k % 128 of
    piece k / 128. -/
theorem concat8_apply (p0 p1 p2 p3 p4 p5 p6 p7 : (⟨2, ![128, n]⟩ : Shape).Idx → α)
    (h : Shape.Concatenates (([⟨⟨2, ![128, n]⟩, p0⟩, ⟨⟨2, ![128, n]⟩, p1⟩, ⟨⟨2, ![128, n]⟩, p2⟩, ⟨⟨2, ![128, n]⟩, p3⟩,
        ⟨⟨2, ![128, n]⟩, p4⟩, ⟨⟨2, ![128, n]⟩, p5⟩, ⟨⟨2, ![128, n]⟩, p6⟩, ⟨⟨2, ![128, n]⟩, p7⟩] :
          List ((s : Shape) × (s.Idx → α))).map (·.1)) ⟨2, ![1024, n]⟩ 0)
    (k : Fin 1024) (j : Fin n) :
    concatenate ⟨2, ![1024, n]⟩ 0 [⟨⟨2, ![128, n]⟩, p0⟩, ⟨⟨2, ![128, n]⟩, p1⟩, ⟨⟨2, ![128, n]⟩, p2⟩, ⟨⟨2, ![128, n]⟩, p3⟩,
        ⟨⟨2, ![128, n]⟩, p4⟩, ⟨⟨2, ![128, n]⟩, p5⟩, ⟨⟨2, ![128, n]⟩, p6⟩, ⟨⟨2, ![128, n]⟩, p7⟩] h (ix2 k j)
      = (![p0, p1, p2, p3, p4, p5, p6, p7] : Fin 8 → (⟨2, ![128, n]⟩ : Shape).Idx → α)
          ⟨k.val / 128, by have := k.isLt; omega⟩ (ix2 ⟨k.val % 128, Nat.mod_lt _ (by decide)⟩ j) :=
  concatenate_ofFn_apply (t := ⟨2, ![1024, n]⟩) (s₁ := ⟨2, ![128, n]⟩) (0 : Fin 2)
    (![p0, p1, p2, p3, p4, p5, p6, p7] : Fin 8 → (⟨2, ![128, n]⟩ : Shape).Idx → α) h rfl 128 rfl (ix2 k j)
    ⟨k.val / 128, by have := k.isLt; omega⟩ rfl (ix2 ⟨k.val % 128, Nat.mod_lt _ (by decide)⟩ j) rfl
    (fun b hb => by
      match b with
      | ⟨0, _⟩ => exact absurd rfl hb
      | ⟨1, _⟩ => rfl)

/-- An [8, n] table expanded to [1024, n]: its eight group rows, each cut out and repeated down 128
    rows, laid end to end. -/
abbrev expandRows (x : (⟨2, ![8, n]⟩ : Shape).Idx → α)
    (hs0 : (⟨2, ![8, n]⟩ : Shape).Slices ![0, 0] ⟨2, ![1, n]⟩) (hs1 : (⟨2, ![8, n]⟩ : Shape).Slices ![1, 0] ⟨2, ![1, n]⟩)
    (hs2 : (⟨2, ![8, n]⟩ : Shape).Slices ![2, 0] ⟨2, ![1, n]⟩) (hs3 : (⟨2, ![8, n]⟩ : Shape).Slices ![3, 0] ⟨2, ![1, n]⟩)
    (hs4 : (⟨2, ![8, n]⟩ : Shape).Slices ![4, 0] ⟨2, ![1, n]⟩) (hs5 : (⟨2, ![8, n]⟩ : Shape).Slices ![5, 0] ⟨2, ![1, n]⟩)
    (hs6 : (⟨2, ![8, n]⟩ : Shape).Slices ![6, 0] ⟨2, ![1, n]⟩) (hs7 : (⟨2, ![8, n]⟩ : Shape).Slices ![7, 0] ⟨2, ![1, n]⟩)
    (hc : (⟨2, ![1, n]⟩ : Shape).ShapeCasts ⟨2, ![1, n]⟩) (hb : (⟨2, ![1, n]⟩ : Shape).Broadcasts ⟨2, ![128, n]⟩)
    (hcat : Shape.Concatenates [⟨2, ![128, n]⟩, ⟨2, ![128, n]⟩, ⟨2, ![128, n]⟩, ⟨2, ![128, n]⟩, ⟨2, ![128, n]⟩,
      ⟨2, ![128, n]⟩, ⟨2, ![128, n]⟩, ⟨2, ![128, n]⟩] ⟨2, ![1024, n]⟩ 0) :
    (⟨2, ![1024, n]⟩ : Shape).Idx → α :=
  concatenate ⟨2, ![1024, n]⟩ 0
    [⟨⟨2, ![128, n]⟩, broadcastTo ⟨2, ![128, n]⟩ (shapeCast ⟨2, ![1, n]⟩ (extractStridedSlice ⟨2, ![1, n]⟩ ![0, 0] x hs0) hc) hb⟩,
     ⟨⟨2, ![128, n]⟩, broadcastTo ⟨2, ![128, n]⟩ (shapeCast ⟨2, ![1, n]⟩ (extractStridedSlice ⟨2, ![1, n]⟩ ![1, 0] x hs1) hc) hb⟩,
     ⟨⟨2, ![128, n]⟩, broadcastTo ⟨2, ![128, n]⟩ (shapeCast ⟨2, ![1, n]⟩ (extractStridedSlice ⟨2, ![1, n]⟩ ![2, 0] x hs2) hc) hb⟩,
     ⟨⟨2, ![128, n]⟩, broadcastTo ⟨2, ![128, n]⟩ (shapeCast ⟨2, ![1, n]⟩ (extractStridedSlice ⟨2, ![1, n]⟩ ![3, 0] x hs3) hc) hb⟩,
     ⟨⟨2, ![128, n]⟩, broadcastTo ⟨2, ![128, n]⟩ (shapeCast ⟨2, ![1, n]⟩ (extractStridedSlice ⟨2, ![1, n]⟩ ![4, 0] x hs4) hc) hb⟩,
     ⟨⟨2, ![128, n]⟩, broadcastTo ⟨2, ![128, n]⟩ (shapeCast ⟨2, ![1, n]⟩ (extractStridedSlice ⟨2, ![1, n]⟩ ![5, 0] x hs5) hc) hb⟩,
     ⟨⟨2, ![128, n]⟩, broadcastTo ⟨2, ![128, n]⟩ (shapeCast ⟨2, ![1, n]⟩ (extractStridedSlice ⟨2, ![1, n]⟩ ![6, 0] x hs6) hc) hb⟩,
     ⟨⟨2, ![128, n]⟩, broadcastTo ⟨2, ![128, n]⟩ (shapeCast ⟨2, ![1, n]⟩ (extractStridedSlice ⟨2, ![1, n]⟩ ![7, 0] x hs7) hc) hb⟩]
    hcat

/-- **The group table expanded to the block's rows**: row k of the [1024, n] result is group row
    k / 128 of the table. -/
theorem expand_apply (x : (⟨2, ![8, n]⟩ : Shape).Idx → α)
    (hs0 : (⟨2, ![8, n]⟩ : Shape).Slices ![0, 0] ⟨2, ![1, n]⟩) (hs1 : (⟨2, ![8, n]⟩ : Shape).Slices ![1, 0] ⟨2, ![1, n]⟩)
    (hs2 : (⟨2, ![8, n]⟩ : Shape).Slices ![2, 0] ⟨2, ![1, n]⟩) (hs3 : (⟨2, ![8, n]⟩ : Shape).Slices ![3, 0] ⟨2, ![1, n]⟩)
    (hs4 : (⟨2, ![8, n]⟩ : Shape).Slices ![4, 0] ⟨2, ![1, n]⟩) (hs5 : (⟨2, ![8, n]⟩ : Shape).Slices ![5, 0] ⟨2, ![1, n]⟩)
    (hs6 : (⟨2, ![8, n]⟩ : Shape).Slices ![6, 0] ⟨2, ![1, n]⟩) (hs7 : (⟨2, ![8, n]⟩ : Shape).Slices ![7, 0] ⟨2, ![1, n]⟩)
    (hc : (⟨2, ![1, n]⟩ : Shape).ShapeCasts ⟨2, ![1, n]⟩) (hb : (⟨2, ![1, n]⟩ : Shape).Broadcasts ⟨2, ![128, n]⟩)
    (hcat : Shape.Concatenates [⟨2, ![128, n]⟩, ⟨2, ![128, n]⟩, ⟨2, ![128, n]⟩, ⟨2, ![128, n]⟩, ⟨2, ![128, n]⟩,
      ⟨2, ![128, n]⟩, ⟨2, ![128, n]⟩, ⟨2, ![128, n]⟩] ⟨2, ![1024, n]⟩ 0)
    (k : Fin 1024) (j : Fin n) :
    expandRows x hs0 hs1 hs2 hs3 hs4 hs5 hs6 hs7 hc hb hcat (ix2 k j) = x (ix2 ⟨k.val / 128, by have := k.isLt; omega⟩ j) := by
  refine (concat8_apply _ _ _ _ _ _ _ _ hcat k j).trans ?_
  have H : ∀ (g : Fin 8) (p : Fin 128),
      (![broadcastTo ⟨2, ![128, n]⟩ (shapeCast ⟨2, ![1, n]⟩ (extractStridedSlice ⟨2, ![1, n]⟩ ![0, 0] x hs0) hc) hb,
         broadcastTo ⟨2, ![128, n]⟩ (shapeCast ⟨2, ![1, n]⟩ (extractStridedSlice ⟨2, ![1, n]⟩ ![1, 0] x hs1) hc) hb,
         broadcastTo ⟨2, ![128, n]⟩ (shapeCast ⟨2, ![1, n]⟩ (extractStridedSlice ⟨2, ![1, n]⟩ ![2, 0] x hs2) hc) hb,
         broadcastTo ⟨2, ![128, n]⟩ (shapeCast ⟨2, ![1, n]⟩ (extractStridedSlice ⟨2, ![1, n]⟩ ![3, 0] x hs3) hc) hb,
         broadcastTo ⟨2, ![128, n]⟩ (shapeCast ⟨2, ![1, n]⟩ (extractStridedSlice ⟨2, ![1, n]⟩ ![4, 0] x hs4) hc) hb,
         broadcastTo ⟨2, ![128, n]⟩ (shapeCast ⟨2, ![1, n]⟩ (extractStridedSlice ⟨2, ![1, n]⟩ ![5, 0] x hs5) hc) hb,
         broadcastTo ⟨2, ![128, n]⟩ (shapeCast ⟨2, ![1, n]⟩ (extractStridedSlice ⟨2, ![1, n]⟩ ![6, 0] x hs6) hc) hb,
         broadcastTo ⟨2, ![128, n]⟩ (shapeCast ⟨2, ![1, n]⟩ (extractStridedSlice ⟨2, ![1, n]⟩ ![7, 0] x hs7) hc) hb] :
          Fin 8 → (⟨2, ![128, n]⟩ : Shape).Idx → α) g (ix2 p j) = x (ix2 g j) := by
    intro g p
    match g with
    | ⟨0, _⟩ => exact groupRow_apply 0 x hs0 hc hb ⟨0, by decide⟩ rfl p j
    | ⟨1, _⟩ => exact groupRow_apply 1 x hs1 hc hb ⟨1, by decide⟩ rfl p j
    | ⟨2, _⟩ => exact groupRow_apply 2 x hs2 hc hb ⟨2, by decide⟩ rfl p j
    | ⟨3, _⟩ => exact groupRow_apply 3 x hs3 hc hb ⟨3, by decide⟩ rfl p j
    | ⟨4, _⟩ => exact groupRow_apply 4 x hs4 hc hb ⟨4, by decide⟩ rfl p j
    | ⟨5, _⟩ => exact groupRow_apply 5 x hs5 hc hb ⟨5, by decide⟩ rfl p j
    | ⟨6, _⟩ => exact groupRow_apply 6 x hs6 hc hb ⟨6, by decide⟩ rfl p j
    | ⟨7, _⟩ => exact groupRow_apply 7 x hs7 hc hb ⟨7, by decide⟩ rfl p j
  exact H _ _

/-- **A dequantised weight at an entry**: the integer weight as a real, less the zero point's entry, times
    the scale of the row's group (the change of format to bf16 is the identity on the extended reals). -/
theorem dequant_apply (q : IVec (⟨2, ![1024, n]⟩ : Shape) 32) (z : FVec Ideal (⟨2, ![1024, n]⟩ : Shape) .f32) (x : FVec Ideal (⟨2, ![8, n]⟩ : Shape) .f32)
    (hs0 : (⟨2, ![8, n]⟩ : Shape).Slices ![0, 0] ⟨2, ![1, n]⟩) (hs1 : (⟨2, ![8, n]⟩ : Shape).Slices ![1, 0] ⟨2, ![1, n]⟩)
    (hs2 : (⟨2, ![8, n]⟩ : Shape).Slices ![2, 0] ⟨2, ![1, n]⟩) (hs3 : (⟨2, ![8, n]⟩ : Shape).Slices ![3, 0] ⟨2, ![1, n]⟩)
    (hs4 : (⟨2, ![8, n]⟩ : Shape).Slices ![4, 0] ⟨2, ![1, n]⟩) (hs5 : (⟨2, ![8, n]⟩ : Shape).Slices ![5, 0] ⟨2, ![1, n]⟩)
    (hs6 : (⟨2, ![8, n]⟩ : Shape).Slices ![6, 0] ⟨2, ![1, n]⟩) (hs7 : (⟨2, ![8, n]⟩ : Shape).Slices ![7, 0] ⟨2, ![1, n]⟩)
    (hc : (⟨2, ![1, n]⟩ : Shape).ShapeCasts ⟨2, ![1, n]⟩) (hb : (⟨2, ![1, n]⟩ : Shape).Broadcasts ⟨2, ![128, n]⟩)
    (hcat : Shape.Concatenates [⟨2, ![128, n]⟩, ⟨2, ![128, n]⟩, ⟨2, ![128, n]⟩, ⟨2, ![128, n]⟩, ⟨2, ![128, n]⟩,
      ⟨2, ![128, n]⟩, ⟨2, ![128, n]⟩, ⟨2, ![128, n]⟩] ⟨2, ![1024, n]⟩ 0)
    (hlt : FTy.bits .bf16 < FTy.bits .f32) (k : Fin 1024) (j : Fin n) :
    (truncf .bf16 (mulf (subf (sitofp .f32 q) z) (expandRows x hs0 hs1 hs2 hs3 hs4 hs5 hs6 hs7 hc hb hcat)) hlt : FVec Ideal (⟨2, ![1024, n]⟩ : Shape) .bf16) (ix2 k j)
      = (FloatOps.sitofp (F := Ideal) .f32 (q (ix2 k j)) - z (ix2 k j)) * x (ix2 ⟨k.val / 128, by have := k.isLt; omega⟩ j) := by
  rw [truncf_apply, mulf_apply, subf_apply, sitofp_apply, expand_apply]

end Cert.KernelIdeal.Pay
-- ==== Proof.KI.Pay0.lean ====
import proofs.«104653_j17798344475235_1_alg».proof.Proof.Gen.KernelIdeal.Skeleton
import proofs.«104653_j17798344475235_1_alg».proof.Proof.KI.PayRows
import Idealize.ShloMosaic.Lib.IdealHost

/-! # The gate / up region's stored values at an entry

Each value the first region's body stores, read at one entry (r, j) of its [1024, 256] block as an
explicit extended-real expression of entries of the loaded blocks: the zero points expanded to the
block's rows, the dequantised gate weights, the gate and up accumulations (the accumulator's entry
plus a row of the activations against a column of the dequantised weights), the gated product
g * (1 / (1 + exp (0 - g))) * u, and the zero blocks the accumulators start from. -/

namespace Cert.KernelIdeal.Pay

open Cert.KernelIdeal Cert.KernelIdeal.Gen Idealize.ShloMosaic Idealize.ShloMosaic.ValueIdx
open scoped BigOperators

/-! ## The zero points expanded -/

/-- The gate's zero points expanded: row k of the block reads the zero point of group k / 128, as a real. -/
theorem k0_pay7_apply (v4 : Vec Ideal S8x256 .i32) (k : Fin 1024) (j : Fin 256) :
    k0_pay7 (F := Ideal) v4 (ix2 k j) = FloatOps.sitofp (F := Ideal) .f32 (v4 (ix2 ⟨k.val / 128, by have := k.isLt; omega⟩ j)) := by
  unfold Gen.k0_pay7
  exact expand_apply (n := 256) (sitofp (F := Ideal) .f32 v4) _ _ _ _ _ _ _ _ _ _ _ k j

/-- The up projection's zero points expanded, likewise. -/
theorem k0_pay15_apply (v62 : Vec Ideal S8x256 .i32) (k : Fin 1024) (j : Fin 256) :
    k0_pay15 (F := Ideal) v62 (ix2 k j) = FloatOps.sitofp (F := Ideal) .f32 (v62 (ix2 ⟨k.val / 128, by have := k.isLt; omega⟩ j)) := by
  unfold Gen.k0_pay15
  exact expand_apply (n := 256) (sitofp (F := Ideal) .f32 v62) _ _ _ _ _ _ _ _ _ _ _ k j

/-! ## The dequantised gate weights -/

/-- A gate weight: (the integer weight - its group's zero point) * its group's scale. -/
theorem k0_pay14_apply (v3 : Vec Ideal S1024x256 .i32) (v4 : Vec Ideal S8x256 .i32) (v5 : Vec Ideal S8x256 .f32)
    (k : Fin 1024) (j : Fin 256) :
    k0_pay14 (F := Ideal) v3 v5 (k0_pay7 v4) (k0_pay8 v5) (k0_pay9 v5) (k0_pay10 v5) (k0_pay11 v5) (k0_pay12 v5)
        (k0_pay13 v5) (ix2 k j)
      = (FloatOps.sitofp (F := Ideal) .f32 (v3 (ix2 k j)) - FloatOps.sitofp (F := Ideal) .f32 (v4 (ix2 ⟨k.val / 128, by have := k.isLt; omega⟩ j)))
          * v5 (ix2 ⟨k.val / 128, by have := k.isLt; omega⟩ j) := by
  unfold Gen.k0_pay14 Gen.k0_pay8 Gen.k0_pay9 Gen.k0_pay10 Gen.k0_pay11 Gen.k0_pay12 Gen.k0_pay13
  refine (dequant_apply (n := 256) v3 (k0_pay7 v4) v5 _ _ _ _ _ _ _ _ _ _ _ _ k j).trans ?_
  rw [k0_pay7_apply]

/-! ## The products accumulated -/

/-- Axis 0 of the left operand's index is the result's row. -/
theorem prod0_lhs0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl

/-- Axis 1 of the right operand's index is the result's column. -/
theorem prod0_rhs1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- A product of a [1024, 1024] block with a [1024, 256] block accumulated into the zero block: entry
    (r, j) is the sum over k of the products of row r of the left with column j of the right. -/
theorem prod0_apply (lhs : FVec Ideal S1024x1024 .bf16) (rhs : FVec Ideal S1024x256 .bf16) (r : Fin 1024) (j : Fin 256) :
    matmul dot_S1024x1024_S1024x256_S1024x256_1_0_0_1_n_n none lhs rhs (constant (F := Ideal) S1024x256 .f32 0x00000000#32) (ix2 r j)
      = ∑ k : Fin 1024, lhs (ix2 r k) * rhs (ix2 k j) := by
  refine (Ideal.matmul_constant_zero_apply dot_S1024x1024_S1024x256_S1024x256_1_0_0_1_n_n none lhs rhs (ix2 r j)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r j) ((contrEquiv1 dot_S1024x1024_S1024x256_S1024x256_1_0_0_1_n_n 1024 rfl rfl).symm k) = ix2 r k :=
    funext fun a => Fin.ext (by
      match a with
      | ⟨0, _⟩ => exact prod0_lhs0 _ _
      | ⟨1, _⟩ => exact (dot_S1024x1024_S1024x256_S1024x256_1_0_0_1_n_n.lhsIdx_val_of_single rfl _ _).trans hk)
  have er : dot_S1024x1024_S1024x256_S1024x256_1_0_0_1_n_n.rhsIdx (ix2 r j) ((contrEquiv1 dot_S1024x1024_S1024x256_S1024x256_1_0_0_1_n_n 1024 rfl rfl).symm k) = ix2 k j :=
    funext fun a => Fin.ext (by
      match a with
      | ⟨0, _⟩ => exact (dot_S1024x1024_S1024x256_S1024x256_1_0_0_1_n_n.rhsIdx_val_of_single rfl _ _).trans hk
      | ⟨1, _⟩ => exact prod0_rhs1 _ _)
  rw [el, er]

/-- The activations' block passes through its shape cast unchanged. -/
theorem k0_pay1_eq (v119 : Vec Ideal S1024x1024 .bf16) : k0_pay1 (F := Ideal) v119 = v119 := by
  unfold Gen.k0_pay1
  exact shapeCast_self _ _

/-- The gate accumulation: the accumulator's entry plus row r of the activations against column j of the
    dequantised gate weights. -/
theorem k0_pay2_apply (v60 : FVec Ideal S1024x256 .bf16) (v119 : Vec Ideal S1024x1024 .bf16) (v121 : Vec Ideal S1024x256 .f32)
    (r : Fin 1024) (j : Fin 256) :
    k0_pay2 (F := Ideal) v60 v119 v121 (ix2 r j) = v121 (ix2 r j) + ∑ k : Fin 1024, v119 (ix2 r k) * v60 (ix2 k j) := by
  unfold Gen.k0_pay2
  rw [shapeCast_self (s := S1024x256), addf_apply, k0_pay1_eq]
  exact congrArg (v121 (ix2 r j) + ·) (prod0_apply v119 v60 r j)

/-- The up accumulation: the accumulator's entry plus row r of the activations against column j of the
    dequantised up weights, each (the integer weight - its group's zero point) * its group's scale. -/
theorem k0_pay3_apply (v61 : Vec Ideal S1024x256 .i32) (v62 : Vec Ideal S8x256 .i32) (v63 : Vec Ideal S8x256 .f32)
    (v119 : Vec Ideal S1024x1024 .bf16) (v127 : Vec Ideal S1024x256 .f32) (r : Fin 1024) (j : Fin 256) :
    k0_pay3 (F := Ideal) v61 v63 (k0_pay15 v62) (k0_pay16 v63) (k0_pay17 v63) (k0_pay18 v63) (k0_pay19 v63) v119 v127
        (ix2 r j)
      = v127 (ix2 r j) + ∑ k : Fin 1024, v119 (ix2 r k) *
          ((FloatOps.sitofp (F := Ideal) .f32 (v61 (ix2 k j)) - FloatOps.sitofp (F := Ideal) .f32 (v62 (ix2 ⟨k.val / 128, by have := k.isLt; omega⟩ j)))
            * v63 (ix2 ⟨k.val / 128, by have := k.isLt; omega⟩ j)) := by
  unfold Gen.k0_pay3 Gen.k0_pay16 Gen.k0_pay17 Gen.k0_pay18 Gen.k0_pay19
  dsimp only
  rw [shapeCast_self (s := S1024x256), addf_apply, k0_pay1_eq]
  refine congrArg (v127 (ix2 r j) + ·) ((prod0_apply v119 _ r j).trans (Finset.sum_congr rfl fun k _ => ?_))
  refine congrArg (v119 (ix2 r k) * ·) ((dequant_apply (n := 256) v61 (k0_pay15 v62) v63 _ _ _ _ _ _ _ _ _ _ _ _ k j).trans ?_)
  rw [k0_pay15_apply]

/-! ## The gated product and the zero blocks -/

/-- The stored activation: g * (1 / (1 + exp (0 - g))) * u at the entry, the division and the exponential
    the extended reals' (the change of format to bf16 is the identity there). -/
theorem k0_pay4_apply (v136 v137 : Vec Ideal S1024x256 .f32) (r : Fin 1024) (j : Fin 256) :
    k0_pay4 (F := Ideal) v136 v137 (ix2 r j)
      = (v136 (ix2 r j) * Ideal.div 1 (1 + Ideal.exp (0 - v136 (ix2 r j)))) * v137 (ix2 r j) := by
  unfold Gen.k0_pay4
  show (v136 (ix2 r j) * Ideal.div (Ideal.ofBits .f32 0x3F800000#32)
      (Ideal.ofBits .f32 0x3F800000#32 + Ideal.exp (Ideal.ofBits .f32 0x00000000#32 - v136 (ix2 r j)))) * v137 (ix2 r j) = _
  rw [Ideal.ofBits_zero_f32, Ideal.ofBits_one_f32]

/-- The gate accumulator starts from the zero block. -/
theorem k0_pay5_apply (r : Fin 1024) (j : Fin 256) : k0_pay5 (F := Ideal) (ix2 r j) = 0 := by
  unfold Gen.k0_pay5
  rw [shapeCast_self]
  exact Ideal.ofBits_zero_f32

/-- The up accumulator starts from the zero block. -/
theorem k0_pay6_apply (r : Fin 1024) (j : Fin 256) : k0_pay6 (F := Ideal) (ix2 r j) = 0 := by
  unfold Gen.k0_pay6
  rw [shapeCast_self]
  exact Ideal.ofBits_zero_f32

end Cert.KernelIdeal.Pay
-- ==== Proof.LibTiledFold.lean ====
/-
  A running total that is restarted every `n` steps.

  A kernel that reduces along the last grid axis keeps an accumulator across grid points: at a point whose
  position along that axis is zero it starts from the point's own contribution, at every other point it adds
  the point's contribution to what the point before left. After the point `t` the accumulator therefore holds
  the sum of the contributions of the points `t - t % n, …, t`: a partial sum of the current block of `n` points,
  and the whole block's sum at the block's last point. Nothing but commutativity and associativity of the
  addition is used, so this holds in the extended reals with no finiteness side condition.
-/
import Idealize.ShloMosaic.PureOps.Ideal

open scoped BigOperators

namespace Cert.LibTiledFold

variable {M : Type*} [AddCommMonoid M]

/-- Over the points below `N`: the accumulator `S` restarts from the contribution `P t` at every `t` divisible
    by `n` and adds `P t` to its previous value elsewhere; then after `t` it is the sum of the contributions
    since the last restart. -/
theorem partial_block_sum (n N : ℕ) (hn : 0 < n) (S P : ℕ → M)
    (hreset : ∀ t, t < N → t % n = 0 → S t = P t)
    (hstep : ∀ t, t < N → t % n ≠ 0 → S t = S (t - 1) + P t) (t : ℕ) (ht : t < N) :
    S t = ∑ i ∈ Finset.range (t % n + 1), P (t - t % n + i) := by
  induction t using Nat.strong_induction_on with
  | _ t ih =>
    by_cases h0 : t % n = 0
    · rw [hreset t ht h0, h0]
      simp
    · have hpos : 0 < t % n := Nat.pos_of_ne_zero h0
      have hle : t % n ≤ t := Nat.mod_le t n
      have hprev : (t - 1) % n = t % n - 1 := by
        have hlt : t % n < n := Nat.mod_lt t hn
        have hdm : t = n * (t / n) + t % n := (Nat.div_add_mod t n).symm
        have : t - 1 = n * (t / n) + (t % n - 1) := by omega
        rw [this, Nat.mul_add_mod]
        exact Nat.mod_eq_of_lt (by omega)
      rw [hstep t ht h0, ih (t - 1) (by omega) (by omega), hprev]
      have e1 : t % n - 1 + 1 = t % n := by omega
      have e2 : t - 1 - (t % n - 1) = t - t % n := by omega
      rw [e1, e2, Finset.sum_range_succ]
      congr 1
      congr 1
      omega

/-- At the last point of a block the accumulator holds the whole block's sum. -/
theorem block_sum_at_last (n N : ℕ) (hn : 0 < n) (S P : ℕ → M)
    (hreset : ∀ t, t < N → t % n = 0 → S t = P t)
    (hstep : ∀ t, t < N → t % n ≠ 0 → S t = S (t - 1) + P t) (t : ℕ) (ht : t < N) (hlast : t % n = n - 1) :
    S t = ∑ i ∈ Finset.range n, P (t - (n - 1) + i) := by
  rw [partial_block_sum n N hn S P hreset hstep t ht, hlast]
  have : n - 1 + 1 = n := by omega
  rw [this]

end Cert.LibTiledFold
-- ==== Proof.KI.Val0.lean ====
/-
  Region 0 (gate and up projections, then the gated product) at the extended reals: what its output array holds
  when the region ends.

  The grid is (4, 43, 4): point `t` works on the row block `t / 172`, the column block `t / 4 % 43` and the slice
  `t % 4` of the contracted axis. At every point the kernel adds to each of two carried accumulators the product
  of a 1024×1024 block of the activations with a dequantised 1024×256 block of the gate, resp. up, weights; both
  restart at slice 0, and at slice 3 the output block is written: g · (1 / (1 + e^(0 − g))) · u of the two
  accumulators. So the output entry (R, J) is that expression of the two full dot products of row R of the
  activations with column J of the dequantised gate and up weights. Only commutativity and associativity of the
  addition of extended reals are used.
-/
import proofs.«104653_j17798344475235_1_alg».proof.Proof.KI.R0Runs
import proofs.«104653_j17798344475235_1_alg».proof.Proof.KI.Pay0
import proofs.«104653_j17798344475235_1_alg».proof.Proof.Spec
import proofs.«104653_j17798344475235_1_alg».proof.Proof.LibTiledFold
import Idealize.ShloMosaic.Lib.ValueIdx
import Idealize.ShloMosaic.Lib.Pipeline.Value

set_option maxRecDepth 16384

noncomputable section

namespace Cert.KernelIdeal.Hand

open Cert.KernelIdeal Cert.KernelIdeal.Gen Cert.Mlp
open Idealize.ShloMosaic Idealize.ShloMosaic.TcCoe ValueIdx
open Idealize.ShloMosaic.Pipeline (Dat Cfg Window)
open scoped BigOperators

variable (V : (c : Dev nD) → (b : Ref sig .tc) → Buf (Elt Ideal) ((c : Thread nD τ).loc b)) (c : Dev nD)

/-! ## The arrays region 0 is entered with, as matrices -/

/-- The activations, one row per token. -/
def xM : Fin 4096 → Fin 4096 → EReal := Mat (V c (Pipeline.arrRef spec0 0) : S4096x4096.Idx → EReal)
/-- The gate weights, dequantised. -/
def wgM : Fin 4096 → Fin 11008 → EReal :=
  deq rows_4096 (Q (V c (Pipeline.arrRef spec0 1) : S4096x11008.Idx → BitVec 32))
    (Q (V c (Pipeline.arrRef spec0 2) : S32x11008.Idx → BitVec 32)) (Mat (V c (Pipeline.arrRef spec0 3) : S32x11008.Idx → EReal))
/-- The up weights, dequantised. -/
def wuM : Fin 4096 → Fin 11008 → EReal :=
  deq rows_4096 (Q (V c (Pipeline.arrRef spec0 4) : S4096x11008.Idx → BitVec 32))
    (Q (V c (Pipeline.arrRef spec0 5) : S32x11008.Idx → BitVec 32)) (Mat (V c (Pipeline.arrRef spec0 6) : S32x11008.Idx → EReal))
/-- The hidden activations as an array. -/
def G0 : S4096x11008.Idx → EReal := fun i =>
  hidden (xM V c) (wgM V c) (wuM V c) ⟨(i 0).val, idx2_lt0 i⟩ ⟨(i 1).val, idx2_lt1 i⟩

/-! ## The windows' index maps over the grid, and the blocks read at an entry -/

theorem idx0 : ∀ t : Fin cfg0.N,
    win0_0.index t (0 : Fin 2) = t.val / 172 ∧ win0_0.index t (1 : Fin 2) = t.val % 4
    ∧ win0_1.index t (0 : Fin 2) = t.val % 4 ∧ win0_1.index t (1 : Fin 2) = t.val / 4 % 43
    ∧ win0_2.index t (0 : Fin 2) = t.val % 4 ∧ win0_2.index t (1 : Fin 2) = t.val / 4 % 43
    ∧ win0_3.index t (0 : Fin 2) = t.val % 4 ∧ win0_3.index t (1 : Fin 2) = t.val / 4 % 43
    ∧ win0_4.index t (0 : Fin 2) = t.val % 4 ∧ win0_4.index t (1 : Fin 2) = t.val / 4 % 43
    ∧ win0_5.index t (0 : Fin 2) = t.val % 4 ∧ win0_5.index t (1 : Fin 2) = t.val / 4 % 43
    ∧ win0_6.index t (0 : Fin 2) = t.val % 4 ∧ win0_6.index t (1 : Fin 2) = t.val / 4 % 43
    ∧ win0_7.index t (0 : Fin 2) = t.val / 172 ∧ win0_7.index t (1 : Fin 2) = t.val / 4 % 43 ∧ True :=
  (by decide +kernel : ∀ t : Fin grid0.N, _)

theorem tlt0 (t : Fin cfg0.N) : t.val < 688 := lt_of_lt_of_eq t.isLt (show cfg0.N = 688 from N_0)

/-- Entry (a, b) of window 0's block at point `t`. -/
theorem blk0_0 (t : Fin cfg0.N) (a : Fin 1024) (b : Fin 1024) :
    iblk0 V c 0 t (ix2 a b) = (V c (Pipeline.arrRef spec0 0) : S4096x4096.Idx → EReal)
      (ix2 (⟨t.val / 172 * 1024 + a.val, by have := tlt0 t; have := a.isLt; omega⟩ : Fin 4096)
           (⟨t.val % 4 * 1024 + b.val, by have := tlt0 t; have := b.isLt; omega⟩ : Fin 4096)) := by
  obtain ⟨e0, e1, -⟩ := idx0 t
  show (V c (Pipeline.arrRef spec0 0) : S4096x4096.Idx → EReal) (((cfg0.win 0).blk t).view.emb (ix2 a b)) = _
  refine congrArg _ (funext fun d => Fin.ext ?_)
  match d with
  | ⟨0, _⟩ => show win0_0.index t (0 : Fin 2) * 1024 + 1 * a.val = t.val / 172 * 1024 + a.val; rw [e0]; omega
  | ⟨1, _⟩ => show win0_0.index t (1 : Fin 2) * 1024 + 1 * b.val = t.val % 4 * 1024 + b.val; rw [e1]; omega

/-- Entry (a, b) of window 1's block at point `t`. -/
theorem blk0_1 (t : Fin cfg0.N) (a : Fin 1024) (b : Fin 256) :
    iblk0 V c 1 t (ix2 a b) = (V c (Pipeline.arrRef spec0 1) : S4096x11008.Idx → BitVec 32)
      (ix2 (⟨t.val % 4 * 1024 + a.val, by have := tlt0 t; have := a.isLt; omega⟩ : Fin 4096)
           (⟨t.val / 4 % 43 * 256 + b.val, by have := tlt0 t; have := b.isLt; omega⟩ : Fin 11008)) := by
  obtain ⟨-, -, e0, e1, -⟩ := idx0 t
  show (V c (Pipeline.arrRef spec0 1) : S4096x11008.Idx → BitVec 32) (((cfg0.win 1).blk t).view.emb (ix2 a b)) = _
  refine congrArg _ (funext fun d => Fin.ext ?_)
  match d with
  | ⟨0, _⟩ => show win0_1.index t (0 : Fin 2) * 1024 + 1 * a.val = t.val % 4 * 1024 + a.val; rw [e0]; omega
  | ⟨1, _⟩ => show win0_1.index t (1 : Fin 2) * 256 + 1 * b.val = t.val / 4 % 43 * 256 + b.val; rw [e1]; omega

/-- Entry (a, b) of window 2's block at point `t`. -/
theorem blk0_2 (t : Fin cfg0.N) (a : Fin 8) (b : Fin 256) :
    iblk0 V c 2 t (ix2 a b) = (V c (Pipeline.arrRef spec0 2) : S32x11008.Idx → BitVec 32)
      (ix2 (⟨t.val % 4 * 8 + a.val, by have := tlt0 t; have := a.isLt; omega⟩ : Fin 32)
           (⟨t.val / 4 % 43 * 256 + b.val, by have := tlt0 t; have := b.isLt; omega⟩ : Fin 11008)) := by
  obtain ⟨-, -, -, -, e0, e1, -⟩ := idx0 t
  show (V c (Pipeline.arrRef spec0 2) : S32x11008.Idx → BitVec 32) (((cfg0.win 2).blk t).view.emb (ix2 a b)) = _
  refine congrArg _ (funext fun d => Fin.ext ?_)
  match d with
  | ⟨0, _⟩ => show win0_2.index t (0 : Fin 2) * 8 + 1 * a.val = t.val % 4 * 8 + a.val; rw [e0]; omega
  | ⟨1, _⟩ => show win0_2.index t (1 : Fin 2) * 256 + 1 * b.val = t.val / 4 % 43 * 256 + b.val; rw [e1]; omega

/-- Entry (a, b) of window 3's block at point `t`. -/
theorem blk0_3 (t : Fin cfg0.N) (a : Fin 8) (b : Fin 256) :
    iblk0 V c 3 t (ix2 a b) = (V c (Pipeline.arrRef spec0 3) : S32x11008.Idx → EReal)
      (ix2 (⟨t.val % 4 * 8 + a.val, by have := tlt0 t; have := a.isLt; omega⟩ : Fin 32)
           (⟨t.val / 4 % 43 * 256 + b.val, by have := tlt0 t; have := b.isLt; omega⟩ : Fin 11008)) := by
  obtain ⟨-, -, -, -, -, -, e0, e1, -⟩ := idx0 t
  show (V c (Pipeline.arrRef spec0 3) : S32x11008.Idx → EReal) (((cfg0.win 3).blk t).view.emb (ix2 a b)) = _
  refine congrArg _ (funext fun d => Fin.ext ?_)
  match d with
  | ⟨0, _⟩ => show win0_3.index t (0 : Fin 2) * 8 + 1 * a.val = t.val % 4 * 8 + a.val; rw [e0]; omega
  | ⟨1, _⟩ => show win0_3.index t (1 : Fin 2) * 256 + 1 * b.val = t.val / 4 % 43 * 256 + b.val; rw [e1]; omega

/-- Entry (a, b) of window 4's block at point `t`. -/
theorem blk0_4 (t : Fin cfg0.N) (a : Fin 1024) (b : Fin 256) :
    iblk0 V c 4 t (ix2 a b) = (V c (Pipeline.arrRef spec0 4) : S4096x11008.Idx → BitVec 32)
      (ix2 (⟨t.val % 4 * 1024 + a.val, by have := tlt0 t; have := a.isLt; omega⟩ : Fin 4096)
           (⟨t.val / 4 % 43 * 256 + b.val, by have := tlt0 t; have := b.isLt; omega⟩ : Fin 11008)) := by
  obtain ⟨-, -, -, -, -, -, -, -, e0, e1, -⟩ := idx0 t
  show (V c (Pipeline.arrRef spec0 4) : S4096x11008.Idx → BitVec 32) (((cfg0.win 4).blk t).view.emb (ix2 a b)) = _
  refine congrArg _ (funext fun d => Fin.ext ?_)
  match d with
  | ⟨0, _⟩ => show win0_4.index t (0 : Fin 2) * 1024 + 1 * a.val = t.val % 4 * 1024 + a.val; rw [e0]; omega
  | ⟨1, _⟩ => show win0_4.index t (1 : Fin 2) * 256 + 1 * b.val = t.val / 4 % 43 * 256 + b.val; rw [e1]; omega

/-- Entry (a, b) of window 5's block at point `t`. -/
theorem blk0_5 (t : Fin cfg0.N) (a : Fin 8) (b : Fin 256) :
    iblk0 V c 5 t (ix2 a b) = (V c (Pipeline.arrRef spec0 5) : S32x11008.Idx → BitVec 32)
      (ix2 (⟨t.val % 4 * 8 + a.val, by have := tlt0 t; have := a.isLt; omega⟩ : Fin 32)
           (⟨t.val / 4 % 43 * 256 + b.val, by have := tlt0 t; have := b.isLt; omega⟩ : Fin 11008)) := by
  obtain ⟨-, -, -, -, -, -, -, -, -, -, e0, e1, -⟩ := idx0 t
  show (V c (Pipeline.arrRef spec0 5) : S32x11008.Idx → BitVec 32) (((cfg0.win 5).blk t).view.emb (ix2 a b)) = _
  refine congrArg _ (funext fun d => Fin.ext ?_)
  match d with
  | ⟨0, _⟩ => show win0_5.index t (0 : Fin 2) * 8 + 1 * a.val = t.val % 4 * 8 + a.val; rw [e0]; omega
  | ⟨1, _⟩ => show win0_5.index t (1 : Fin 2) * 256 + 1 * b.val = t.val / 4 % 43 * 256 + b.val; rw [e1]; omega

/-- Entry (a, b) of window 6's block at point `t`. -/
theorem blk0_6 (t : Fin cfg0.N) (a : Fin 8) (b : Fin 256) :
    iblk0 V c 6 t (ix2 a b) = (V c (Pipeline.arrRef spec0 6) : S32x11008.Idx → EReal)
      (ix2 (⟨t.val % 4 * 8 + a.val, by have := tlt0 t; have := a.isLt; omega⟩ : Fin 32)
           (⟨t.val / 4 % 43 * 256 + b.val, by have := tlt0 t; have := b.isLt; omega⟩ : Fin 11008)) := by
  obtain ⟨-, -, -, -, -, -, -, -, -, -, -, -, e0, e1, -⟩ := idx0 t
  show (V c (Pipeline.arrRef spec0 6) : S32x11008.Idx → EReal) (((cfg0.win 6).blk t).view.emb (ix2 a b)) = _
  refine congrArg _ (funext fun d => Fin.ext ?_)
  match d with
  | ⟨0, _⟩ => show win0_6.index t (0 : Fin 2) * 8 + 1 * a.val = t.val % 4 * 8 + a.val; rw [e0]; omega
  | ⟨1, _⟩ => show win0_6.index t (1 : Fin 2) * 256 + 1 * b.val = t.val / 4 % 43 * 256 + b.val; rw [e1]; omega

/-! ## One point's contributions -/

/-- The partial dot product point `t` adds to entry (r, j) of the gate accumulator: positions `t % 4 * 1024 + kq`. -/
def Pg (t : ℕ) (r : Fin 1024) (j : Fin 256) : EReal :=
  if h : t < 688 then
    ∑ kq : Fin 1024, xM V c ⟨t / 172 * 1024 + r.val, by have := r.isLt; omega⟩ ⟨t % 4 * 1024 + kq.val, by have := kq.isLt; omega⟩
      * wgM V c ⟨t % 4 * 1024 + kq.val, by have := kq.isLt; omega⟩ ⟨t / 4 % 43 * 256 + j.val, by have := j.isLt; omega⟩
  else 0
/-- The same for the up accumulator. -/
def Pu (t : ℕ) (r : Fin 1024) (j : Fin 256) : EReal :=
  if h : t < 688 then
    ∑ kq : Fin 1024, xM V c ⟨t / 172 * 1024 + r.val, by have := r.isLt; omega⟩ ⟨t % 4 * 1024 + kq.val, by have := kq.isLt; omega⟩
      * wuM V c ⟨t % 4 * 1024 + kq.val, by have := kq.isLt; omega⟩ ⟨t / 4 % 43 * 256 + j.val, by have := j.isLt; omega⟩
  else 0

/-- The gate accumulator's update at a point, as the body computes it from the point's input blocks. -/
def accG (x0 : Vec Ideal S1024x1024 .bf16) (x1 : Vec Ideal S1024x256 .i32) (x2 : Vec Ideal S8x256 .i32) (x3 : Vec Ideal S8x256 .f32)
    (xs : Vec Ideal S1024x256 .f32) : FVec Ideal S1024x256 .f32 :=
  k0_pay2 (F := Ideal) (k0_pay14 x1 x3 (k0_pay7 x2) (k0_pay8 x3) (k0_pay9 x3) (k0_pay10 x3) (k0_pay11 x3) (k0_pay12 x3) (k0_pay13 x3)) x0 xs
/-- The up accumulator's update at a point. -/
def accU (x0 : Vec Ideal S1024x1024 .bf16) (x4 : Vec Ideal S1024x256 .i32) (x5 : Vec Ideal S8x256 .i32) (x6 : Vec Ideal S8x256 .f32)
    (xs : Vec Ideal S1024x256 .f32) : FVec Ideal S1024x256 .f32 :=
  k0_pay3 (F := Ideal) x4 x6 (k0_pay15 x5) (k0_pay16 x6) (k0_pay17 x6) (k0_pay18 x6) (k0_pay19 x6) x0 xs

/-- At point `t` the gate update adds the point's partial dot product to what the accumulator held. -/
theorem accG_apply (t : Fin cfg0.N) (xs : Vec Ideal S1024x256 .f32) (r : Fin 1024) (j : Fin 256) :
    accG (iblk0 V c 0 t) (iblk0 V c 1 t) (iblk0 V c 2 t) (iblk0 V c 3 t) xs (ix2 r j) = xs (ix2 r j) + Pg V c t.val r j := by
  unfold accG
  refine (Pay.k0_pay2_apply _ (iblk0 V c 0 t) xs r j).trans ?_
  unfold Pg
  rw [dif_pos (tlt0 t)]
  refine congrArg _ (Finset.sum_congr rfl fun kq _ => ?_)
  rw [Pay.k0_pay14_apply (iblk0 V c 1 t) (iblk0 V c 2 t) (iblk0 V c 3 t) kq j,
    blk0_0 V c t r kq, blk0_1 V c t kq j, blk0_2 V c t ⟨kq.val / 128, by have := kq.isLt; omega⟩ j,
    blk0_3 V c t ⟨kq.val / 128, by have := kq.isLt; omega⟩ j]
  unfold xM wgM deq Q Mat
  have hg : (t.val % 4 * 1024 + kq.val) / 128 = t.val % 4 * 8 + kq.val / 128 := by omega
  simp only [hg]

/-- At point `t` the up update adds the point's partial dot product to what the accumulator held. -/
theorem accU_apply (t : Fin cfg0.N) (xs : Vec Ideal S1024x256 .f32) (r : Fin 1024) (j : Fin 256) :
    accU (iblk0 V c 0 t) (iblk0 V c 4 t) (iblk0 V c 5 t) (iblk0 V c 6 t) xs (ix2 r j) = xs (ix2 r j) + Pu V c t.val r j := by
  unfold accU
  refine (Pay.k0_pay3_apply (iblk0 V c 4 t) (iblk0 V c 5 t) (iblk0 V c 6 t) (iblk0 V c 0 t) xs r j).trans ?_
  unfold Pu
  rw [dif_pos (tlt0 t)]
  refine congrArg _ (Finset.sum_congr rfl fun kq _ => ?_)
  rw [blk0_0 V c t r kq, blk0_4 V c t kq j, blk0_5 V c t ⟨kq.val / 128, by have := kq.isLt; omega⟩ j,
    blk0_6 V c t ⟨kq.val / 128, by have := kq.isLt; omega⟩ j]
  unfold xM wuM deq Q Mat
  have hg : (t.val % 4 * 1024 + kq.val) / 128 = t.val % 4 * 8 + kq.val / 128 := by omega
  simp only [hg]

/-! ## The accumulators over the points -/

/-- An accumulator that restarts at slice 0 and is updated from its previous contents elsewhere holds at slice 3 the
    full dot product of the row with the column of `W`. -/
theorem acc0_at_last (W : Fin 4096 → Fin 11008 → EReal) (P : ℕ → Fin 1024 → Fin 256 → EReal)
    (hP : ∀ t (h : t < 688) r j, P t r j = ∑ kq : Fin 1024,
      xM V c ⟨t / 172 * 1024 + r.val, by have := r.isLt; omega⟩ ⟨t % 4 * 1024 + kq.val, by have := kq.isLt; omega⟩
        * W ⟨t % 4 * 1024 + kq.val, by have := kq.isLt; omega⟩ ⟨t / 4 % 43 * 256 + j.val, by have := j.isLt; omega⟩)
    (S : ℕ → Fin 1024 → Fin 256 → EReal)
    (hreset : ∀ t, t < 688 → t % 4 = 0 → ∀ r j, S t r j = P t r j)
    (hstep : ∀ t, t < 688 → t % 4 ≠ 0 → ∀ r j, S t r j = S (t - 1) r j + P t r j)
    (t : ℕ) (ht : t < 688) (hlast : t % 4 = 3) (r : Fin 1024) (j : Fin 256) :
    S t r j = ∑ k : Fin 4096, xM V c ⟨t / 172 * 1024 + r.val, by have := r.isLt; omega⟩ k
      * W k ⟨t / 4 % 43 * 256 + j.val, by have := j.isLt; omega⟩ := by
  have h := Cert.LibTiledFold.block_sum_at_last 4 688 (by norm_num) (fun t => S t r j) (fun t => P t r j)
    (fun t ht h0 => hreset t ht h0 r j) (fun t ht h0 => hstep t ht h0 r j) t ht hlast
  rw [h, sum_blocks_4096, ← Fin.sum_univ_eq_sum_range (fun i => P (t - (4 - 1) + i) r j) 4]
  refine Finset.sum_congr rfl fun i _ => ?_
  have hi := i.isLt
  rw [hP _ (by omega)]
  have e0 : (t - (4 - 1) + i.val) / 172 = t / 172 := by omega
  have e1 : (t - (4 - 1) + i.val) % 4 = i.val := by omega
  have e2 : (t - (4 - 1) + i.val) / 4 % 43 = t / 4 % 43 := by omega
  refine Finset.sum_congr rfl fun kq _ => ?_
  simp only [e0, e1, e2]

theorem Pg_eq (t : ℕ) (h : t < 688) (r : Fin 1024) (j : Fin 256) : Pg V c t r j = ∑ kq : Fin 1024,
      xM V c ⟨t / 172 * 1024 + r.val, by have := r.isLt; omega⟩ ⟨t % 4 * 1024 + kq.val, by have := kq.isLt; omega⟩
        * wgM V c ⟨t % 4 * 1024 + kq.val, by have := kq.isLt; omega⟩ ⟨t / 4 % 43 * 256 + j.val, by have := j.isLt; omega⟩ := by
  unfold Pg; rw [dif_pos h]
theorem Pu_eq (t : ℕ) (h : t < 688) (r : Fin 1024) (j : Fin 256) : Pu V c t r j = ∑ kq : Fin 1024,
      xM V c ⟨t / 172 * 1024 + r.val, by have := r.isLt; omega⟩ ⟨t % 4 * 1024 + kq.val, by have := kq.isLt; omega⟩
        * wuM V c ⟨t % 4 * 1024 + kq.val, by have := kq.isLt; omega⟩ ⟨t / 4 % 43 * 256 + j.val, by have := j.isLt; omega⟩ := by
  unfold Pu; rw [dif_pos h]

/-- The output block's entry at slice 3, from the two accumulators' contents there. -/
theorem out0_entry (sg su : Vec Ideal S1024x256 .f32) (t : ℕ) (ht : t < 688) (r : Fin 1024) (j : Fin 256)
    (hg : sg (ix2 r j) = ∑ k : Fin 4096, xM V c ⟨t / 172 * 1024 + r.val, by have := r.isLt; omega⟩ k
      * wgM V c k ⟨t / 4 % 43 * 256 + j.val, by have := j.isLt; omega⟩)
    (hu : su (ix2 r j) = ∑ k : Fin 4096, xM V c ⟨t / 172 * 1024 + r.val, by have := r.isLt; omega⟩ k
      * wuM V c k ⟨t / 4 % 43 * 256 + j.val, by have := j.isLt; omega⟩) :
    k0_pay4 (F := Ideal) sg su (ix2 r j)
      = hidden (xM V c) (wgM V c) (wuM V c) ⟨t / 172 * 1024 + r.val, by have := r.isLt; omega⟩ ⟨t / 4 % 43 * 256 + j.val, by have := j.isLt; omega⟩ := by
  rw [Pay.k0_pay4_apply sg su r j, gate_zero_sub, hg, hu]
  rfl

end Cert.KernelIdeal.Hand

end
-- ==== Proof.KI.Pay1.lean ====
import proofs.«104653_j17798344475235_1_alg».proof.Proof.Gen.KernelIdeal.Skeleton
import proofs.«104653_j17798344475235_1_alg».proof.Proof.KI.PayRows

/-! # The down region's stored values at an entry

Each value the second region's body stores, read at one entry (r, j) of its [1024, 512] block as an
explicit extended-real expression of entries of the loaded blocks: the zero points expanded to the
block's rows, the down accumulation (the accumulator's entry plus a row of the hidden activations
against a column of the dequantised down weights), and the zero block the accumulator starts from. -/

namespace Cert.KernelIdeal.Pay

open Cert.KernelIdeal Cert.KernelIdeal.Gen Idealize.ShloMosaic Idealize.ShloMosaic.ValueIdx
open scoped BigOperators

/-! ## The blocks that pass through a shape cast unchanged -/

/-- The integer weights' block passes through its shape cast unchanged. -/
theorem k1_pay3_eq (v3 : Vec Ideal S1024x512 .i32) : k1_pay3 (F := Ideal) v3 = v3 := by
  unfold Gen.k1_pay3
  exact shapeCast_self _ _

/-- The scales' table passes through its shape cast unchanged. -/
theorem k1_pay4_eq (v7 : Vec Ideal S8x512 .f32) : k1_pay4 (F := Ideal) v7 = v7 := by
  unfold Gen.k1_pay4
  exact shapeCast_self _ _

/-! ## The zero points expanded -/

/-- The down projection's zero points expanded: row k of the block reads the zero point of group k / 128,
    as a real. -/
theorem k1_pay5_apply (v5 : Vec Ideal S8x512 .i32) (k : Fin 1024) (j : Fin 512) :
    k1_pay5 (F := Ideal) v5 (ix2 k j) = FloatOps.sitofp (F := Ideal) .f32 (v5 (ix2 ⟨k.val / 128, by have := k.isLt; omega⟩ j)) := by
  unfold Gen.k1_pay5
  refine (expand_apply (n := 512) (sitofp (F := Ideal) .f32 (shapeCast S8x512 v5 _)) _ _ _ _ _ _ _ _ _ _ _ k j).trans ?_
  rw [sitofp_apply, shapeCast_self]

/-! ## The product accumulated -/

/-- Axis 0 of the left operand's index is the result's row. -/
theorem prod1_lhs0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl

/-- Axis 1 of the right operand's index is the result's column. -/
theorem prod1_rhs1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- A product of a [1024, 1024] block with a [1024, 512] block accumulated into the zero block: entry
    (r, j) is the sum over k of the products of row r of the left with column j of the right. -/
theorem prod1_apply (lhs : FVec Ideal S1024x1024 .bf16) (rhs : FVec Ideal S1024x512 .bf16) (r : Fin 1024) (j : Fin 512) :
    matmul dot_S1024x1024_S1024x512_S1024x512_1_0_0_1_n_n none lhs rhs (constant (F := Ideal) S1024x512 .f32 0x00000000#32) (ix2 r j)
      = ∑ k : Fin 1024, lhs (ix2 r k) * rhs (ix2 k j) := by
  refine (Ideal.matmul_constant_zero_apply dot_S1024x1024_S1024x512_S1024x512_1_0_0_1_n_n none lhs rhs (ix2 r j)).trans ?_
  rw [← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 r j) ((contrEquiv1 dot_S1024x1024_S1024x512_S1024x512_1_0_0_1_n_n 1024 rfl rfl).symm k) = ix2 r k :=
    funext fun a => Fin.ext (by
      match a with
      | ⟨0, _⟩ => exact prod1_lhs0 _ _
      | ⟨1, _⟩ => exact (dot_S1024x1024_S1024x512_S1024x512_1_0_0_1_n_n.lhsIdx_val_of_single rfl _ _).trans hk)
  have er : dot_S1024x1024_S1024x512_S1024x512_1_0_0_1_n_n.rhsIdx (ix2 r j) ((contrEquiv1 dot_S1024x1024_S1024x512_S1024x512_1_0_0_1_n_n 1024 rfl rfl).symm k) = ix2 k j :=
    funext fun a => Fin.ext (by
      match a with
      | ⟨0, _⟩ => exact (dot_S1024x1024_S1024x512_S1024x512_1_0_0_1_n_n.rhsIdx_val_of_single rfl _ _).trans hk
      | ⟨1, _⟩ => exact prod1_rhs1 _ _)
  rw [el, er]

/-- The down accumulation: the accumulator's entry plus row r of the hidden activations against column j of
    the dequantised down weights, each (the integer weight - its group's zero point) * its group's scale. -/
theorem k1_pay1_apply (v3 : Vec Ideal S1024x512 .i32) (v5 : Vec Ideal S8x512 .i32) (v7 : Vec Ideal S8x512 .f32)
    (v64 : Vec Ideal S1024x1024 .bf16) (v66 : Vec Ideal S1024x512 .f32) (r : Fin 1024) (j : Fin 512) :
    k1_pay1 (F := Ideal) (k1_pay3 v3) (k1_pay4 v7) (k1_pay5 v5) (k1_pay6 v7) (k1_pay7 v7) (k1_pay8 v7) (k1_pay9 v7)
        (k1_pay10 v7) v64 v66 (ix2 r j)
      = v66 (ix2 r j) + ∑ k : Fin 1024, v64 (ix2 r k) *
          ((FloatOps.sitofp (F := Ideal) .f32 (v3 (ix2 k j)) - FloatOps.sitofp (F := Ideal) .f32 (v5 (ix2 ⟨k.val / 128, by have := k.isLt; omega⟩ j)))
            * v7 (ix2 ⟨k.val / 128, by have := k.isLt; omega⟩ j)) := by
  unfold Gen.k1_pay1 Gen.k1_pay6 Gen.k1_pay7 Gen.k1_pay8 Gen.k1_pay9 Gen.k1_pay10
  dsimp only
  rw [shapeCast_self (s := S1024x512), addf_apply, shapeCast_self (s := S1024x1024)]
  refine congrArg (v66 (ix2 r j) + ·) ((prod1_apply v64 _ r j).trans (Finset.sum_congr rfl fun k _ => ?_))
  refine congrArg (v64 (ix2 r k) * ·)
    ((dequant_apply (n := 512) (k1_pay3 v3) (k1_pay5 v5) (k1_pay4 v7) _ _ _ _ _ _ _ _ _ _ _ _ k j).trans ?_)
  rw [k1_pay5_apply, k1_pay3_eq, k1_pay4_eq]

/-! ## The zero block -/

/-- The down accumulator starts from the zero block. -/
theorem k1_pay2_apply (r : Fin 1024) (j : Fin 512) : k1_pay2 (F := Ideal) (ix2 r j) = 0 := by
  unfold Gen.k1_pay2
  rw [shapeCast_self]
  exact Ideal.ofBits_zero_f32

end Cert.KernelIdeal.Pay
-- ==== Proof.KI.Val1.lean ====
/-
  Region 1 (the down projection) at the extended reals: what its output array holds when the region ends.

  The grid is (4, 8, 11): point `t` works on the row block `t / 88`, the column block `t / 11 % 8` and the slice
  `t % 11` of the contracted axis. At every point the kernel adds to a carried accumulator the product of a
  1024×1024 block of the padded hidden activations with the dequantised 1024×512 block of the padded down weights;
  the accumulator restarts at slice 0 and is written to the output block at slice 10. So the output entry (R, D)
  is the sum over the eleven slices of the slices' partial dot products, which is the dot product of row R of
  the padded activations with column D of the padded dequantised weights over all 11264 positions.
  Only commutativity and associativity of the addition of extended reals are used.
-/
import proofs.«104653_j17798344475235_1_alg».proof.Proof.KI.R1Runs
import proofs.«104653_j17798344475235_1_alg».proof.Proof.KI.Pay1
import proofs.«104653_j17798344475235_1_alg».proof.Proof.Spec
import proofs.«104653_j17798344475235_1_alg».proof.Proof.LibTiledFold
import Idealize.ShloMosaic.Lib.ValueIdx
import Idealize.ShloMosaic.Lib.Pipeline.Value

set_option maxRecDepth 16384

noncomputable section

namespace Cert.KernelIdeal.Hand

open Cert.KernelIdeal Cert.KernelIdeal.Gen Cert.Mlp
open Idealize.ShloMosaic Idealize.ShloMosaic.TcCoe ValueIdx
open Idealize.ShloMosaic.Pipeline (Dat Cfg Window)
open scoped BigOperators

variable (V : (c : Dev nD) → (b : Ref sig .tc) → Buf (Elt Ideal) ((c : Thread nD τ).loc b)) (c : Dev nD)

/-! ## The arrays region 1 is entered with, as matrices -/

theorem rows_11264 : 11264 ≤ 128 * 88 := by norm_num

/-- The padded hidden activations. -/
def hpM : Fin 4096 → Fin 11264 → EReal := Mat (V c (Pipeline.arrRef spec1 0) : S4096x11264.Idx → EReal)
/-- The padded down weights, dequantised: (word − zero point of its group of 128 rows) · the group's scale. -/
def wdpM : Fin 11264 → Fin 4096 → EReal :=
  deq rows_11264 (Q (V c (Pipeline.arrRef spec1 1) : S11264x4096.Idx → BitVec 32))
    (Q (V c (Pipeline.arrRef spec1 2) : S88x4096.Idx → BitVec 32)) (Mat (V c (Pipeline.arrRef spec1 3) : S88x4096.Idx → EReal))
/-- The down projection of the padded operands. -/
def G1c (R D : Fin 4096) : EReal := ∑ J : Fin 11264, hpM V c R J * wdpM V c J D
/-- The same as an array. -/
def G1 : S4096x4096.Idx → EReal := fun i => G1c V c ⟨(i 0).val, idx2_lt0 i⟩ ⟨(i 1).val, idx2_lt1 i⟩

/-! ## The windows' index maps over the grid, and the blocks read at an entry -/

theorem idx1 : ∀ t : Fin cfg1.N,
    win1_0.index t (0 : Fin 2) = t.val / 88 ∧ win1_0.index t (1 : Fin 2) = t.val % 11
    ∧ win1_1.index t (0 : Fin 2) = t.val % 11 ∧ win1_1.index t (1 : Fin 2) = t.val / 11 % 8
    ∧ win1_2.index t (0 : Fin 2) = t.val % 11 ∧ win1_2.index t (1 : Fin 2) = t.val / 11 % 8
    ∧ win1_3.index t (0 : Fin 2) = t.val % 11 ∧ win1_3.index t (1 : Fin 2) = t.val / 11 % 8
    ∧ win1_4.index t (0 : Fin 2) = t.val / 88 ∧ win1_4.index t (1 : Fin 2) = t.val / 11 % 8 :=
  (by decide +kernel : ∀ t : Fin grid1.N, _)

theorem tlt1 (t : Fin cfg1.N) : t.val < 352 := lt_of_lt_of_eq t.isLt (show cfg1.N = 352 from N_1)

/-- Entry (r, kq) of the activations' block at point `t`. -/
theorem blk1_0 (t : Fin cfg1.N) (r kq : Fin 1024) :
    iblk1 V c 0 t (ix2 r kq) = (V c (Pipeline.arrRef spec1 0) : S4096x11264.Idx → EReal)
      (ix2 (⟨t.val / 88 * 1024 + r.val, by have := tlt1 t; have := r.isLt; omega⟩ : Fin 4096)
           (⟨t.val % 11 * 1024 + kq.val, by have := kq.isLt; omega⟩ : Fin 11264)) := by
  obtain ⟨e0, e1, -⟩ := idx1 t
  show (V c (Pipeline.arrRef spec1 0) : S4096x11264.Idx → EReal) (((cfg1.win 0).blk t).view.emb (ix2 r kq)) = _
  refine congrArg _ (funext fun a => Fin.ext ?_)
  match a with
  | ⟨0, _⟩ => show win1_0.index t (0 : Fin 2) * 1024 + 1 * r.val = t.val / 88 * 1024 + r.val; rw [e0]; omega
  | ⟨1, _⟩ => show win1_0.index t (1 : Fin 2) * 1024 + 1 * kq.val = t.val % 11 * 1024 + kq.val; rw [e1]; omega

/-- Entry (kq, j) of the weight words' block at point `t`. -/
theorem blk1_1 (t : Fin cfg1.N) (kq : Fin 1024) (j : Fin 512) :
    iblk1 V c 1 t (ix2 kq j) = (V c (Pipeline.arrRef spec1 1) : S11264x4096.Idx → BitVec 32)
      (ix2 (⟨t.val % 11 * 1024 + kq.val, by have := kq.isLt; omega⟩ : Fin 11264)
           (⟨t.val / 11 % 8 * 512 + j.val, by have := j.isLt; omega⟩ : Fin 4096)) := by
  obtain ⟨-, -, e0, e1, -⟩ := idx1 t
  show (V c (Pipeline.arrRef spec1 1) : S11264x4096.Idx → BitVec 32) (((cfg1.win 1).blk t).view.emb (ix2 kq j)) = _
  refine congrArg _ (funext fun a => Fin.ext ?_)
  match a with
  | ⟨0, _⟩ => show win1_1.index t (0 : Fin 2) * 1024 + 1 * kq.val = t.val % 11 * 1024 + kq.val; rw [e0]; omega
  | ⟨1, _⟩ => show win1_1.index t (1 : Fin 2) * 512 + 1 * j.val = t.val / 11 % 8 * 512 + j.val; rw [e1]; omega

/-- Entry (g, j) of the zero points' block at point `t`. -/
theorem blk1_2 (t : Fin cfg1.N) (g : Fin 8) (j : Fin 512) :
    iblk1 V c 2 t (ix2 g j) = (V c (Pipeline.arrRef spec1 2) : S88x4096.Idx → BitVec 32)
      (ix2 (⟨t.val % 11 * 8 + g.val, by have := g.isLt; omega⟩ : Fin 88)
           (⟨t.val / 11 % 8 * 512 + j.val, by have := j.isLt; omega⟩ : Fin 4096)) := by
  obtain ⟨-, -, -, -, e0, e1, -⟩ := idx1 t
  show (V c (Pipeline.arrRef spec1 2) : S88x4096.Idx → BitVec 32) (((cfg1.win 2).blk t).view.emb (ix2 g j)) = _
  refine congrArg _ (funext fun a => Fin.ext ?_)
  match a with
  | ⟨0, _⟩ => show win1_2.index t (0 : Fin 2) * 8 + 1 * g.val = t.val % 11 * 8 + g.val; rw [e0]; omega
  | ⟨1, _⟩ => show win1_2.index t (1 : Fin 2) * 512 + 1 * j.val = t.val / 11 % 8 * 512 + j.val; rw [e1]; omega

/-- Entry (g, j) of the scales' block at point `t`. -/
theorem blk1_3 (t : Fin cfg1.N) (g : Fin 8) (j : Fin 512) :
    iblk1 V c 3 t (ix2 g j) = (V c (Pipeline.arrRef spec1 3) : S88x4096.Idx → EReal)
      (ix2 (⟨t.val % 11 * 8 + g.val, by have := g.isLt; omega⟩ : Fin 88)
           (⟨t.val / 11 % 8 * 512 + j.val, by have := j.isLt; omega⟩ : Fin 4096)) := by
  obtain ⟨-, -, -, -, -, -, e0, e1, -⟩ := idx1 t
  show (V c (Pipeline.arrRef spec1 3) : S88x4096.Idx → EReal) (((cfg1.win 3).blk t).view.emb (ix2 g j)) = _
  refine congrArg _ (funext fun a => Fin.ext ?_)
  match a with
  | ⟨0, _⟩ => show win1_3.index t (0 : Fin 2) * 8 + 1 * g.val = t.val % 11 * 8 + g.val; rw [e0]; omega
  | ⟨1, _⟩ => show win1_3.index t (1 : Fin 2) * 512 + 1 * j.val = t.val / 11 % 8 * 512 + j.val; rw [e1]; omega

/-! ## One point's contribution -/

/-- The partial dot product point `t` adds to entry (r, j) of its output block: positions `t % 11 * 1024 + kq`. -/
def P1 (t : ℕ) (r : Fin 1024) (j : Fin 512) : EReal :=
  if h : t < 352 then
    ∑ kq : Fin 1024, hpM V c ⟨t / 88 * 1024 + r.val, by have := r.isLt; omega⟩ ⟨t % 11 * 1024 + kq.val, by have := kq.isLt; omega⟩
      * wdpM V c ⟨t % 11 * 1024 + kq.val, by have := kq.isLt; omega⟩ ⟨t / 11 % 8 * 512 + j.val, by have := j.isLt; omega⟩
  else 0

/-- The accumulator's update at a point, as the body computes it from the point's four input blocks. -/
def acc1 (x0 : Vec Ideal S1024x1024 .bf16) (x1 : Vec Ideal S1024x512 .i32) (x2 : Vec Ideal S8x512 .i32) (x3 : Vec Ideal S8x512 .f32)
    (xs : Vec Ideal S1024x512 .f32) : FVec Ideal S1024x512 .f32 :=
  k1_pay1 (F := Ideal) (k1_pay3 x1) (k1_pay4 x3) (k1_pay5 x2) (k1_pay6 x3) (k1_pay7 x3) (k1_pay8 x3) (k1_pay9 x3) (k1_pay10 x3) x0 xs

/-- At point `t` the update adds the point's partial dot product to what the accumulator held. -/
theorem acc1_apply (t : Fin cfg1.N) (xs : Vec Ideal S1024x512 .f32) (r : Fin 1024) (j : Fin 512) :
    acc1 (iblk1 V c 0 t) (iblk1 V c 1 t) (iblk1 V c 2 t) (iblk1 V c 3 t) xs (ix2 r j) = xs (ix2 r j) + P1 V c t.val r j := by
  unfold acc1
  refine (Pay.k1_pay1_apply (iblk1 V c 1 t) (iblk1 V c 2 t) (iblk1 V c 3 t) (iblk1 V c 0 t) xs r j).trans ?_
  unfold P1
  rw [dif_pos (tlt1 t)]
  refine congrArg _ (Finset.sum_congr rfl fun kq _ => ?_)
  rw [blk1_0 V c t r kq, blk1_1 V c t kq j, blk1_2 V c t ⟨kq.val / 128, by have := kq.isLt; omega⟩ j,
    blk1_3 V c t ⟨kq.val / 128, by have := kq.isLt; omega⟩ j]
  unfold hpM wdpM deq Q Mat
  have hg : (t.val % 11 * 1024 + kq.val) / 128 = t.val % 11 * 8 + kq.val / 128 := by omega
  simp only [hg]

/-! ## The accumulator over the points, and the output array -/

/-- If the carried accumulator `S` restarts from zero plus the point's contribution at slice 0 and is updated from its
    previous contents elsewhere, then at slice 10 it holds row-times-column over all eleven slices. -/
theorem acc1_at_last (S : ℕ → Fin 1024 → Fin 512 → EReal)
    (hreset : ∀ t, t < 352 → t % 11 = 0 → ∀ r j, S t r j = P1 V c t r j)
    (hstep : ∀ t, t < 352 → t % 11 ≠ 0 → ∀ r j, S t r j = S (t - 1) r j + P1 V c t r j)
    (t : ℕ) (ht : t < 352) (hlast : t % 11 = 10) (r : Fin 1024) (j : Fin 512) :
    S t r j = G1c V c ⟨t / 88 * 1024 + r.val, by have := r.isLt; omega⟩ ⟨t / 11 % 8 * 512 + j.val, by have := j.isLt; omega⟩ := by
  have h := Cert.LibTiledFold.block_sum_at_last 11 352 (by norm_num) (fun t => S t r j) (fun t => P1 V c t r j)
    (fun t ht h0 => hreset t ht h0 r j) (fun t ht h0 => hstep t ht h0 r j) t ht hlast
  rw [h]
  unfold G1c
  rw [sum_blocks_11264, ← Fin.sum_univ_eq_sum_range (fun i => P1 V c (t - (11 - 1) + i) r j) 11]
  refine Finset.sum_congr rfl fun i _ => ?_
  have hi := i.isLt
  unfold P1
  rw [dif_pos (by omega)]
  have e0 : (t - (11 - 1) + i.val) / 88 = t / 88 := by omega
  have e1 : (t - (11 - 1) + i.val) % 11 = i.val := by omega
  have e2 : (t - (11 - 1) + i.val) / 11 % 8 = t / 11 % 8 := by omega
  refine Finset.sum_congr rfl fun kq _ => ?_
  simp only [e0, e1, e2]

end Cert.KernelIdeal.Hand

end
-- ==== Proof.KI.Bridge.lean ====
/-
  The kernel's result is the specification of its arguments.

  The result buffer is the reshape of region 1's output array. That array holds, at (R, d), the dot product of row R
  of the padded hidden activations with column d of the padded dequantised down weights over 11264 positions. The
  last 256 positions are the host's zero padding of the activations: each contributes zero times a weight, which is
  zero on the extended reals, so the sum is the one over the first 11008 positions. There the padded activations are
  region 0's output array, whose entry (R, J) is the gated product of the two full dot products of row R of the
  reshaped input with column J of the dequantised gate and up weights, and the padded down weights' words, zero
  points and scales are the arguments' (a position below 11008 lies in a group below 86).
-/
import proofs.«104653_j17798344475235_1_alg».proof.Proof.KI.Ends
import proofs.«104653_j17798344475235_1_alg».proof.Proof.KI.Host
import proofs.«104653_j17798344475235_1_alg».proof.Proof.KI.Val0
import proofs.«104653_j17798344475235_1_alg».proof.Proof.KI.Val1
import proofs.«104653_j17798344475235_1_alg».proof.Proof.Spec

set_option maxRecDepth 16384

noncomputable section

namespace Cert.KernelIdeal.Hand

open Cert.KernelIdeal Cert.KernelIdeal.Gen Cert.Mlp
open Idealize.ShloMosaic Idealize.ShloMosaic.TcCoe ValueIdx
open Idealize.ShloMosaic.Pipeline (Dat Cfg Window)
open scoped BigOperators

variable (m : (ℓ : Loc nD τ sig) → Buf (Elt Ideal) ℓ) (c : Dev nD)

/-! ## The matrices the regions are entered with, in terms of the arguments -/

/-- Region 0's activations are the input with its two leading axes flattened. -/
theorem xM_entry : xM (E1 m) c = X (m ((c : Thread nD τ).loc main_arg0)) := by
  funext r k
  unfold xM Mat
  exact W1_x m c r k

/-- Region 0's gate weights are the arguments' words, zero points and scales. -/
theorem wgM_entry : wgM (E1 m) c
    = deq rows_4096 (Q (m ((c : Thread nD τ).loc main_arg1))) (Q (m ((c : Thread nD τ).loc main_arg2))) (Mat (m ((c : Thread nD τ).loc main_arg3))) := by
  unfold wgM
  rw [show (E1 m c (Pipeline.arrRef spec0 1)) = m ((c : Thread nD τ).loc main_arg1) from W1_eq_W0 m c main_arg1 (by decide),
    show (E1 m c (Pipeline.arrRef spec0 2)) = m ((c : Thread nD τ).loc main_arg2) from W1_eq_W0 m c main_arg2 (by decide),
    show (E1 m c (Pipeline.arrRef spec0 3)) = m ((c : Thread nD τ).loc main_arg3) from W1_eq_W0 m c main_arg3 (by decide)]

/-- Region 0's up weights likewise. -/
theorem wuM_entry : wuM (E1 m) c
    = deq rows_4096 (Q (m ((c : Thread nD τ).loc main_arg4))) (Q (m ((c : Thread nD τ).loc main_arg5))) (Mat (m ((c : Thread nD τ).loc main_arg6))) := by
  unfold wuM
  rw [show (E1 m c (Pipeline.arrRef spec0 4)) = m ((c : Thread nD τ).loc main_arg4) from W1_eq_W0 m c main_arg4 (by decide),
    show (E1 m c (Pipeline.arrRef spec0 5)) = m ((c : Thread nD τ).loc main_arg5) from W1_eq_W0 m c main_arg5 (by decide),
    show (E1 m c (Pipeline.arrRef spec0 6)) = m ((c : Thread nD τ).loc main_arg6) from W1_eq_W0 m c main_arg6 (by decide)]

/-- Below position 11008 the padded down weights are the arguments' dequantised down weights. -/
theorem wdpM_entry (J : Fin 11008) (d : Fin 4096) :
    wdpM (E10 m) c ⟨J.val, by have := J.isLt; omega⟩ d
      = deq rows_11008 (Q (m ((c : Thread nD τ).loc main_arg7))) (Q (m ((c : Thread nD τ).loc main_arg8))) (Mat (m ((c : Thread nD τ).loc main_arg9))) J d := by
  have hJ := J.isLt
  unfold wdpM deq Q Mat
  have h4 := W10_v4 m c ⟨J.val, by omega⟩ d
  have h5 := W10_v5 m c ⟨J.val / 128, by omega⟩ d
  have h6 := W10_v6 m c ⟨J.val / 128, by omega⟩ d
  rw [dif_pos (show J.val < 11008 from hJ)] at h4
  rw [dif_pos (show J.val / 128 < 86 by omega)] at h5 h6
  show (FloatOps.sitofp (F := Ideal) .f32 ((W10 m c (Proc.devRef .tc main_v4) : S11264x4096.Idx → BitVec 32) (ix2 ⟨J.val, by omega⟩ d))
      - FloatOps.sitofp (F := Ideal) .f32 ((W10 m c (Proc.devRef .tc main_v5) : S88x4096.Idx → BitVec 32) (ix2 ⟨J.val / 128, by omega⟩ d)))
      * (W10 m c (Proc.devRef .tc main_v6) : S88x4096.Idx → EReal) (ix2 ⟨J.val / 128, by omega⟩ d) = _
  rw [h4, h5, h6]

/-! ## The result -/

/-- GIVEN what the two regions leave in their output arrays (the regions' own modules prove it), the result buffer
    holds the specification of the arguments. -/
theorem kernel_value_of
    (h0 : (dat0 (F := Ideal) (E1 m) c).arrAt 7 cfg0.N = G0 (E1 m) c)
    (h1 : (dat1 (F := Ideal) (E10 m) c).arrAt 4 cfg1.N = G1 (E10 m) c) :
    (W12 m c (Proc.devRef .tc main_v8) : S2x2048x4096.Idx → EReal)
      = fun i => Cert.Mlp.out (X (m ((c : Thread nD τ).loc main_arg0)))
          (deq rows_4096 (Q (m ((c : Thread nD τ).loc main_arg1))) (Q (m ((c : Thread nD τ).loc main_arg2))) (Mat (m ((c : Thread nD τ).loc main_arg3))))
          (deq rows_4096 (Q (m ((c : Thread nD τ).loc main_arg4))) (Q (m ((c : Thread nD τ).loc main_arg5))) (Mat (m ((c : Thread nD τ).loc main_arg6))))
          (deq rows_11008 (Q (m ((c : Thread nD τ).loc main_arg7))) (Q (m ((c : Thread nD τ).loc main_arg8))) (Mat (m ((c : Thread nD τ).loc main_arg9))))
          ⟨2048 * (i 0).val + (i 1).val, by have h0 : (i 0).val < 2 := (i 0).isLt; have h1 : (i 1).val < 2048 := (i 1).isLt; omega⟩
          ⟨(i 2).val, (i 2).isLt⟩ := by
  funext i
  obtain ⟨b, s, d, rfl⟩ : ∃ (b : Fin 2) (s : Fin 2048) (d : Fin 4096), i = ix3 b s d := ⟨i 0, i 1, i 2, eq_ix3 i⟩
  rw [W12_v8 m c b s d]
  have hb := b.isLt; have hs := s.isLt
  have e11 : (W11 m c (Proc.devRef .tc main_v7) : S4096x4096.Idx → EReal) = G1 (E10 m) c := (W11_arr m c 4).trans h1
  rw [e11]
  show G1c (E10 m) c ⟨2048 * b.val + s.val, by omega⟩ d = Cert.Mlp.out _ _ _ _ ⟨2048 * b.val + s.val, by omega⟩ d
  unfold G1c Cert.Mlp.out
  have e2 : (W2 m c (Proc.devRef .tc main_v2) : S4096x11008.Idx → EReal) = G0 (E1 m) c := (W2_arr m c 7).trans h0
  rw [sum_pad_11264 _ (fun k hk => by
    have h3 := W10_v3 m c ⟨2048 * b.val + s.val, by omega⟩ k
    rw [dif_neg (by omega)] at h3
    show hpM (E10 m) c _ k * _ = 0
    unfold hpM Mat
    rw [show ((E10 m c (Pipeline.arrRef spec1 0)) : S4096x11264.Idx → EReal) (ix2 ⟨2048 * b.val + s.val, by omega⟩ k) = (0 : EReal) from h3, zero_mul])]
  refine Finset.sum_congr rfl fun J _ => ?_
  have hJ := J.isLt
  rw [wdpM_entry m c J d]
  refine congrArg (· * _) ?_
  have h3 := W10_v3 m c ⟨2048 * b.val + s.val, by omega⟩ ⟨J.val, by omega⟩
  rw [dif_pos (show J.val < 11008 from hJ), e2] at h3
  show hpM (E10 m) c _ _ = _
  unfold hpM Mat
  refine h3.trans ?_
  show hidden (xM (E1 m) c) (wgM (E1 m) c) (wuM (E1 m) c) ⟨2048 * b.val + s.val, by omega⟩ ⟨J.val, hJ⟩ = _
  rw [xM_entry, wgM_entry, wuM_entry]
  rfl

end Cert.KernelIdeal.Hand

end
-- ==== Proof.KI.R0Pieces.lean ====
import proofs.«104653_j17798344475235_1_alg».proof.Proof.KI.R0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gated projection: what its steps leave, as values

Each accumulator's last store covers it, so what a step leaves in it is that store's payload: the accumulator's
previous contents (zeros at a first step) plus the product of the `x` tile with the dequantised weight tile.
At a last step the output tile is `g · σ(g) · u` of the two accumulators just stored. Here `x0` is the `x` tile,
`x1, x2, x3` the gate's quantised weights, zero points and scales, `x4, x5, x6` the up projection's. -/

theorem hz0 : (![0, 0] : Fin 2 → Nat) = fun _ => 0 := funext fun a => by fin_cases a <;> rfl

/-! ## A middle step -/

theorem sout0_B_0_eq (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay14 x1 x3 (k0_pay7 x2) (k0_pay8 x3) (k0_pay9 x3) (k0_pay10 x3) (k0_pay11 x3) (k0_pay12 x3) (k0_pay13 x3)) x0 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_run_names
  rw [View.canon_unit_zero (S := S1024x256) hz0]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz0, View.ld_unit_zero (S := S1024x256) hz0, View.ld_unit_zero (S := S8x256) hz0]

theorem sout0_B_1_eq (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) :
    sout0_B_1 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay3 x4 x6 (k0_pay15 x5) (k0_pay16 x6) (k0_pay17 x6) (k0_pay18 x6) (k0_pay19 x6) x0 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_run_names
  rw [View.canon_unit_zero (S := S1024x256) hz0]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz0, View.ld_unit_zero (S := S1024x256) hz0, View.ld_unit_zero (S := S8x256) hz0]

/-! ## A first step: the same over the zeros just stored -/

theorem sout0_A_0_eq (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6 = k0_pay2 (k0_pay14 x1 x3 (k0_pay7 x2) (k0_pay8 x3) (k0_pay9 x3) (k0_pay10 x3) (k0_pay11 x3) (k0_pay12 x3) (k0_pay13 x3)) x0 (k0_pay5 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_run_names
  rw [View.canon_cons_unit_zero (S := S1024x256) hz0, View.readCov_unit_zero (S := S1024x256) _ hz0]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz0, View.ld_unit_zero (S := S1024x256) hz0, View.ld_unit_zero (S := S8x256) hz0]

theorem sout0_A_1_eq (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) :
    sout0_A_1 c i arg3 harg3 arg4 harg4 arg5 harg5 arg6 harg6 arg7 harg7 arg8 harg8 arg9 harg9 arg10 harg10 arg11 harg11 arg12 harg12 hc0 hc1 x0 x1 x2 x3 x4 x5 x6 = k0_pay3 x4 x6 (k0_pay15 x5) (k0_pay16 x6) (k0_pay17 x6) (k0_pay18 x6) (k0_pay19 x6) x0 (k0_pay6 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_run_names
  rw [View.canon_cons_unit_zero (S := S1024x256) hz0, View.readCov_unit_zero (S := S1024x256) _ hz0]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz0, View.ld_unit_zero (S := S1024x256) hz0, View.ld_unit_zero (S := S8x256) hz0]

/-! ## A last step: as a middle step, and the output tile from the two results -/

theorem sout0_C_0_eq (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay14 x1 x3 (k0_pay7 x2) (k0_pay8 x3) (k0_pay9 x3) (k0_pay10 x3) (k0_pay11 x3) (k0_pay12 x3) (k0_pay13 x3)) x0 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_run_names
  rw [View.canon_unit_zero (S := S1024x256) hz0]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz0, View.ld_unit_zero (S := S1024x256) hz0, View.ld_unit_zero (S := S8x256) hz0]

theorem sout0_C_1_eq (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) :
    sout0_C_1 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay3 x4 x6 (k0_pay15 x5) (k0_pay16 x6) (k0_pay17 x6) (k0_pay18 x6) (k0_pay19 x6) x0 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_run_names
  rw [View.canon_unit_zero (S := S1024x256) hz0]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz0, View.ld_unit_zero (S := S1024x256) hz0, View.ld_unit_zero (S := S8x256) hz0]

theorem out0_C_7_eq (c : Dev nD) (i : grid0.Coords) (arg3 : Memref sig .tc .vmem S1024x1024 .bf16) (harg3 : arg3.IsWhole) (arg4 : Memref sig .tc .vmem S1024x256 .i32) (harg4 : arg4.IsWhole) (arg5 : Memref sig .tc .vmem S8x256 .i32) (harg5 : arg5.IsWhole) (arg6 : Memref sig .tc .vmem S8x256 .f32) (harg6 : arg6.IsWhole) (arg7 : Memref sig .tc .vmem S1024x256 .i32) (harg7 : arg7.IsWhole) (arg8 : Memref sig .tc .vmem S8x256 .i32) (harg8 : arg8.IsWhole) (arg9 : Memref sig .tc .vmem S8x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i)
    (x0 : Vec F S1024x1024 .bf16) (x1 : Vec F S1024x256 .i32) (x2 : Vec F S8x256 .i32) (x3 : Vec F S8x256 .f32) (x4 : Vec F S1024x256 .i32) (x5 : Vec F S8x256 .i32) (x6 : Vec F S8x256 .f32) (xs0 : Vec F S1024x256 .f32) (xs1 : Vec F S1024x256 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 (k0_pay2 (k0_pay14 x1 x3 (k0_pay7 x2) (k0_pay8 x3) (k0_pay9 x3) (k0_pay10 x3) (k0_pay11 x3) (k0_pay12 x3) (k0_pay13 x3)) x0 xs0) (k0_pay3 x4 x6 (k0_pay15 x5) (k0_pay16 x6) (k0_pay17 x6) (k0_pay18 x6) (k0_pay19 x6) x0 xs1) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_run_names
  rw [View.canon_unit_zero (S := S1024x256) hz0]
  simp only [View.readAt_eq_ld, harg3.read_unread, harg4.read_unread, harg5.read_unread, harg6.read_unread, harg7.read_unread, harg8.read_unread, harg9.read_unread, harg10.read_unread, harg11.read_unread, harg12.read_unread, View.ld_unit_zero (S := S1024x1024) hz0, View.ld_unit_zero (S := S1024x256) hz0, View.ld_unit_zero (S := S8x256) hz0]
  rw [View.readCov_unit_zero (S := S1024x256) _ hz0, View.readCov_unit_zero (S := S1024x256) _ hz0]

/-! ## Point by point -/

/-- The gate accumulator after point `t`: the product of the point's `x` tile with its dequantised gate tile, added
    to zeros at a first reduction step and to what the point before left otherwise. -/
theorem outsAt0_gate (c : Dev nD) (t : Fin cfg0.N) :
    (outsAt0 V c t.val t.isLt).2.1
      = k0_pay2 (k0_pay14 (iblk0 V c 1 t) (iblk0 V c 3 t) (k0_pay7 (iblk0 V c 2 t)) (k0_pay8 (iblk0 V c 3 t)) (k0_pay9 (iblk0 V c 3 t)) (k0_pay10 (iblk0 V c 3 t)) (k0_pay11 (iblk0 V c 3 t)) (k0_pay12 (iblk0 V c 3 t)) (k0_pay13 (iblk0 V c 3 t))) (iblk0 V c 0 t) (if t.val % 4 = 0 then (k0_pay5 (F := F) : Vec F S1024x256 .f32) else (outsAt0 V c (t.val - 1) (Nat.lt_of_le_of_lt (Nat.sub_le _ _) t.isLt)).2.1) := by
  by_cases h0 : t.val % 4 = 0
  · have h1 : ¬t.val % 4 = 3 := by omega
    rw [outsAt0_A V c t h0 h1, if_pos h0]
    dsimp only; rw [sout0_A_0_eq]
  · rw [if_neg h0]
    by_cases h1 : t.val % 4 = 3
    · rw [outsAt0_C V c t h0 h1]; dsimp only; rw [sout0_C_0_eq]
    · rw [outsAt0_B V c t h0 h1]; dsimp only; rw [sout0_B_0_eq]

/-- The up accumulator after point `t`, likewise with the up projection's tile. -/
theorem outsAt0_up (c : Dev nD) (t : Fin cfg0.N) :
    (outsAt0 V c t.val t.isLt).2.2
      = k0_pay3 (iblk0 V c 4 t) (iblk0 V c 6 t) (k0_pay15 (iblk0 V c 5 t)) (k0_pay16 (iblk0 V c 6 t)) (k0_pay17 (iblk0 V c 6 t)) (k0_pay18 (iblk0 V c 6 t)) (k0_pay19 (iblk0 V c 6 t)) (iblk0 V c 0 t) (if t.val % 4 = 0 then (k0_pay6 (F := F) : Vec F S1024x256 .f32) else (outsAt0 V c (t.val - 1) (Nat.lt_of_le_of_lt (Nat.sub_le _ _) t.isLt)).2.2) := by
  by_cases h0 : t.val % 4 = 0
  · have h1 : ¬t.val % 4 = 3 := by omega
    rw [outsAt0_A V c t h0 h1, if_pos h0]
    dsimp only; rw [sout0_A_1_eq]
  · rw [if_neg h0]
    by_cases h1 : t.val % 4 = 3
    · rw [outsAt0_C V c t h0 h1]; dsimp only; rw [sout0_C_1_eq]
    · rw [outsAt0_B V c t h0 h1]; dsimp only; rw [sout0_B_1_eq]

/-- The output tile after a last reduction step: `g · σ(g) · u` of the two accumulators as that step leaves them. -/
theorem outsAt0_out (c : Dev nD) (t : Fin cfg0.N) (h1 : t.val % 4 = 3) :
    (outsAt0 V c t.val t.isLt).1 = k0_pay4 (outsAt0 V c t.val t.isLt).2.1 (outsAt0 V c t.val t.isLt).2.2 := by
  have h0 : ¬t.val % 4 = 0 := by omega
  rw [outsAt0_C V c t h0 h1]
  dsimp only
  rw [out0_C_7_eq, sout0_C_0_eq, sout0_C_1_eq]

end Cert.KernelIdeal.Hand

end
-- ==== Proof.KI.Cover.lean ====
import proofs.«104653_j17798344475235_1_alg».proof.Proof.KI.Val0
import proofs.«104653_j17798344475235_1_alg».proof.Proof.KI.Val1

/-! # From the output blocks to the output arrays

Each region writes its output array block by block: region 0 writes the [1024, 256] block at rows
t / 172, columns t / 4 % 43 at the points t with t % 4 = 3, region 1 the [1024, 512] block at rows
t / 88, columns t / 11 % 8 at the points with t % 11 = 10. Every entry (R, C) of an output array lies
in the block one such point writes (the point of its row block, its column block and the last slice), so
if what each writing point writes is its block of one function of the whole index, the array ends holding
that function. -/

set_option maxRecDepth 16384

noncomputable section

namespace Cert.KernelIdeal.Hand

open Cert.KernelIdeal Cert.KernelIdeal.Gen Cert.Mlp
open Idealize.ShloMosaic Idealize.ShloMosaic.TcCoe ValueIdx
open Idealize.ShloMosaic.Pipeline (Dat Cfg Window)
open scoped BigOperators

variable (V : (c : Dev nD) → (b : Ref sig .tc) → Buf (Elt Ideal) ((c : Thread nD τ).loc b)) (c : Dev nD)

/-! ## Region 1: the down projection's array -/

/-- An index of the array is in point t's output block iff each coordinate is in the block's range on its axis. -/
theorem mem_blk1 (t : Fin cfg1.N) (i : S4096x4096.Idx) :
    i ∈ ((cfg1.win 4).blk t).view.set ↔ ∀ a : Fin 2, win1_4.index t a * S1024x512.size a ≤ (i a).val
      ∧ (i a).val < win1_4.index t a * S1024x512.size a + S1024x512.size a := by
  show i ∈ ((View.whole main_v7).slice (win1_4.rect t)).set ↔ _
  rw [View.set_slice_whole, Rect.mem_set_unit]
  exact Iff.rfl

/-- Every entry of the down projection's array is in the block some writing point writes: the point of its
    row block, its column block and the last slice. -/
theorem cover1 : ∀ i : S4096x4096.Idx, ∃ t : Fin cfg1.N, (cfg1.win 4).flush t = true ∧ i ∈ ((cfg1.win 4).blk t).view.set := by
  intro i
  have hi0 : (i 0).val < 4096 := (i 0).isLt
  have hi1 : (i 1).val < 4096 := (i 1).isLt
  have hN : cfg1.N = 352 := N_1
  obtain ⟨t, htv⟩ : ∃ t : Fin cfg1.N, t.val = ((i 0).val / 1024 * 8 + (i 1).val / 512) * 11 + 10 :=
    ⟨⟨((i 0).val / 1024 * 8 + (i 1).val / 512) * 11 + 10, by rw [hN]; omega⟩, rfl⟩
  obtain ⟨-, -, -, -, -, -, -, -, e0, e1⟩ := idx1 t
  refine ⟨t, (flush1_4 t).mpr (by rw [htv]; omega), ?_⟩
  rw [mem_blk1]
  intro a
  match a with
  | ⟨0, _⟩ =>
    show win1_4.index t (0 : Fin 2) * 1024 ≤ (i 0).val ∧ (i 0).val < win1_4.index t (0 : Fin 2) * 1024 + 1024
    rw [e0, htv]; omega
  | ⟨1, _⟩ =>
    show win1_4.index t (1 : Fin 2) * 512 ≤ (i 1).val ∧ (i 1).val < win1_4.index t (1 : Fin 2) * 512 + 512
    rw [e1, htv]; omega

/-- The down projection read where entry (r, j) of point t's output block sits in the array. -/
theorem G1_emb (t : Fin cfg1.N) (r : Fin 1024) (j : Fin 512) :
    G1 V c (((cfg1.win 4).blk t).view.emb (ix2 r j))
      = G1c V c ⟨t.val / 88 * 1024 + r.val, by have := tlt1 t; have := r.isLt; omega⟩
          ⟨t.val / 11 % 8 * 512 + j.val, by have := j.isLt; omega⟩ := by
  obtain ⟨-, -, -, -, -, -, -, -, e0, e1⟩ := idx1 t
  have h0 : ((((cfg1.win 4).blk t).view.emb (ix2 r j)) 0).val = t.val / 88 * 1024 + r.val := by
    show win1_4.index t (0 : Fin 2) * 1024 + 1 * r.val = _
    rw [e0]; omega
  have h1 : ((((cfg1.win 4).blk t).view.emb (ix2 r j)) 1).val = t.val / 11 % 8 * 512 + j.val := by
    show win1_4.index t (1 : Fin 2) * 512 + 1 * j.val = _
    rw [e1]; omega
  exact congrArg₂ (G1c V c) (Fin.ext h0) (Fin.ext h1)

/-- **The down projection's array after the region.** For any proof data of the region: if at every writing
    point the output's staging block holds S t, and S t is the down projection at the block's entries, the
    array ends holding the down projection. -/
theorem final1_of (dat : Dat τ (Elt Ideal) Unit ℕ (UR sig nD τ) ℕ cfg1 c) (S : (t : Fin cfg1.N) → Vec Ideal S1024x512 .f32)
    (hafter : ∀ t : Fin cfg1.N, t.val % 11 = 10 → dat.after 4 t = S t)
    (hS : ∀ t : Fin cfg1.N, t.val % 11 = 10 → ∀ (r : Fin 1024) (j : Fin 512), S t (ix2 r j)
      = G1c V c ⟨t.val / 88 * 1024 + r.val, by have := tlt1 t; have := r.isLt; omega⟩
          ⟨t.val / 11 % 8 * 512 + j.val, by have := j.isLt; omega⟩) :
    dat.arrAt 4 cfg1.N = G1 V c :=
  dat.arrAt_eq_of_cover 4 (G1 V c) (fun t hf => by
    have ht : t.val % 11 = 10 := (flush1_4 t).mp hf
    show (cfg1.win 4).cut (grid1.coords t) (dat.after 4 t) = _
    rw [hafter t ht]
    funext y
    obtain ⟨r, j, rfl⟩ : ∃ (r : Fin 1024) (j : Fin 512), y = ix2 r j := ⟨y 0, y 1, eq_ix2 y⟩
    show S t (ix2 r j) = G1 V c (((cfg1.win 4).blk t).view.emb (ix2 r j))
    exact (hS t ht r j).trans (G1_emb V c t r j).symm) cover1

/-! ## Region 0: the hidden activations' array -/

/-- An index of the array is in point t's output block iff each coordinate is in the block's range on its axis. -/
theorem mem_blk0 (t : Fin cfg0.N) (i : S4096x11008.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v2).slice (win0_7.rect t)).set ↔ _
  rw [View.set_slice_whole, Rect.mem_set_unit]
  exact Iff.rfl

/-- Every entry of the hidden activations' array is in the block some writing point writes: the point of its
    row block, its column block and the last slice. -/
theorem cover0 : ∀ i : S4096x11008.Idx, ∃ t : Fin cfg0.N, (cfg0.win 7).flush t = true ∧ i ∈ ((cfg0.win 7).blk t).view.set := by
  intro i
  have hi0 : (i 0).val < 4096 := (i 0).isLt
  have hi1 : (i 1).val < 11008 := (i 1).isLt
  have hN : cfg0.N = 688 := N_0
  obtain ⟨t, htv⟩ : ∃ t : Fin cfg0.N, t.val = ((i 0).val / 1024 * 43 + (i 1).val / 256) * 4 + 3 :=
    ⟨⟨((i 0).val / 1024 * 43 + (i 1).val / 256) * 4 + 3, by rw [hN]; omega⟩, rfl⟩
  obtain ⟨-, -, -, -, -, -, -, -, -, -, -, -, -, -, e0, e1, -⟩ := idx0 t
  refine ⟨t, (flush0_7 t).mpr (by rw [htv]; omega), ?_⟩
  rw [mem_blk0]
  intro a
  match a with
  | ⟨0, _⟩ =>
    show win0_7.index t (0 : Fin 2) * 1024 ≤ (i 0).val ∧ (i 0).val < win0_7.index t (0 : Fin 2) * 1024 + 1024
    rw [e0, htv]; omega
  | ⟨1, _⟩ =>
    show win0_7.index t (1 : Fin 2) * 256 ≤ (i 1).val ∧ (i 1).val < win0_7.index t (1 : Fin 2) * 256 + 256
    rw [e1, htv]; omega

/-- The hidden activations read where entry (r, j) of point t's output block sits in the array. -/
theorem G0_emb (t : Fin cfg0.N) (r : Fin 1024) (j : Fin 256) :
    G0 V c (((cfg0.win 7).blk t).view.emb (ix2 r j))
      = hidden (xM V c) (wgM V c) (wuM V c) ⟨t.val / 172 * 1024 + r.val, by have := tlt0 t; have := r.isLt; omega⟩
          ⟨t.val / 4 % 43 * 256 + j.val, by have := j.isLt; omega⟩ := by
  obtain ⟨-, -, -, -, -, -, -, -, -, -, -, -, -, -, e0, e1, -⟩ := idx0 t
  have h0 : ((((cfg0.win 7).blk t).view.emb (ix2 r j)) 0).val = t.val / 172 * 1024 + r.val := by
    show win0_7.index t (0 : Fin 2) * 1024 + 1 * r.val = _
    rw [e0]; omega
  have h1 : ((((cfg0.win 7).blk t).view.emb (ix2 r j)) 1).val = t.val / 4 % 43 * 256 + j.val := by
    show win0_7.index t (1 : Fin 2) * 256 + 1 * j.val = _
    rw [e1]; omega
  exact congrArg₂ (hidden (xM V c) (wgM V c) (wuM V c)) (Fin.ext h0) (Fin.ext h1)

/-- **The hidden activations' array after the region.** For any proof data of the region: if at every writing
    point the output's staging block holds S t, and S t is the hidden activation at the block's entries, the
    array ends holding the hidden activations. -/
theorem final0_of (dat : Dat τ (Elt Ideal) Unit ℕ (UR sig nD τ) ℕ cfg0 c) (S : (t : Fin cfg0.N) → Vec Ideal S1024x256 .bf16)
    (hafter : ∀ t : Fin cfg0.N, t.val % 4 = 3 → dat.after 7 t = S t)
    (hS : ∀ t : Fin cfg0.N, t.val % 4 = 3 → ∀ (r : Fin 1024) (j : Fin 256), S t (ix2 r j)
      = hidden (xM V c) (wgM V c) (wuM V c) ⟨t.val / 172 * 1024 + r.val, by have := tlt0 t; have := r.isLt; omega⟩
          ⟨t.val / 4 % 43 * 256 + j.val, by have := j.isLt; omega⟩) :
    dat.arrAt 7 cfg0.N = G0 V c :=
  dat.arrAt_eq_of_cover 7 (G0 V c) (fun t hf => by
    have ht : t.val % 4 = 3 := (flush0_7 t).mp hf
    show (cfg0.win 7).cut (grid0.coords t) (dat.after 7 t) = _
    rw [hafter t ht]
    funext y
    obtain ⟨r, j, rfl⟩ : ∃ (r : Fin 1024) (j : Fin 256), y = ix2 r j := ⟨y 0, y 1, eq_ix2 y⟩
    show S t (ix2 r j) = G0 V c (((cfg0.win 7).blk t).view.emb (ix2 r j))
    exact (hS t ht r j).trans (G0_emb V c t r j).symm) cover0

end Cert.KernelIdeal.Hand

end
-- ==== Proof.KI.Final0.lean ====
import proofs.«104653_j17798344475235_1_alg».proof.Proof.KI.R0Pieces
import proofs.«104653_j17798344475235_1_alg».proof.Proof.KI.Val0
import proofs.«104653_j17798344475235_1_alg».proof.Proof.KI.Cover

/-! # The hidden activations' array after the first call

Each of the two accumulators the body carries restarts, where the reduction step is 0, at the zeros plus the point's
partial dot product, and elsewhere adds the point's partial dot product to what it held; where the step is 3 the point
writes `g · (1 / (1 + e^(0 − g))) · u` of the two into its output block. So the array ends holding, at every entry,
that expression of the two dot products over all four slices. -/

set_option maxRecDepth 16384

noncomputable section

namespace Cert.KernelIdeal.Hand

open Cert.KernelIdeal Cert.KernelIdeal.Gen Cert.Mlp
open Idealize.ShloMosaic Idealize.ShloMosaic.TcCoe ValueIdx
open Idealize.ShloMosaic.Pipeline (Dat Cfg Window)
open scoped BigOperators

variable (V : (c : Dev nD) → (b : Ref sig .tc) → Buf (Elt Ideal) ((c : Thread nD τ).loc b)) (c : Dev nD)

theorem lt_N0 {t : ℕ} (h : t < 688) : t < cfg0.N := lt_of_lt_of_eq h (show cfg0.N = 688 from N_0).symm

/-- The gate accumulator after position `t`, entry by entry (zero past the grid: never consulted). -/
def Sg0 (t : ℕ) (r : Fin 1024) (j : Fin 256) : EReal :=
  if h : t < cfg0.N then (outsAt0 (F := Ideal) V c t h).2.1 (ix2 r j) else 0
/-- The up accumulator after position `t`. -/
def Su0 (t : ℕ) (r : Fin 1024) (j : Fin 256) : EReal :=
  if h : t < cfg0.N then (outsAt0 (F := Ideal) V c t h).2.2 (ix2 r j) else 0

/-- Where the step is 0 the gate accumulator is the point's partial dot product (over the zeros just stored). -/
theorem Sg0_reset : ∀ t, t < 688 → t % 4 = 0 → ∀ r j, Sg0 V c t r j = Pg V c t r j := by
  intro t ht h0 r j
  unfold Sg0
  rw [dif_pos (lt_N0 ht)]
  show (outsAt0 (F := Ideal) V c (⟨t, lt_N0 ht⟩ : Fin cfg0.N).val (⟨t, lt_N0 ht⟩ : Fin cfg0.N).isLt).2.1 (ix2 r j) = _
  rw [outsAt0_gate V c ⟨t, lt_N0 ht⟩, if_pos h0]
  exact (accG_apply V c ⟨t, lt_N0 ht⟩ _ r j).trans (by rw [Pay.k0_pay5_apply, zero_add])

/-- Elsewhere it is what the position before left plus the point's partial dot product. -/
theorem Sg0_step : ∀ t, t < 688 → t % 4 ≠ 0 → ∀ r j, Sg0 V c t r j = Sg0 V c (t - 1) r j + Pg V c t r j := by
  intro t ht h0 r j
  unfold Sg0
  rw [dif_pos (lt_N0 ht), dif_pos (lt_N0 (by omega : t - 1 < 688))]
  show (outsAt0 (F := Ideal) V c (⟨t, lt_N0 ht⟩ : Fin cfg0.N).val (⟨t, lt_N0 ht⟩ : Fin cfg0.N).isLt).2.1 (ix2 r j) = _
  rw [outsAt0_gate V c ⟨t, lt_N0 ht⟩, if_neg h0]
  exact accG_apply V c ⟨t, lt_N0 ht⟩ _ r j

/-- The same two facts for the up accumulator. -/
theorem Su0_reset : ∀ t, t < 688 → t % 4 = 0 → ∀ r j, Su0 V c t r j = Pu V c t r j := by
  intro t ht h0 r j
  unfold Su0
  rw [dif_pos (lt_N0 ht)]
  show (outsAt0 (F := Ideal) V c (⟨t, lt_N0 ht⟩ : Fin cfg0.N).val (⟨t, lt_N0 ht⟩ : Fin cfg0.N).isLt).2.2 (ix2 r j) = _
  rw [outsAt0_up V c ⟨t, lt_N0 ht⟩, if_pos h0]
  exact (accU_apply V c ⟨t, lt_N0 ht⟩ _ r j).trans (by rw [Pay.k0_pay6_apply, zero_add])

theorem Su0_step : ∀ t, t < 688 → t % 4 ≠ 0 → ∀ r j, Su0 V c t r j = Su0 V c (t - 1) r j + Pu V c t r j := by
  intro t ht h0 r j
  unfold Su0
  rw [dif_pos (lt_N0 ht), dif_pos (lt_N0 (by omega : t - 1 < 688))]
  show (outsAt0 (F := Ideal) V c (⟨t, lt_N0 ht⟩ : Fin cfg0.N).val (⟨t, lt_N0 ht⟩ : Fin cfg0.N).isLt).2.2 (ix2 r j) = _
  rw [outsAt0_up V c ⟨t, lt_N0 ht⟩, if_neg h0]
  exact accU_apply V c ⟨t, lt_N0 ht⟩ _ r j

/-- **The hidden activations' array after the call**: at every entry, the gated product of the two full dot products
    of the activations' row with the dequantised gate and up columns. -/
theorem final0 : (dat0 (F := Ideal) V c).arrAt 7 cfg0.N = G0 V c :=
  final0_of V c (dat0 V c) (fun t => (outsAt0 (F := Ideal) V c t.val t.isLt).1)
    (fun t _ => after0_7 V c t)
    (fun t ht r j => by
      have hg := acc0_at_last V c (wgM V c) (Pg V c) (Pg_eq V c) (Sg0 V c) (Sg0_reset V c) (Sg0_step V c) t.val (tlt0 t) ht r j
      have hu := acc0_at_last V c (wuM V c) (Pu V c) (Pu_eq V c) (Su0 V c) (Su0_reset V c) (Su0_step V c) t.val (tlt0 t) ht r j
      rw [outsAt0_out V c t ht]
      refine out0_entry V c _ _ t.val (tlt0 t) r j ?_ ?_
      · rw [← hg]; unfold Sg0; rw [dif_pos t.isLt]
      · rw [← hu]; unfold Su0; rw [dif_pos t.isLt])

end Cert.KernelIdeal.Hand

end
-- ==== Proof.KI.R1Pieces.lean ====
import proofs.«104653_j17798344475235_1_alg».proof.Proof.KI.R1
import Idealize.ShloMosaic.Lib.Pipeline.Value

-- the blocks' long axis has 1024 coordinates
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffers as the second kernel call finds them on entry: a parameter of everything below
variable (V : (c : Dev nD) → (b : Ref sig .tc) → Buf (Elt F) ((c : Thread nD τ).loc b))

/-! # The down-projection call: the found pieces as values

Each case's run left ONE covering store in the accumulator (and, where `k = 10`, one in the output block). Read
back, the accumulator is the store's payload `k1_pay1` — `acc + h_blk · dequant(w_blk)` — of the point's input blocks
and of what the accumulator held: the zeros just stored where `k = 0`, else what it entered at. The output block,
where it is stored, receives the accumulator itself. -/

/-- Every access of the body is at offsets `[0, 0]` over the whole memref. -/
theorem hz1 : (![0, 0] : Fin 2 → Nat) = fun _ => 0 := funext fun a => by fin_cases a <;> rfl

/-- `0 < k < 10`: the accumulator entered at `xs0` leaves `xs0 + x0 · dequant(x1, x2, x3)`. -/
theorem sout1_B_0_eq (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .i32) (x2 : Vec F S8x512 .i32) (x3 : Vec F S8x512 .f32) (xs0 : Vec F S1024x512 .f32) :
    sout1_B_0 c i arg3 harg3 arg4 harg4 arg5 harg5 arg6 harg6 arg7 harg7 arg8 harg8 hc0 hc1 x0 x1 x2 x3 xs0 = k1_pay1 (k1_pay3 x1) (k1_pay4 x3) (k1_pay5 x2) (k1_pay6 x3) (k1_pay7 x3) (k1_pay8 x3) (k1_pay9 x3) (k1_pay10 x3) x0 xs0 := by
  unfold sout1_B_0
  rw [View.read_writes_eq_canon _ _ _ (scover1_B_0 c i arg3 harg3 arg4 harg4 arg5 harg5 arg6 harg6 arg7 harg7 arg8 harg8 hc0 hc1 x0 x1 x2 x3 xs0)]
  unfold kernelRun1_B
  dsimp only
  sl_unfold_words
  rw [View.canon_unit_zero hz1]
  simp only [View.readAt_eq_ld, harg3.read_unread, harg4.read_unread, harg5.read_unread, harg6.read_unread, harg8.read_unread,
    View.ld_unit_zero (S := S1024x1024) hz1, View.ld_unit_zero (S := S1024x512) hz1, View.ld_unit_zero (S := S8x512) hz1]

/-- `k = 0`: the accumulator is zeroed, read back, and leaves `0 + x0 · dequant(x1, x2, x3)`. -/
theorem sout1_A_0_eq (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .i32) (x2 : Vec F S8x512 .i32) (x3 : Vec F S8x512 .f32) :
    sout1_A_0 c i arg3 harg3 arg4 harg4 arg5 harg5 arg6 harg6 arg7 harg7 arg8 harg8 hc0 hc1 x0 x1 x2 x3 = k1_pay1 (k1_pay3 x1) (k1_pay4 x3) (k1_pay5 x2) (k1_pay6 x3) (k1_pay7 x3) (k1_pay8 x3) (k1_pay9 x3) (k1_pay10 x3) x0 (k1_pay2 (F := F)) := by
  unfold sout1_A_0
  rw [View.read_writes_eq_canon _ _ _ (scover1_A_0 c i arg3 harg3 arg4 harg4 arg5 harg5 arg6 harg6 arg7 harg7 arg8 harg8 hc0 hc1 x0 x1 x2 x3)]
  unfold kernelRun1_A
  dsimp only
  sl_unfold_words
  rw [View.canon_cons_unit_zero (S := S1024x512) hz1, View.readCov_unit_zero (S := S1024x512) _ hz1]
  simp only [View.readAt_eq_ld, harg3.read_unread, harg4.read_unread, harg5.read_unread, harg6.read_unread, harg8.read_unread,
    View.ld_unit_zero (S := S1024x1024) hz1, View.ld_unit_zero (S := S1024x512) hz1, View.ld_unit_zero (S := S8x512) hz1]

/-- `k = 10`: the accumulator as where `0 < k < 10`, -/
theorem sout1_C_0_eq (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) :
    sout1_C_0 c i arg3 harg3 arg4 harg4 arg5 harg5 arg6 harg6 arg7 harg7 arg8 harg8 hc0 hc1 x0 x1 x2 x3 xs0 = k1_pay1 (k1_pay3 x1) (k1_pay4 x3) (k1_pay5 x2) (k1_pay6 x3) (k1_pay7 x3) (k1_pay8 x3) (k1_pay9 x3) (k1_pay10 x3) x0 xs0 := by
  unfold sout1_C_0
  rw [View.read_writes_eq_canon _ _ _ (scover1_C_0 c i arg3 harg3 arg4 harg4 arg5 harg5 arg6 harg6 arg7 harg7 arg8 harg8 hc0 hc1 x0 x1 x2 x3 xs0)]
  unfold kernelRun1_C
  dsimp only
  sl_unfold_words
  rw [View.canon_unit_zero hz1]
  simp only [View.readAt_eq_ld, harg3.read_unread, harg4.read_unread, harg5.read_unread, harg6.read_unread, harg8.read_unread,
    View.ld_unit_zero (S := S1024x1024) hz1, View.ld_unit_zero (S := S1024x512) hz1, View.ld_unit_zero (S := S8x512) hz1]

/-- and the output block receives that accumulator (loaded back after its store). -/
theorem out1_C_4_eq (c : Dev nD) (i : grid1.Coords) (arg3 : Memref sig .tc .vmem S1024x1024 .bf16) (harg3 : arg3.IsWhole) (arg4 : Memref sig .tc .vmem S1024x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .i32) (x2 : Vec F S8x512 .i32) (x3 : Vec F S8x512 .f32) (xs0 : Vec F S1024x512 .f32) :
    out1_C_4 c i arg3 harg3 arg4 harg4 arg5 harg5 arg6 harg6 arg7 harg7 arg8 harg8 hc0 hc1 x0 x1 x2 x3 xs0 = k1_pay1 (k1_pay3 x1) (k1_pay4 x3) (k1_pay5 x2) (k1_pay6 x3) (k1_pay7 x3) (k1_pay8 x3) (k1_pay9 x3) (k1_pay10 x3) x0 xs0 := by
  unfold out1_C_4
  rw [View.read_writes_eq_canon _ _ _ (cover1_C_4 c i arg3 harg3 arg4 harg4 arg5 harg5 arg6 harg6 arg7 harg7 arg8 harg8 hc0 hc1 x0 x1 x2 x3 xs0)]
  unfold kernelRun1_C
  dsimp only
  sl_unfold_words
  rw [View.canon_unit_zero hz1, View.readCov_unit_zero (S := S1024x512) _ hz1]
  simp only [View.readAt_eq_ld, harg3.read_unread, harg4.read_unread, harg5.read_unread, harg6.read_unread, harg8.read_unread,
    View.ld_unit_zero (S := S1024x1024) hz1, View.ld_unit_zero (S := S1024x512) hz1, View.ld_unit_zero (S := S8x512) hz1]

/-! ## Over the grid -/

/-- THE ACCUMULATION, at every point: the accumulator after point `t` is the payload of the point's blocks over the
    zeros where `k = 0`, else over what the point before left. -/
theorem acc1_eq (c : Dev nD) (t : Fin cfg1.N) :
    (outsAt1 V c t.val t.isLt).2
      = k1_pay1 (k1_pay3 (iblk1 V c 1 t)) (k1_pay4 (iblk1 V c 3 t)) (k1_pay5 (iblk1 V c 2 t)) (k1_pay6 (iblk1 V c 3 t)) (k1_pay7 (iblk1 V c 3 t)) (k1_pay8 (iblk1 V c 3 t)) (k1_pay9 (iblk1 V c 3 t)) (k1_pay10 (iblk1 V c 3 t)) (iblk1 V c 0 t) (if t.val % 11 = 0 then k1_pay2 (F := F) else (outsAt1 V c (t.val - 1) (pred_lt1 t)).2) := by
  by_cases h0 : t.val % 11 = 0
  · rw [outsAt1_A V c t h0, if_pos h0]
    dsimp only
    unfold accA1
    exact sout1_A_0_eq ..
  · by_cases h1 : t.val % 11 = 10
    · rw [outsAt1_C V c t h0 h1, if_neg h0]
      dsimp only
      unfold accC1
      exact sout1_C_0_eq ..
    · rw [outsAt1_B V c t h0 h1, if_neg h0]
      dsimp only
      unfold accB1
      exact sout1_B_0_eq ..

/-- Where `k = 10` the output's staging buffer ends holding the accumulator. -/
theorem out1_eq_acc (c : Dev nD) (t : Fin cfg1.N) (h1 : t.val % 11 = 10) :
    (outsAt1 V c t.val t.isLt).1 = (outsAt1 V c t.val t.isLt).2 := by
  have h0 : ¬t.val % 11 = 0 := by omega
  rw [outsAt1_C V c t h0 h1]
  dsimp only
  unfold outC1 accC1
  rw [out1_C_4_eq, sout1_C_0_eq]

/-- So what such a point writes back is the accumulation up to it. -/
theorem after1_4_emit (c : Dev nD) (t : Fin cfg1.N) (h1 : t.val % 11 = 10) :
    (dat1 V c).after 4 t = (outsAt1 V c t.val t.isLt).2 := by
  rw [after1_4, out1_eq_acc V c t h1]

end Cert.KernelIdeal.Hand

end
-- ==== Proof.KI.Final1.lean ====
import proofs.«104653_j17798344475235_1_alg».proof.Proof.KI.R1Pieces
import proofs.«104653_j17798344475235_1_alg».proof.Proof.KI.Val1
import proofs.«104653_j17798344475235_1_alg».proof.Proof.KI.Cover

/-! # The down projection's array after its call

The accumulator the body carries restarts at the zeros plus the point's partial dot product where `k = 0` and adds
the point's partial dot product to what it held elsewhere; where `k = 10` it is what the point writes back. So the
array ends holding, at every entry, the dot product over all eleven slices. -/

set_option maxRecDepth 16384

noncomputable section

namespace Cert.KernelIdeal.Hand

open Cert.KernelIdeal Cert.KernelIdeal.Gen Cert.Mlp
open Idealize.ShloMosaic Idealize.ShloMosaic.TcCoe ValueIdx
open Idealize.ShloMosaic.Pipeline (Dat Cfg Window)
open scoped BigOperators

variable (V : (c : Dev nD) → (b : Ref sig .tc) → Buf (Elt Ideal) ((c : Thread nD τ).loc b)) (c : Dev nD)

theorem lt_N1 {t : ℕ} (h : t < 352) : t < cfg1.N := lt_of_lt_of_eq h (show cfg1.N = 352 from N_1).symm

/-- The accumulator after position `t`, entry by entry (zero past the grid: never consulted). -/
def S1 (t : ℕ) (r : Fin 1024) (j : Fin 512) : EReal :=
  if h : t < cfg1.N then (outsAt1 (F := Ideal) V c t h).2 (ix2 r j) else 0

/-- Where `k = 0` it is the point's partial dot product (over the zeros just stored). -/
theorem S1_reset : ∀ t, t < 352 → t % 11 = 0 → ∀ r j, S1 V c t r j = P1 V c t r j := by
  intro t ht h0 r j
  unfold S1
  rw [dif_pos (lt_N1 ht)]
  show (outsAt1 (F := Ideal) V c (⟨t, lt_N1 ht⟩ : Fin cfg1.N).val (⟨t, lt_N1 ht⟩ : Fin cfg1.N).isLt).2 (ix2 r j) = _
  rw [acc1_eq V c ⟨t, lt_N1 ht⟩, if_pos h0]
  exact (acc1_apply V c ⟨t, lt_N1 ht⟩ _ r j).trans (by rw [Pay.k1_pay2_apply, zero_add])

/-- Elsewhere it is what the position before left plus the point's partial dot product. -/
theorem S1_step : ∀ t, t < 352 → t % 11 ≠ 0 → ∀ r j, S1 V c t r j = S1 V c (t - 1) r j + P1 V c t r j := by
  intro t ht h0 r j
  unfold S1
  rw [dif_pos (lt_N1 ht), dif_pos (lt_N1 (by omega : t - 1 < 352))]
  show (outsAt1 (F := Ideal) V c (⟨t, lt_N1 ht⟩ : Fin cfg1.N).val (⟨t, lt_N1 ht⟩ : Fin cfg1.N).isLt).2 (ix2 r j) = _
  rw [acc1_eq V c ⟨t, lt_N1 ht⟩, if_neg h0]
  exact acc1_apply V c ⟨t, lt_N1 ht⟩ _ r j

/-- **The down projection's array after the call**: row-times-column of the padded activations and the padded
    dequantised weights, at every entry. -/
theorem final1 : (dat1 (F := Ideal) V c).arrAt 4 cfg1.N = G1 V c :=
  final1_of V c (dat1 V c) (fun t => (outsAt1 (F := Ideal) V c t.val t.isLt).2)
    (fun t ht => after1_4_emit V c t ht)
    (fun t ht r j => by
      have h := acc1_at_last V c (S1 V c) (S1_reset V c) (S1_step V c) t.val (tlt1 t) ht r j
      rw [← h]; unfold S1; rw [dif_pos t.isLt])

end Cert.KernelIdeal.Hand

end
-- ==== Proof.KI.Value.lean ====
/-
  The kernel's result is the specification of its arguments: the bridge of KI/Bridge at what the two regions leave.
-/
import proofs.«104653_j17798344475235_1_alg».proof.Proof.KI.Bridge
import proofs.«104653_j17798344475235_1_alg».proof.Proof.KI.Final0
import proofs.«104653_j17798344475235_1_alg».proof.Proof.KI.Final1

noncomputable section

namespace Cert.KernelIdeal.Hand

open Cert.KernelIdeal Cert.KernelIdeal.Gen Cert.Mlp
open Idealize.ShloMosaic Idealize.ShloMosaic.TcCoe ValueIdx

/-- The result buffer at the end of the idealized kernel's run, as a function of the argument arrays. -/
theorem kernel_value (m : (ℓ : Loc nD τ sig) → Buf (Elt Ideal) ℓ) (c : Dev nD) :
    (W12 m c (Proc.devRef .tc main_v8) : S2x2048x4096.Idx → EReal)
      = fun i => Cert.Mlp.out (X (m ((c : Thread nD τ).loc main_arg0)))
          (deq rows_4096 (Q (m ((c : Thread nD τ).loc main_arg1))) (Q (m ((c : Thread nD τ).loc main_arg2))) (Mat (m ((c : Thread nD τ).loc main_arg3))))
          (deq rows_4096 (Q (m ((c : Thread nD τ).loc main_arg4))) (Q (m ((c : Thread nD τ).loc main_arg5))) (Mat (m ((c : Thread nD τ).loc main_arg6))))
          (deq rows_11008 (Q (m ((c : Thread nD τ).loc main_arg7))) (Q (m ((c : Thread nD τ).loc main_arg8))) (Mat (m ((c : Thread nD τ).loc main_arg9))))
          ⟨2048 * (i 0).val + (i 1).val, by have h0 : (i 0).val < 2 := (i 0).isLt; have h1 : (i 1).val < 2048 := (i 1).isLt; omega⟩
          ⟨(i 2).val, (i 2).isLt⟩ :=
  kernel_value_of m c (final0 (E1 m) c) (final1 (E10 m) c)

end Cert.KernelIdeal.Hand

end
-- ==== Proof.RefSpec.lean ====
/-
  The reference program computes the specification.

  The reference restores each weight matrix by converting the words, repeating every group row 128
  times (a broadcast along a new middle axis, then a reshape that merges it into the rows),
  subtracting and multiplying; contracts the input with the gate and up matrices; applies the gate
  through a called function that spells it negate, exponential, one plus, one over, times; and
  contracts the product with the down matrix. Read at one index, operation by operation, that is
  `Cert.Mlp.out` of the arrays read as matrices.
-/
import proofs.«104653_j17798344475235_1_alg».proof.Proof.Spec
import proofs.«104653_j17798344475235_1_alg».proof.Proof.Gen.ReferenceIdeal.Read

noncomputable section

open scoped BigOperators

namespace Cert.ReferenceIdeal.RefSpec

open Cert.ReferenceIdeal Cert.ReferenceIdeal.Gen Cert.ReferenceIdeal.Read
open Idealize.ShloMosaic Idealize.ShloMosaic.ValueIdx Cert.Mlp

/-! ### A repeated group row, read at an entry

Repeating each of `G` rows 128 times is printed as a broadcast to `[G, 128, B]` followed by a
reshape to `[128 · G, B]`. Entry `(k, j)` of the result sits at flat position `k · B + j`, which in
`[G, 128, B]` is `(k / 128, k % 128, j)`; the broadcast forgets the middle coordinate. -/

/-- The gate matrix's zero points: entry `(k, j)` of the repeated array is entry `(k / 128, j)`. -/
theorem group_row_gate_zero (k : Fin 4096) (j : Fin 11008) :
    idx_main_v1 (idx_main_v2 (ix2 k j)) = ix2 (⟨k.val / 128, by have := k.isLt; omega⟩ : Fin 32) j := by
  have hk := k.isLt
  have hj := j.isLt
  funext a
  match a with
  | ⟨0, _⟩ => exact Fin.ext (by show (k.val * 11008 + j.val) / 1409024 = k.val / 128; omega)
  | ⟨1, _⟩ => exact Fin.ext (by show (k.val * 11008 + j.val) % 11008 = j.val; omega)

/-- The gate matrix's scales: entry `(k, j)` of the repeated array is entry `(k / 128, j)`. -/
theorem group_row_gate_scale (k : Fin 4096) (j : Fin 11008) :
    idx_main_v3 (idx_main_v4 (ix2 k j)) = ix2 (⟨k.val / 128, by have := k.isLt; omega⟩ : Fin 32) j := by
  have hk := k.isLt
  have hj := j.isLt
  funext a
  match a with
  | ⟨0, _⟩ => exact Fin.ext (by show (k.val * 11008 + j.val) / 1409024 = k.val / 128; omega)
  | ⟨1, _⟩ => exact Fin.ext (by show (k.val * 11008 + j.val) % 11008 = j.val; omega)

/-- The up matrix's zero points: entry `(k, j)` of the repeated array is entry `(k / 128, j)`. -/
theorem group_row_up_zero (k : Fin 4096) (j : Fin 11008) :
    idx_main_v9 (idx_main_v10 (ix2 k j)) = ix2 (⟨k.val / 128, by have := k.isLt; omega⟩ : Fin 32) j := by
  have hk := k.isLt
  have hj := j.isLt
  funext a
  match a with
  | ⟨0, _⟩ => exact Fin.ext (by show (k.val * 11008 + j.val) / 1409024 = k.val / 128; omega)
  | ⟨1, _⟩ => exact Fin.ext (by show (k.val * 11008 + j.val) % 11008 = j.val; omega)

/-- The up matrix's scales: entry `(k, j)` of the repeated array is entry `(k / 128, j)`. -/
theorem group_row_up_scale (k : Fin 4096) (j : Fin 11008) :
    idx_main_v11 (idx_main_v12 (ix2 k j)) = ix2 (⟨k.val / 128, by have := k.isLt; omega⟩ : Fin 32) j := by
  have hk := k.isLt
  have hj := j.isLt
  funext a
  match a with
  | ⟨0, _⟩ => exact Fin.ext (by show (k.val * 11008 + j.val) / 1409024 = k.val / 128; omega)
  | ⟨1, _⟩ => exact Fin.ext (by show (k.val * 11008 + j.val) % 11008 = j.val; omega)

/-- The down matrix's zero points: entry `(k, j)` of the repeated array is entry `(k / 128, j)`. -/
theorem group_row_down_zero (k : Fin 11008) (j : Fin 4096) :
    idx_main_v17 (idx_main_v18 (ix2 k j)) = ix2 (⟨k.val / 128, by have := k.isLt; omega⟩ : Fin 86) j := by
  have hk := k.isLt
  have hj := j.isLt
  funext a
  match a with
  | ⟨0, _⟩ => exact Fin.ext (by show (k.val * 4096 + j.val) / 524288 = k.val / 128; omega)
  | ⟨1, _⟩ => exact Fin.ext (by show (k.val * 4096 + j.val) % 4096 = j.val; omega)

/-- The down matrix's scales: entry `(k, j)` of the repeated array is entry `(k / 128, j)`. -/
theorem group_row_down_scale (k : Fin 11008) (j : Fin 4096) :
    idx_main_v19 (idx_main_v20 (ix2 k j)) = ix2 (⟨k.val / 128, by have := k.isLt; omega⟩ : Fin 86) j := by
  have hk := k.isLt
  have hj := j.isLt
  funext a
  match a with
  | ⟨0, _⟩ => exact Fin.ext (by show (k.val * 4096 + j.val) / 524288 = k.val / 128; omega)
  | ⟨1, _⟩ => exact Fin.ext (by show (k.val * 4096 + j.val) % 4096 = j.val; omega)

/-! ### The three restored weight matrices -/

/-- The restored gate matrix at `(k, j)`. -/
theorem gate_weight (x1 : (⟨S4096x11008, .i32⟩ : BufTy).Contents (Elt Ideal)) (x2 : (⟨S32x11008, .i32⟩ : BufTy).Contents (Elt Ideal)) (x3 : (⟨S32x11008, .f32⟩ : BufTy).Contents (Elt Ideal)) (k : Fin 4096) (j : Fin 11008) :
    val_main_v7 (F := Ideal) x1 x2 x3 (ix2 k j) = deq rows_4096 (Q x1) (Q x2) (Mat x3) k j := by
  rw [val_main_v7_apply, val_main_v6_apply, val_main_v5_apply, val_main_v2_apply, val_main_v1_apply, val_main_v0_apply,
    val_main_v4_apply, val_main_v3_apply, group_row_gate_zero k j, group_row_gate_scale k j]
  rfl

/-- The restored up matrix at `(k, j)`. -/
theorem up_weight (x4 : (⟨S4096x11008, .i32⟩ : BufTy).Contents (Elt Ideal)) (x5 : (⟨S32x11008, .i32⟩ : BufTy).Contents (Elt Ideal)) (x6 : (⟨S32x11008, .f32⟩ : BufTy).Contents (Elt Ideal)) (k : Fin 4096) (j : Fin 11008) :
    val_main_v15 (F := Ideal) x4 x5 x6 (ix2 k j) = deq rows_4096 (Q x4) (Q x5) (Mat x6) k j := by
  rw [val_main_v15_apply, val_main_v14_apply, val_main_v13_apply, val_main_v10_apply, val_main_v9_apply, val_main_v8_apply,
    val_main_v12_apply, val_main_v11_apply, group_row_up_zero k j, group_row_up_scale k j]
  rfl

/-- The restored down matrix at `(k, j)`. -/
theorem down_weight (x7 : (⟨S11008x4096, .i32⟩ : BufTy).Contents (Elt Ideal)) (x8 : (⟨S86x4096, .i32⟩ : BufTy).Contents (Elt Ideal)) (x9 : (⟨S86x4096, .f32⟩ : BufTy).Contents (Elt Ideal)) (k : Fin 11008) (j : Fin 4096) :
    val_main_v23 (F := Ideal) x7 x8 x9 (ix2 k j) = deq rows_11008 (Q x7) (Q x8) (Mat x9) k j := by
  rw [val_main_v23_apply, val_main_v22_apply, val_main_v21_apply, val_main_v18_apply, val_main_v17_apply, val_main_v16_apply,
    val_main_v20_apply, val_main_v19_apply, group_row_down_zero k j, group_row_down_scale k j]
  rfl

/-! ### The contractions' operand indices -/

theorem lidx_v24 (b : Fin 2) (s : Fin 2048) (j : Fin 11008) (k : Fin 4096) :
    lidx_main_v24 (ix3 b s j) k = ix3 b s k :=
  funext fun a => by match a with | ⟨0, _⟩ => rfl | ⟨1, _⟩ => rfl | ⟨2, _⟩ => rfl
theorem ridx_v24 (b : Fin 2) (s : Fin 2048) (j : Fin 11008) (k : Fin 4096) :
    ridx_main_v24 (ix3 b s j) k = ix2 k j :=
  funext fun a => by match a with | ⟨0, _⟩ => rfl | ⟨1, _⟩ => rfl

theorem lidx_v25 (b : Fin 2) (s : Fin 2048) (j : Fin 11008) (k : Fin 4096) :
    lidx_main_v25 (ix3 b s j) k = ix3 b s k :=
  funext fun a => by match a with | ⟨0, _⟩ => rfl | ⟨1, _⟩ => rfl | ⟨2, _⟩ => rfl
theorem ridx_v25 (b : Fin 2) (s : Fin 2048) (j : Fin 11008) (k : Fin 4096) :
    ridx_main_v25 (ix3 b s j) k = ix2 k j :=
  funext fun a => by match a with | ⟨0, _⟩ => rfl | ⟨1, _⟩ => rfl

theorem lidx_v28 (b : Fin 2) (s : Fin 2048) (d : Fin 4096) (k : Fin 11008) :
    lidx_main_v28 (ix3 b s d) k = ix3 b s k :=
  funext fun a => by match a with | ⟨0, _⟩ => rfl | ⟨1, _⟩ => rfl | ⟨2, _⟩ => rfl
theorem ridx_v28 (b : Fin 2) (s : Fin 2048) (d : Fin 4096) (k : Fin 11008) :
    ridx_main_v28 (ix3 b s d) k = ix2 k d :=
  funext fun a => by match a with | ⟨0, _⟩ => rfl | ⟨1, _⟩ => rfl

/-! ### The hidden activation -/

/-- The flat number of position `s` of batch `b`. -/
def flatRow (b : Fin 2) (s : Fin 2048) : Fin 4096 :=
  ⟨2048 * b.val + s.val, by have := b.isLt; have := s.isLt; omega⟩

/-- The first contraction: the input row against the restored gate matrix. -/
theorem gate_dot (x0 : (⟨S2x2048x4096, .f32⟩ : BufTy).Contents (Elt Ideal)) (x1 : (⟨S4096x11008, .i32⟩ : BufTy).Contents (Elt Ideal)) (x2 : (⟨S32x11008, .i32⟩ : BufTy).Contents (Elt Ideal)) (x3 : (⟨S32x11008, .f32⟩ : BufTy).Contents (Elt Ideal)) (b : Fin 2) (s : Fin 2048) (j : Fin 11008) :
    val_main_v24 (F := Ideal) x0 x1 x2 x3 (ix3 b s j)
      = ∑ k, X x0 (flatRow b s) k * deq rows_4096 (Q x1) (Q x2) (Mat x3) k j := by
  rw [val_main_v24_apply]
  refine Finset.sum_congr rfl fun k _ => ?_
  rw [lidx_v24, ridx_v24, gate_weight, flatRow, X_flat]

/-- The second contraction: the input row against the restored up matrix. -/
theorem up_dot (x0 : (⟨S2x2048x4096, .f32⟩ : BufTy).Contents (Elt Ideal)) (x4 : (⟨S4096x11008, .i32⟩ : BufTy).Contents (Elt Ideal)) (x5 : (⟨S32x11008, .i32⟩ : BufTy).Contents (Elt Ideal)) (x6 : (⟨S32x11008, .f32⟩ : BufTy).Contents (Elt Ideal)) (b : Fin 2) (s : Fin 2048) (j : Fin 11008) :
    val_main_v25 (F := Ideal) x0 x4 x5 x6 (ix3 b s j)
      = ∑ k, X x0 (flatRow b s) k * deq rows_4096 (Q x4) (Q x5) (Mat x6) k j := by
  rw [val_main_v25_apply]
  refine Finset.sum_congr rfl fun k _ => ?_
  rw [lidx_v25, ridx_v25, up_weight, flatRow, X_flat]

/-- The called function, read at an index, is the gate of its argument. -/
theorem gated (x0 : (⟨S2x2048x4096, .f32⟩ : BufTy).Contents (Elt Ideal)) (x1 : (⟨S4096x11008, .i32⟩ : BufTy).Contents (Elt Ideal)) (x2 : (⟨S32x11008, .i32⟩ : BufTy).Contents (Elt Ideal)) (x3 : (⟨S32x11008, .f32⟩ : BufTy).Contents (Elt Ideal)) (i : S2x2048x11008.Idx) :
    val_main_v26 (F := Ideal) x0 x1 x2 x3 i = gate (val_main_v24 (F := Ideal) x0 x1 x2 x3 i) := by
  rw [val_main_v26_apply, val_main_call0_v5_apply, val_main_call0_v4_apply, val_main_call0_cst_0_apply,
    val_main_call0_v3_apply, val_main_call0_v2_apply, val_main_call0_cst_apply, val_main_call0_v1_apply,
    val_main_call0_v0_apply]
  generalize val_main_v24 (F := Ideal) x0 x1 x2 x3 i = g
  show g * Ideal.div (Ideal.ofBits .f32 0x3F800000#32)
      (Ideal.ofBits .f32 0x3F800000#32 + Ideal.exp (-g)) = gate g
  rw [ofBits_one_f32]
  rfl

/-- The gated product at `(b, s, j)` is the specification's hidden activation of row `2048 · b + s`. -/
theorem hidden_apply (x0 : (⟨S2x2048x4096, .f32⟩ : BufTy).Contents (Elt Ideal)) (x1 : (⟨S4096x11008, .i32⟩ : BufTy).Contents (Elt Ideal)) (x2 : (⟨S32x11008, .i32⟩ : BufTy).Contents (Elt Ideal)) (x3 : (⟨S32x11008, .f32⟩ : BufTy).Contents (Elt Ideal)) (x4 : (⟨S4096x11008, .i32⟩ : BufTy).Contents (Elt Ideal)) (x5 : (⟨S32x11008, .i32⟩ : BufTy).Contents (Elt Ideal)) (x6 : (⟨S32x11008, .f32⟩ : BufTy).Contents (Elt Ideal)) (b : Fin 2) (s : Fin 2048) (j : Fin 11008) :
    val_main_v27 (F := Ideal) x0 x1 x2 x3 x4 x5 x6 (ix3 b s j)
      = hidden (X x0) (deq rows_4096 (Q x1) (Q x2) (Mat x3)) (deq rows_4096 (Q x4) (Q x5) (Mat x6))
          (flatRow b s) j := by
  rw [val_main_v27_apply, gated, gate_dot, up_dot]
  rfl

/-! ### The result -/

/-- The reference's result at `(b, s, d)`. -/
theorem ref_at (x0 : (⟨S2x2048x4096, .f32⟩ : BufTy).Contents (Elt Ideal)) (x1 : (⟨S4096x11008, .i32⟩ : BufTy).Contents (Elt Ideal)) (x2 : (⟨S32x11008, .i32⟩ : BufTy).Contents (Elt Ideal)) (x3 : (⟨S32x11008, .f32⟩ : BufTy).Contents (Elt Ideal)) (x4 : (⟨S4096x11008, .i32⟩ : BufTy).Contents (Elt Ideal)) (x5 : (⟨S32x11008, .i32⟩ : BufTy).Contents (Elt Ideal)) (x6 : (⟨S32x11008, .f32⟩ : BufTy).Contents (Elt Ideal)) (x7 : (⟨S11008x4096, .i32⟩ : BufTy).Contents (Elt Ideal)) (x8 : (⟨S86x4096, .i32⟩ : BufTy).Contents (Elt Ideal)) (x9 : (⟨S86x4096, .f32⟩ : BufTy).Contents (Elt Ideal)) (b : Fin 2) (s : Fin 2048) (d : Fin 4096) :
    val_main_v28 (F := Ideal) x0 x1 x2 x3 x4 x5 x6 x7 x8 x9 (ix3 b s d)
      = Cert.Mlp.out (X x0) (deq rows_4096 (Q x1) (Q x2) (Mat x3)) (deq rows_4096 (Q x4) (Q x5) (Mat x6))
          (deq rows_11008 (Q x7) (Q x8) (Mat x9)) (flatRow b s) d := by
  rw [val_main_v28_apply]
  unfold Cert.Mlp.out
  refine Finset.sum_congr rfl fun j _ => ?_
  rw [lidx_v28, ridx_v28, hidden_apply, down_weight]

/-- The reference program's result, as a function of the index, is the specification of the arrays read
    as matrices, at row `2048 · b + s` and column `d` for the index `(b, s, d)`. -/
theorem ref_is_spec (x0 : (⟨S2x2048x4096, .f32⟩ : BufTy).Contents (Elt Ideal)) (x1 : (⟨S4096x11008, .i32⟩ : BufTy).Contents (Elt Ideal)) (x2 : (⟨S32x11008, .i32⟩ : BufTy).Contents (Elt Ideal)) (x3 : (⟨S32x11008, .f32⟩ : BufTy).Contents (Elt Ideal)) (x4 : (⟨S4096x11008, .i32⟩ : BufTy).Contents (Elt Ideal)) (x5 : (⟨S32x11008, .i32⟩ : BufTy).Contents (Elt Ideal)) (x6 : (⟨S32x11008, .f32⟩ : BufTy).Contents (Elt Ideal)) (x7 : (⟨S11008x4096, .i32⟩ : BufTy).Contents (Elt Ideal)) (x8 : (⟨S86x4096, .i32⟩ : BufTy).Contents (Elt Ideal)) (x9 : (⟨S86x4096, .f32⟩ : BufTy).Contents (Elt Ideal)) :
    val_main_v28 (F := Ideal) x0 x1 x2 x3 x4 x5 x6 x7 x8 x9
      = fun i => Cert.Mlp.out (X x0) (deq rows_4096 (Q x1) (Q x2) (Mat x3))
          (deq rows_4096 (Q x4) (Q x5) (Mat x6)) (deq rows_11008 (Q x7) (Q x8) (Mat x9))
          ⟨2048 * (i 0).val + (i 1).val, by
            have h0 : (i 0).val < 2 := (i 0).isLt
            have h1 : (i 1).val < 2048 := (i 1).isLt
            omega⟩
          ⟨(i 2).val, (i 2).isLt⟩ := by
  funext i
  obtain ⟨b, s, d, rfl⟩ : ∃ (b : Fin 2) (s : Fin 2048) (d : Fin 4096), i = ix3 b s d :=
    ⟨i 0, i 1, i 2, eq_ix3 i⟩
  exact ref_at x0 x1 x2 x3 x4 x5 x6 x7 x8 x9 b s d

end Cert.ReferenceIdeal.RefSpec

end
-- ==== Proof.lean ====
/-
  An int4-quantised gated MLP: out = (silu(x·Wg) ⊙ (x·Wu))·Wd with W = (q − z)·s per group of 128 input rows.

  The kernel computes it in two pipelined regions. Region 0 tiles the gate and up projections over a (4, 43, 4)
  grid, accumulating the contraction over four slices in two carried accumulators and writing
  g · (1 / (1 + e^(0 − g))) · u at the last slice; the host pads the hidden axis from 11008 to 11264 with zeros;
  region 1 tiles the down projection over a (4, 8, 11) grid with one carried accumulator. The reference computes the
  same three projections untiled. On the extended reals the two agree entry by entry: a sum over 4096 (resp. 11264)
  positions is the sum over its 4 (resp. 11) consecutive slices, the 256 padded positions contribute
  zero times a weight, which is zero, and 0 − g is −g. No finiteness of the inputs is needed: only commutativity
  and associativity of the addition are used, so the precondition is never opened.

  The three frame claims: both kernel programs run through the launch of their two regions (module KI/Run and its
  word-level twin), each region a body obligation over proof data that carries the accumulators from point to point;
  the reference is a straight line of host operations. The ideal pass rewrote nothing, so `preserves` is `True`.
-/
import proofs.«104653_j17798344475235_1_alg».proof.Defs
import proofs.«104653_j17798344475235_1_alg».proof.Proof.Gen.Kernel
import proofs.«104653_j17798344475235_1_alg».proof.Proof.Gen.KernelIdeal
import proofs.«104653_j17798344475235_1_alg».proof.Proof.Gen.ReferenceIdeal
import proofs.«104653_j17798344475235_1_alg».proof.Proof.Gen.Pre_finite_inputs
import proofs.«104653_j17798344475235_1_alg».proof.Proof.Gen.ReferenceIdeal.Read
import proofs.«104653_j17798344475235_1_alg».proof.Proof.K.Ends
import proofs.«104653_j17798344475235_1_alg».proof.Proof.KI.Ends
import proofs.«104653_j17798344475235_1_alg».proof.Proof.KI.Value
import proofs.«104653_j17798344475235_1_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result at the specification of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W12 (F := Ideal) m c (Proc.devRef .tc Cert.KernelIdeal.main_v8), ?_, ?_⟩
  · exact (θ_run Cert.KernelIdeal.defs _ _).mono (fun r h c =>
      ⟨h c _ (Cert.KernelIdeal.Hand.mem_uc Cert.KernelIdeal.main_v8 (by decide)),
       (h c _ (Cert.KernelIdeal.Hand.mem_uc Cert.KernelIdeal.main_arg0 (by decide))).trans (Cert.KernelIdeal.Hand.W12_main_arg0 m c),
       (h c _ (Cert.KernelIdeal.Hand.mem_uc Cert.KernelIdeal.main_arg1 (by decide))).trans (Cert.KernelIdeal.Hand.W12_main_arg1 m c),
       (h c _ (Cert.KernelIdeal.Hand.mem_uc Cert.KernelIdeal.main_arg2 (by decide))).trans (Cert.KernelIdeal.Hand.W12_main_arg2 m c),
       (h c _ (Cert.KernelIdeal.Hand.mem_uc Cert.KernelIdeal.main_arg3 (by decide))).trans (Cert.KernelIdeal.Hand.W12_main_arg3 m c),
       (h c _ (Cert.KernelIdeal.Hand.mem_uc Cert.KernelIdeal.main_arg4 (by decide))).trans (Cert.KernelIdeal.Hand.W12_main_arg4 m c),
       (h c _ (Cert.KernelIdeal.Hand.mem_uc Cert.KernelIdeal.main_arg5 (by decide))).trans (Cert.KernelIdeal.Hand.W12_main_arg5 m c),
       (h c _ (Cert.KernelIdeal.Hand.mem_uc Cert.KernelIdeal.main_arg6 (by decide))).trans (Cert.KernelIdeal.Hand.W12_main_arg6 m c),
       (h c _ (Cert.KernelIdeal.Hand.mem_uc Cert.KernelIdeal.main_arg7 (by decide))).trans (Cert.KernelIdeal.Hand.W12_main_arg7 m c),
       (h c _ (Cert.KernelIdeal.Hand.mem_uc Cert.KernelIdeal.main_arg8 (by decide))).trans (Cert.KernelIdeal.Hand.W12_main_arg8 m c),
       (h c _ (Cert.KernelIdeal.Hand.mem_uc Cert.KernelIdeal.main_arg9 (by decide))).trans (Cert.KernelIdeal.Hand.W12_main_arg9 m c)⟩)
      (Cert.KernelIdeal.Hand.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v28_eq, Cert.ReferenceIdeal.RefSpec.ref_is_spec,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact (Cert.KernelIdeal.Hand.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
